-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v50)) (v3 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_v58) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S4x2048x2048 .f32) (main_arg1 : FVec F S8192x2048 .f32) (main_arg2 : FVec F S8192x2048 .f32) (main_arg3 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S4x2048x2048 : Shape := ⟨3, ![4, 2048, 2048]⟩
abbrev S8192x2048 : Shape := ⟨2, ![8192, 2048]⟩
abbrev S2048x8192 : Shape := ⟨2, ![2048, 8192]⟩
abbrev S8192x8192 : Shape := ⟨2, ![8192, 8192]⟩
abbrev S512x2048 : Shape := ⟨2, ![512, 2048]⟩
abbrev S256x2048 : Shape := ⟨2, ![256, 2048]⟩
abbrev S2048x256 : Shape := ⟨2, ![2048, 256]⟩
abbrev S512x256 : Shape := ⟨2, ![512, 256]⟩
abbrev S4x2047x2048 : Shape := ⟨3, ![4, 2047, 2048]⟩
abbrev S4x1x2048 : Shape := ⟨3, ![4, 1, 2048]⟩
abbrev S_ : Shape := ⟨0, ![]⟩
abbrev S2048 : Shape := ⟨1, ![2048]⟩
abbrev S1x2048x1 : Shape := ⟨3, ![1, 2048, 1]⟩
abbrev S2048x512 : Shape := ⟨2, ![2048, 512]⟩
abbrev S256x512 : Shape := ⟨2, ![256, 512]⟩

abbrev nBuf : Space → Nat
  | .hbm => 103
  | .vmem => 30
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S2048x8192, .bf16⟩
  | .hbm, ⟨9, _⟩ => ⟨S8192x2048, .f32⟩
  | .hbm, ⟨10, _⟩ => ⟨S8192x8192, .bf16⟩
  | .hbm, ⟨11, _⟩ => ⟨S8192x8192, .bf16⟩
  | .hbm, ⟨12, _⟩ => ⟨S4x2048x2048, .f32⟩
  | .hbm, ⟨13, _⟩ => ⟨S4x2047x2048, .f32⟩
  | .hbm, ⟨14, _⟩ => ⟨S4x1x2048, .f32⟩
  | .hbm, ⟨15, _⟩ => ⟨S_, .f32⟩
  | .hbm, ⟨16, _⟩ => ⟨S4x1x2048, .f32⟩
  | .hbm, ⟨17, _⟩ => ⟨S4x2048x2048, .f32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S1x2048x1, .i1⟩
  | .hbm, ⟨23, _⟩ => ⟨S4x2048x2048, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S_, .f32⟩
  | .hbm, ⟨29, _⟩ => ⟨S4x2048x2048, .i1⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192x2048, .f32⟩
  | .hbm, ⟨48, _⟩ => ⟨S8192x2048, .bf16⟩
  | .hbm, ⟨49, _⟩ => ⟨S2048x8192, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048x8192, .f32⟩
  | .hbm, ⟨54, _⟩ => ⟨S2048x8192, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S8192x2048, .f32⟩
  | .hbm, ⟨74, _⟩ => ⟨S8192x2048, .f32⟩
  | .hbm, ⟨75, _⟩ => ⟨S2048x8192, .f32⟩
  | .hbm, ⟨76, _⟩ => ⟨S2048x8192, .f32⟩
  | .hbm, ⟨77, _⟩ => ⟨S2048x8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S2048x8192, .f32⟩
  | .hbm, ⟨88, _⟩ => ⟨S2048x8192, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S8192x2048, .f32⟩
  | .hbm, ⟨102, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S2048x256, .bf16⟩
  | .local _ .vmem, ⟨7, _⟩ => ⟨S2048x256, .bf16⟩
  | .local _ .vmem, ⟨8, _⟩ => ⟨S512x2048, .f32⟩
  | .local _ .vmem, ⟨9, _⟩ => ⟨S512x2048, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .f32⟩
  | .local _ .vmem, ⟨25, _⟩ => ⟨S2048x256, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28_0 : Ref sig .tc := ⟨.hbm, 49, rfl⟩
abbrev main_v28_1 : Ref sig .tc := ⟨.hbm, 50, rfl⟩
abbrev main_v28_2 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call2_v0 : Ref sig .tc := ⟨.hbm, 63, rfl⟩
abbrev main_call2_cst : Ref sig .tc := ⟨.hbm, 64, rfl⟩
abbrev main_call2_v1 : Ref sig .tc := ⟨.hbm, 65, rfl⟩
abbrev main_v37 : Ref sig .tc := ⟨.hbm, 66, rfl⟩
abbrev main_cst_10 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_cst_12 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_call3_v0 : Ref sig .tc := ⟨.hbm, 77, rfl⟩
abbrev main_call3_cst : Ref sig .tc := ⟨.hbm, 78, rfl⟩
abbrev main_call3_v1 : Ref sig .tc := ⟨.hbm, 79, rfl⟩
abbrev main_v45 : Ref sig .tc := ⟨.hbm, 80, rfl⟩
abbrev main_cst_13 : Ref sig .tc := ⟨.hbm, 81, rfl⟩
abbrev main_v46 : Ref sig .tc := ⟨.hbm, 82, rfl⟩
abbrev main_cst_14 : Ref sig .tc := ⟨.hbm, 83, rfl⟩
abbrev main_v47 : Ref sig .tc := ⟨.hbm, 84, rfl⟩
abbrev main_cst_15 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_call4_v0 : Ref sig .tc := ⟨.hbm, 91, rfl⟩
abbrev main_call4_cst : Ref sig .tc := ⟨.hbm, 92, rfl⟩
abbrev main_call4_v1 : Ref sig .tc := ⟨.hbm, 93, rfl⟩
abbrev main_v53 : Ref sig .tc := ⟨.hbm, 94, rfl⟩
abbrev main_cst_16 : Ref sig .tc := ⟨.hbm, 95, rfl⟩
abbrev main_v54 : Ref sig .tc := ⟨.hbm, 96, rfl⟩
abbrev main_cst_17 : Ref sig .tc := ⟨.hbm, 97, rfl⟩
abbrev main_v55 : Ref sig .tc := ⟨.hbm, 98, rfl⟩
abbrev main_cst_18 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![32, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S4x2048x2048_S8192x2048 : S4x2048x2048.ShapeCasts S8192x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S256x2048_p1_0_S2048x256 : S256x2048.Transposes [1, 0] S2048x256
  transposes_S2048x256_p1_0_S256x2048 : S2048x256.Transposes [1, 0] S256x2048
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  shapeCasts_S8192x2048_S4x2048x2048 : S8192x2048.ShapeCasts S4x2048x2048
  slices_S4x2048x2048_S4x2047x2048_0_1_0 : S4x2048x2048.Slices ![0, 1, 0] S4x2047x2048
  slices_S4x2048x2048_S4x1x2048_0_0_0 : S4x2048x2048.Slices ![0, 0, 0] S4x1x2048
  bcast_S_S4x1x2048 : S_.BroadcastsInDim S4x1x2048 (![] : Fin 0 → Fin S4x1x2048.rank)
  concatenates_S4x2047x2048_S4x1x2048_S4x2048x2048_d1 : Shape.Concatenates [S4x2047x2048, S4x1x2048] S4x2048x2048 1
  bcast_S_S2048 : S_.BroadcastsInDim S2048 (![] : Fin 0 → Fin S2048.rank)
  shapeCasts_S2048_S1x2048x1 : S2048.ShapeCasts S1x2048x1
  bcast_S_S4x2048x2048 : S_.BroadcastsInDim S4x2048x2048 (![] : Fin 0 → Fin S4x2048x2048.rank)
  bcast_S1x2048x1_S4x2048x2048_0_1_2 : S1x2048x1.BroadcastsInDim S4x2048x2048 (![0, 1, 2] : Fin 3 → Fin S4x2048x2048.rank)
  reducesTo_S4x2048x2048_S_d0_1_2 : S4x2048x2048.ReducesTo [0, 1, 2] S_
  h_S_ : 0 < S_.numel
  shapeCasts_S512x256_S512x256 : S512x256.ShapeCasts S512x256
  transposes_S512x2048_p1_0_S2048x512 : S512x2048.Transposes [1, 0] S2048x512
  transposes_S512x256_p1_0_S256x512 : S512x256.Transposes [1, 0] S256x512
  bcast_S_S2048x8192 : S_.BroadcastsInDim S2048x8192 (![] : Fin 0 → Fin S2048x8192.rank)
  bcast_S_S8192x2048 : S_.BroadcastsInDim S8192x2048 (![] : Fin 0 → Fin S8192x2048.rank)
  reducesTo_S8192x2048_S_d0_1 : S8192x2048.ReducesTo [0, 1] S_
  reducesTo_S2048x8192_S_d0_1 : S2048x8192.ReducesTo [0, 1] S_
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  dot_S2048x512_S512x256_S2048x256_1_0_0_1_n_n_wf : DotDims.WF S2048x512 S512x256 S2048x256 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .bf16 = 32 ∨ (Rect.block (s := S8192x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .bf16 = 32 ∨ (Rect.block (s := S8192x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x8192.size a
  hwx0_3 : ∀ i : grid0.Coords, EltTy.bits .bf16 = 32 ∨ (Rect.block (s := S2048x8192) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x8192.size a
  hwx0_5 : ∀ i : grid0.Coords, EltTy.bits .bf16 = 32 ∨ (Rect.block (s := S8192x8192) S512x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S8192x8192.size a
  hwx0_6 : ∀ i : grid0.Coords, EltTy.bits .bf16 = 32 ∨ (Rect.block (s := S8192x8192) S512x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .bf16 = 32 ∨ (Rect.block (s := S8192x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S8192x2048.size a
  hwx1_1 : ∀ i : grid1.Coords, EltTy.bits .bf16 = 32 ∨ (Rect.block (s := S8192x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x8192.size a
  hwx1_2 : ∀ i : grid1.Coords, EltTy.bits .bf16 = 32 ∨ (Rect.block (s := S8192x8192) S512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x8192.size a
  hwx1_3 : ∀ i : grid1.Coords, EltTy.bits .bf16 = 32 ∨ (Rect.block (s := S8192x8192) S512x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S2048x8192.size a
  hwx1_4 : ∀ i : grid1.Coords, EltTy.bits .bf16 = 32 ∨ (Rect.block (s := S2048x8192) S2048x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S2048x8192.size a
  hwx1_5 : ∀ i : grid1.Coords, EltTy.bits .f32 = 32 ∨ (Rect.block (s := S2048x8192) S2048x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x2048.size a ≤ S8192x2048.size a
  hwx1_6 : ∀ i : grid1.Coords, EltTy.bits .f32 = 32 ∨ (Rect.block (s := S8192x2048) S256x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x2048.size a ≤ S8192x2048.size a
  hwx1_7 : ∀ i : grid1.Coords, EltTy.bits .f32 = 32 ∨ (Rect.block (s := S8192x2048) S256x2048.size (cc1_transform_7 i) (hinb1_7 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_2) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S2048x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28_0) S2048x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v28_1) S256x2048.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v28_2) S256x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048x8192 : Shape := ⟨2, ![2048, 8192]⟩
abbrev S4x2048x8192 : Shape := ⟨3, ![4, 2048, 8192]⟩
abbrev S_ : Shape := ⟨0, ![]⟩
abbrev S4x2047x2048 : Shape := ⟨3, ![4, 2047, 2048]⟩
abbrev S8188x2048 : Shape := ⟨2, ![8188, 2048]⟩
abbrev S8188x8192 : Shape := ⟨2, ![8188, 8192]⟩
abbrev S2048x8188 : Shape := ⟨2, ![2048, 8188]⟩
abbrev S8192x8188 : Shape := ⟨2, ![8192, 8188]⟩

abbrev nBuf : Space → Nat
  | .hbm => 132
  | .vmem => 0
  | .smem => 0
  | _ => 0

abbrev hbmTy0_0 (i : Nat) : BufTy := match i % 128 with
  | 0 => ⟨S4x2048x2048, .f32⟩
  | 1 => ⟨S8192x2048, .f32⟩
  | 2 => ⟨S8192x2048, .f32⟩
  | 3 => ⟨S2048x8192, .f32⟩
  | 4 => ⟨S4x2048x8192, .f32⟩
  | 5 => ⟨S4x2048x8192, .f32⟩
  | 6 => ⟨S4x2048x8192, .f32⟩
  | 7 => ⟨S4x2048x8192, .f32⟩
  | 8 => ⟨S_, .f32⟩
  | 9 => ⟨S4x2048x8192, .f32⟩
  | 10 => ⟨S4x2048x8192, .f32⟩
  | 11 => ⟨S_, .f32⟩
  | 12 => ⟨S4x2048x8192, .f32⟩
  | 13 => ⟨S4x2048x8192, .f32⟩
  | 14 => ⟨S4x2048x8192, .f32⟩
  | 15 => ⟨S4x2048x8192, .f32⟩
  | 16 => ⟨S4x2048x2048, .f32⟩
  | 17 => ⟨S4x2047x2048, .f32⟩
  | 18 => ⟨S4x2047x2048, .f32⟩
  | 19 => ⟨S4x2047x2048, .f32⟩
  | 20 => ⟨S_, .f32⟩
  | 21 => ⟨S4x2047x2048, .f32⟩
  | 22 => ⟨S4x2047x2048, .f32⟩
  | 23 => ⟨S4x2047x2048, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S4x2047x2048, .f32⟩
  | 39 => ⟨S8188x2048, .f32⟩
  | 40 => ⟨S8188x2048, .f32⟩
  | 41 => ⟨S2048x8192, .f32⟩
  | 42 => ⟨S8188x8192, .f32⟩
  | 43 => ⟨S8188x8192, .f32⟩
  | 44 => ⟨S8188x8192, .f32⟩
  | 45 => ⟨S_, .f32⟩
  | 46 => ⟨S8188x8192, .f32⟩
  | 47 => ⟨S8188x8192, .f32⟩
  | 48 => ⟨S_, .f32⟩
  | 49 => ⟨S8188x8192, .f32⟩
  | 50 => ⟨S8188x8192, .f32⟩
  | 51 => ⟨S8188x8192, .f32⟩
  | 52 => ⟨S2048x8192, .f32⟩
  | 53 => ⟨S8188x8192, .f32⟩
  | 54 => ⟨S8188x8192, .f32⟩
  | 55 => ⟨S2048x8188, .f32⟩
  | 56 => ⟨S2048x8192, .f32⟩
  | 57 => ⟨S_, .f32⟩
  | 58 => ⟨S2048x8192, .f32⟩
  | 59 => ⟨S2048x8192, .f32⟩
  | 60 => ⟨S8188x8192, .f32⟩
  | 61 => ⟨S8188x8192, .f32⟩
  | 62 => ⟨S8188x8192, .f32⟩
  | 63 => ⟨S8188x8192, .f32⟩
  | 64 => ⟨S8188x8192, .f32⟩
  | 65 => ⟨S_, .f32⟩
  | 66 => ⟨S8188x8192, .f32⟩
  | 67 => ⟨S8188x8192, .f32⟩
  | 68 => ⟨S_, .f32⟩
  | 69 => ⟨S8188x8192, .f32⟩
  | 70 => ⟨S8188x8192, .f32⟩
  | 71 => ⟨S8188x8192, .f32⟩
  | 72 => ⟨S_, .f32⟩
  | 73 => ⟨S8188x8192, .f32⟩
  | 74 => ⟨S8188x8192, .f32⟩
  | 75 => ⟨S8188x8192, .f32⟩
  | 76 => ⟨S_, .f32⟩
  | 77 => ⟨S8188x8192, .f32⟩
  | 78 => ⟨S8188x8192, .f32⟩
  | 79 => ⟨S8188x8192, .f32⟩
  | 80 => ⟨S8192x8188, .f32⟩
  | 81 => ⟨S8192x2048, .f32⟩
  | 82 => ⟨S_, .f32⟩
  | 83 => ⟨S8192x2048, .f32⟩
  | 84 => ⟨S8192x2048, .f32⟩
  | 85 => ⟨S8192x8188, .f32⟩
  | 86 => ⟨S8192x2048, .f32⟩
  | 87 => ⟨S_, .f32⟩
  | 88 => ⟨S8192x2048, .f32⟩
  | 89 => ⟨S8192x2048, .f32⟩
  | 90 => ⟨S8192x2048, .f32⟩
  | 91 => ⟨S8192x2048, .f32⟩
  | 92 => ⟨S8192x2048, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S8192x2048, .f32⟩
  | 103 => ⟨S8192x2048, .f32⟩
  | 104 => ⟨S2048x8192, .f32⟩
  | 105 => ⟨S2048x8192, .f32⟩
  | 106 => ⟨S2048x8192, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S2048x8192, .f32⟩
  | 117 => ⟨S2048x8192, .f32⟩
  | 118 => ⟨S8192x2048, .f32⟩
  | 119 => ⟨S8192x2048, .f32⟩
  | 120 => ⟨S8192x2048, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x2048x2048, .f32⟩

abbrev hbmTy0_1 (i : Nat) : BufTy := match i % 128 with
  | 0 => ⟨S_, .f32⟩
  | 1 => ⟨S_, .f32⟩
  | 2 => ⟨S8192x2048, .f32⟩
  | 3 => ⟨S8192x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_6 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_8 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_9 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_10 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_11 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call3_v0 : Ref sig .tc := ⟨.hbm, 92, rfl⟩
abbrev main_call3_cst : Ref sig .tc := ⟨.hbm, 93, rfl⟩
abbrev main_call3_v1 : Ref sig .tc := ⟨.hbm, 94, rfl⟩
abbrev main_v56 : Ref sig .tc := ⟨.hbm, 95, rfl⟩
abbrev main_cst_12 : Ref sig .tc := ⟨.hbm, 96, rfl⟩
abbrev main_v57 : Ref sig .tc := ⟨.hbm, 97, rfl⟩
abbrev main_cst_13 : Ref sig .tc := ⟨.hbm, 98, rfl⟩
abbrev main_v58 : Ref sig .tc := ⟨.hbm, 99, rfl⟩
abbrev main_cst_14 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_call4_v0 : Ref sig .tc := ⟨.hbm, 106, rfl⟩
abbrev main_call4_cst : Ref sig .tc := ⟨.hbm, 107, rfl⟩
abbrev main_call4_v1 : Ref sig .tc := ⟨.hbm, 108, rfl⟩
abbrev main_v64 : Ref sig .tc := ⟨.hbm, 109, rfl⟩
abbrev main_cst_15 : Ref sig .tc := ⟨.hbm, 110, rfl⟩
abbrev main_v65 : Ref sig .tc := ⟨.hbm, 111, rfl⟩
abbrev main_cst_16 : Ref sig .tc := ⟨.hbm, 112, rfl⟩
abbrev main_v66 : Ref sig .tc := ⟨.hbm, 113, rfl⟩
abbrev main_cst_17 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_call5_v0 : Ref sig .tc := ⟨.hbm, 120, rfl⟩
abbrev main_call5_cst : Ref sig .tc := ⟨.hbm, 121, rfl⟩
abbrev main_call5_v1 : Ref sig .tc := ⟨.hbm, 122, rfl⟩
abbrev main_v72 : Ref sig .tc := ⟨.hbm, 123, rfl⟩
abbrev main_cst_18 : Ref sig .tc := ⟨.hbm, 124, rfl⟩
abbrev main_v73 : Ref sig .tc := ⟨.hbm, 125, rfl⟩
abbrev main_cst_19 : Ref sig .tc := ⟨.hbm, 126, rfl⟩
abbrev main_v74 : Ref sig .tc := ⟨.hbm, 127, rfl⟩
abbrev main_cst_20 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩

abbrev nD : Nat := 1
abbrev τ : Topo := Topo.v7x

variable {F : FTy → Type} [FloatOps F]

class Facts₀ : Prop where
  bcast_S_S4x2048x8192 : S_.BroadcastsInDim S4x2048x8192 (![] : Fin 0 → Fin S4x2048x8192.rank)
  slices_S4x2048x2048_S4x2047x2048_0_0_0 : S4x2048x2048.Slices ![0, 0, 0] S4x2047x2048
  slices_S4x2048x2048_S4x2047x2048_0_1_0 : S4x2048x2048.Slices ![0, 1, 0] S4x2047x2048
  bcast_S_S4x2047x2048 : S_.BroadcastsInDim S4x2047x2048 (![] : Fin 0 → Fin S4x2047x2048.rank)
  reducesTo_S4x2047x2048_S_d0_1_2 : S4x2047x2048.ReducesTo [0, 1, 2] S_
  h_S_ : 0 < S_.numel
  shapeCasts_S4x2047x2048_S8188x2048 : S4x2047x2048.ShapeCasts S8188x2048
  transposes_S8192x2048_S2048x8192_1_0 : S8192x2048.Transposes [1, 0] S2048x8192
  bcast_S_S8188x8192 : S_.BroadcastsInDim S8188x8192 (![] : Fin 0 → Fin S8188x8192.rank)
  transposes_S8188x2048_S2048x8188_1_0 : S8188x2048.Transposes [1, 0] S2048x8188
  bcast_S_S2048x8192 : S_.BroadcastsInDim S2048x8192 (![] : Fin 0 → Fin S2048x8192.rank)
  transposes_S8188x8192_S8192x8188_1_0 : S8188x8192.Transposes [1, 0] S8192x8188
  bcast_S_S8192x2048 : S_.BroadcastsInDim S8192x2048 (![] : Fin 0 → Fin S8192x2048.rank)
  reducesTo_S8192x2048_S_d0_1 : S8192x2048.ReducesTo [0, 1] S_
  reducesTo_S2048x8192_S_d0_1 : S2048x8192.ReducesTo [0, 1] S_
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []
  dot_S8188x2048_S2048x8192_S8188x8192_1_0_0_1_n_n_wf : DotDims.WF S8188x2048 S2048x8192 S8188x8192 [1] [0] [0] [1] [] []
  dot_S2048x8188_S8188x8192_S2048x8192_1_0_0_1_n_n_wf : DotDims.WF S2048x8188 S8188x8192 S2048x8192 [1] [0] [0] [1] [] []
  dot_S8192x8188_S8188x2048_S8192x2048_1_0_0_1_n_n_wf : DotDims.WF S8192x8188 S8188x2048 S8192x2048 [1] [0] [0] [1] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf
def dot_S8188x2048_S2048x8192_S8188x8192_1_0_0_1_n_n : DotDims S8188x2048 S2048x8192 S8188x8192 where
  lhsContracting := [1]
  rhsContracting := [0]
  lhsNonContracting := [0]
  rhsNonContracting := [1]
  lhsBatch := []
  rhsBatch := []
  wf := dot_S8188x2048_S2048x8192_S8188x8192_1_0_0_1_n_n_wf
def dot_S2048x8188_S8188x8192_S2048x8192_1_0_0_1_n_n : DotDims S2048x8188 S8188x8192 S2048x8192 where
  lhsContracting := [1]
  rhsContracting := [0]
  lhsNonContracting := [0]
  rhsNonContracting := [1]
  lhsBatch := []
  rhsBatch := []
  wf := dot_S2048x8188_S8188x8192_S2048x8192_1_0_0_1_n_n_wf
def dot_S8192x8188_S8188x2048_S8192x2048_1_0_0_1_n_n : DotDims S8192x8188 S8188x2048 S8192x2048 where
  lhsContracting := [1]
  rhsContracting := [0]
  lhsNonContracting := [0]
  rhsNonContracting := [1]
  lhsBatch := []
  rhsBatch := []
  wf := dot_S8192x8188_S8188x2048_S8192x2048_1_0_0_1_n_n_wf

class Facts : Prop extends Facts₀ where

variable [Facts]
-- ==== Proof.HostHead.lean ====
/-
  The first stretch of the idealized kernel program, before its first kernel region: the 4 × 2048 × 2048 input is laid out
  as 8192 rows, and it and the three weight matrices are narrowed to the shorter float format (the identity at the exact
  values). Here the four buffers the first region reads are named as those functions of the launch memory.
-/
import proofs.«115693_j5566277616153_2_alg».proof.Proof.Gen.KernelIdeal.Frame
import Idealize.ShloMosaic.Lib.StableHlo.Run

set_option maxRecDepth 16384

noncomputable section

namespace Cert.KernelIdeal.HostValue

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The input as 8192 rows, narrowed. -/
theorem W1_v1 (c : Dev nD) : W1 m ρ c (Proc.devRef .tc main_v1)
    = truncf .bf16 (shapeCast S8192x2048 (m ((c : Thread nD τ).loc main_arg0)) shapeCasts_S4x2048x2048_S8192x2048) bitsLt_bf16_f32 := by
  show StableHlo.after hostOps0 (W0 m ρ c) (Proc.devRef .tc main_v1) = _
  after_results <;> rfl

/-- The gate-projection weight (the program's third argument), narrowed. -/
theorem W1_v2 (c : Dev nD) : W1 m ρ c (Proc.devRef .tc main_v2) = truncf .bf16 (m ((c : Thread nD τ).loc main_arg2)) bitsLt_bf16_f32 := by
  show StableHlo.after hostOps0 (W0 m ρ c) (Proc.devRef .tc main_v2) = _
  after_results <;> rfl

/-- The up-projection weight (the program's second argument), narrowed. -/
theorem W1_v3 (c : Dev nD) : W1 m ρ c (Proc.devRef .tc main_v3) = truncf .bf16 (m ((c : Thread nD τ).loc main_arg1)) bitsLt_bf16_f32 := by
  show StableHlo.after hostOps0 (W0 m ρ c) (Proc.devRef .tc main_v3) = _
  after_results <;> rfl

/-- The down-projection weight (the program's fourth argument), narrowed. -/
theorem W1_v4 (c : Dev nD) : W1 m ρ c (Proc.devRef .tc main_v4) = truncf .bf16 (m ((c : Thread nD τ).loc main_arg3)) bitsLt_bf16_f32 := by
  show StableHlo.after hostOps0 (W0 m ρ c) (Proc.devRef .tc main_v4) = _
  after_results <;> rfl

/-- The input itself is as launched. -/
theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl

end Cert.KernelIdeal.HostValue

end
-- ==== Proof.LibHostFold.lean ====
/-
  The contents a device's buffers hold after a line of host operations is a left fold of the operations' results over the
  contents it started from; so the fold over a concatenation is the fold over the second line, started from the fold over
  the first. This lets a long host program be read stretch by stretch, each from the contents the one before left.
-/
import Idealize.ShloMosaic.Lib.StableHlo.Run

namespace Idealize.ShloMosaic.StableHlo

variable {nD : Nat} {τ : Topo} {sig : RefSig} {Val : EltTy → Type}

/-- The fold over `l₁ ++ l₂` is the fold over `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.HostMid.lean ====
/-
  The stretch of host operations between the two kernel regions. The first region's output, 8192 rows, is laid back out
  as 4 sequences of 2048 positions (this is the program's first result). The input shifted by one position inside each
  sequence, with zero after the last position, is subtracted from it and the difference doubled; positions 2047, which
  have no successor, are then set to zero: that is the error signal. Its Euclidean norm over the whole array divided by
  8188 is the error magnitude μ, and the gate is min(μ / max(0.95 + 0.05·μ, 10⁻⁸), 3). The error signal, laid out as
  8192 rows and narrowed, is what the second region reads.
-/
import proofs.«115693_j5566277616153_2_alg».proof.Proof.Gen.KernelIdeal.Frame
import proofs.«115693_j5566277616153_2_alg».proof.Proof.LibHostFold
import Idealize.ShloMosaic.Lib.StableHlo.Run

set_option maxRecDepth 16384

noncomputable section

namespace Cert.KernelIdeal.HostValue

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]

/-- The input shifted by one position inside each sequence, zero after the last position. -/
def xNext (x : (⟨S4x2048x2048, .f32⟩ : BufTy).Contents (Elt F)) : (⟨S4x2048x2048, .f32⟩ : BufTy).Contents (Elt F) :=
  concatenate S4x2048x2048 1 [⟨S4x2047x2048, extractStridedSlice S4x2047x2048 ![0, 1, 0] x slices_S4x2048x2048_S4x2047x2048_0_1_0⟩,
    ⟨S4x1x2048, broadcastInDim S4x1x2048 ![] bcast_S_S4x1x2048 (constant S_ .f32 0x00000000#32)⟩] concatenates_S4x2047x2048_S4x1x2048_S4x2048x2048_d1

/-- One where the position is below 2047, copied along sequences and model coordinates. -/
def validMask : (⟨S4x2048x2048, .i1⟩ : BufTy).Contents (Elt F) :=
  broadcastInDim S4x2048x2048 ![0, 1, 2] bcast_S1x2048x1_S4x2048x2048_0_1_2
    (shapeCast S1x2048x1 (cmpi .slt (iotaInDim S2048 32 0) (broadcastInDim S2048 ![] bcast_S_S2048 (constantI S_ 32 2047#32))) shapeCasts_S2048_S1x2048x1)

/-- The error signal: twice (output − shifted input) where the position has a successor, zero elsewhere. -/
def errOf (o x : (⟨S4x2048x2048, .f32⟩ : BufTy).Contents (Elt F)) : (⟨S4x2048x2048, .f32⟩ : BufTy).Contents (Elt F) :=
  select (validMask (F := F))
    (mulf (broadcastInDim S4x2048x2048 ![] bcast_S_S4x2048x2048 (constant S_ .f32 0x40000000#32)) (subf o (xNext x)))
    (broadcastInDim S4x2048x2048 ![] bcast_S_S4x2048x2048 (constant S_ .f32 0x00000000#32))

/-- The error magnitude: the Euclidean norm of the error signal divided by 8188. -/
def magOf (e : (⟨S4x2048x2048, .f32⟩ : BufTy).Contents (Elt F)) : (⟨S_, .f32⟩ : BufTy).Contents (Elt F) :=
  Host.divf (Host.sqrt (Host.reduceAdd (mulf e e) (constant S_ .f32 0x00000000#32) reducesTo_S4x2048x2048_S_d0_1_2 h_S_))
    (constant S_ .f32 0x45FFE000#32)

/-- The gate: min(μ / max(0.95 + 0.05 · μ, 10⁻⁸), 3). -/
def gateOf (e : (⟨S4x2048x2048, .f32⟩ : BufTy).Contents (Elt F)) : (⟨S_, .f32⟩ : BufTy).Contents (Elt F) :=
  minimumf (Host.divf (magOf e)
      (maximumf (addf (constant S_ .f32 0x3F733333#32) (mulf (constant S_ .f32 0x3D4CCCCD#32) (magOf e))) (constant S_ .f32 0x322BCC77#32)))
    (constant S_ .f32 0x40400000#32)

variable (m : (ℓ : Loc nD τ sig) → Buf (Elt F) ℓ) (ρ : Dev nD → PrngReg)

/-- The four host stretches between the regions, as one line of operations from the contents the first region leaves. -/
theorem W6_eq (c : Dev nD) : W6 m ρ c
    = StableHlo.after (hostOps1 ++ (hostOps1_1 ++ (hostOps1_2 ++ hostOps1_3))) (W2 m ρ c) :=
  ((StableHlo.after_append hostOps1 _ _).trans ((StableHlo.after_append hostOps1_1 _ _).trans
    (StableHlo.after_append hostOps1_2 _ _))).symm

/-- The first region's output laid back out as sequences × positions. -/
abbrev outOf (c : Dev nD) : (⟨S4x2048x2048, .f32⟩ : BufTy).Contents (Elt F) :=
  shapeCast S4x2048x2048 (W2 m ρ c (Proc.devRef .tc main_v5_0)) shapeCasts_S8192x2048_S4x2048x2048

set_option maxHeartbeats 4000000 in
/-- The program's first result when the second region is entered. -/
theorem W6_v6 (c : Dev nD) : W6 m ρ c (Proc.devRef .tc main_v6) = outOf m ρ c := by
  rw [W6_eq]
  simp only [hostOps1, hostOps1_1, hostOps1_2, hostOps1_3, List.cons_append, List.nil_append]
  after_results
  rfl

set_option maxHeartbeats 4000000 in
/-- The gate when the second region is entered. -/
theorem W6_v25 (c : Dev nD) : W6 m ρ c (Proc.devRef .tc main_v25)
    = gateOf (errOf (outOf m ρ c) (W2 m ρ c (Proc.devRef .tc main_arg0))) := by
  rw [W6_eq]
  simp only [hostOps1, hostOps1_1, hostOps1_2, hostOps1_3, List.cons_append, List.nil_append]
  after_results
  rfl

set_option maxHeartbeats 4000000 in
/-- The error signal as 8192 rows, narrowed: the second region's first operand. -/
theorem W6_v27 (c : Dev nD) : W6 m ρ c (Proc.devRef .tc main_v27)
    = truncf .bf16 (shapeCast S8192x2048 (errOf (outOf m ρ c) (W2 m ρ c (Proc.devRef .tc main_arg0))) shapeCasts_S4x2048x2048_S8192x2048) bitsLt_bf16_f32 := by
  rw [W6_eq]
  simp only [hostOps1, hostOps1_1, hostOps1_2, hostOps1_3, List.cons_append, List.nil_append]
  after_results
  rfl

end Cert.KernelIdeal.HostValue

end
-- ==== Proof.HostKept.lean ====
/-
  The buffers that pass unchanged through the host operations between the two kernel regions: the narrowed input rows,
  the narrowed down-projection weight, and the two pre-activation arrays the first region stored. The second region
  reads them as the first region left them.
-/
import proofs.«115693_j5566277616153_2_alg».proof.Proof.Gen.KernelIdeal.Frame
import proofs.«115693_j5566277616153_2_alg».proof.Proof.LibHostFold
import Idealize.ShloMosaic.Lib.StableHlo.Run

set_option maxRecDepth 16384

noncomputable section

namespace Cert.KernelIdeal.HostValue

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg)

/-- The four host stretches between the regions are one line of operations, folded from the contents the first
    region leaves. -/
theorem W6_eq' (c : Dev nD) : W6 m ρ c
    = StableHlo.after (hostOps1 ++ (hostOps1_1 ++ (hostOps1_2 ++ hostOps1_3))) (W2 m ρ c) :=
  ((StableHlo.after_append hostOps1 _ _).trans ((StableHlo.after_append hostOps1_1 _ _).trans
    (StableHlo.after_append hostOps1_2 _ _))).symm

set_option maxHeartbeats 4000000 in
/-- No operation between the regions writes this buffer. -/
theorem W6_v1_kept (c : Dev nD) : W6 m ρ c (Proc.devRef .tc main_v1) = W2 m ρ c (Proc.devRef .tc main_v1) := by
  rw [W6_eq']
  simp only [hostOps1, hostOps1_1, hostOps1_2, hostOps1_3, List.cons_append, List.nil_append]
  after_results

set_option maxHeartbeats 4000000 in
/-- No operation between the regions writes this buffer. -/
theorem W6_v4_kept (c : Dev nD) : W6 m ρ c (Proc.devRef .tc main_v4) = W2 m ρ c (Proc.devRef .tc main_v4) := by
  rw [W6_eq']
  simp only [hostOps1, hostOps1_1, hostOps1_2, hostOps1_3, List.cons_append, List.nil_append]
  after_results

set_option maxHeartbeats 4000000 in
/-- No operation between the regions writes this buffer. -/
theorem W6_v5_1_kept (c : Dev nD) : W6 m ρ c (Proc.devRef .tc main_v5_1) = W2 m ρ c (Proc.devRef .tc main_v5_1) := by
  rw [W6_eq']
  simp only [hostOps1, hostOps1_1, hostOps1_2, hostOps1_3, List.cons_append, List.nil_append]
  after_results

set_option maxHeartbeats 4000000 in
/-- No operation between the regions writes this buffer. -/
theorem W6_v5_2_kept (c : Dev nD) : W6 m ρ c (Proc.devRef .tc main_v5_2) = W2 m ρ c (Proc.devRef .tc main_v5_2) := by
  rw [W6_eq']
  simp only [hostOps1, hostOps1_1, hostOps1_2, hostOps1_3, List.cons_append, List.nil_append]
  after_results

end Cert.KernelIdeal.HostValue

end
-- ==== Proof.Spec.lean ====
/-
  The mathematics of the gated two-layer network and of its three weight gradients, over the extended reals, index by index.

  Forward, on the 8192 = 4 · 2048 flattened rows: with g = x · Wgᵀ and u = x · Wuᵀ (sums over the 2048 model coordinates),
  the hidden activation is (g · σ(g)) · u and the output is its product with Wdᵀ (a sum over the 8192 hidden
  coordinates). Backward, as a function of five arrays — an error signal e, the activations xp, the two stored
  pre-activations gp and up, and Wd —: the gradient of the down projection is eᵀ · ((gp · σ(gp)) · up), and with
  dh = e · Wd the gradients of the gate and up projections are ((dh · up) · σ(gp) · (1 + gp · (1 − σ(gp))))ᵀ · xp and
  (dh · (gp · σ(gp)))ᵀ · xp, every sum running over the rows.

  The error signal is twice the difference between the output at a position and the input at the NEXT position of the same
  sequence; the last position of each sequence has no successor. One arrangement keeps all 8192 rows and puts zero there;
  the other keeps only the 4 · 2047 = 8188 rows that have a successor.
-/
import Idealize.ShloMosaic.PureOps.Ideal
import Idealize.ShloMosaic.Lib.ValueIdx

noncomputable section

namespace Cert.Mlp

open Idealize.ShloMosaic

/-! ## Buffers read by coordinates -/

/-- A two-axis buffer as a function of its two coordinates. -/
def mat {n0 n1 : Nat} (w : (⟨2, ![n0, n1]⟩ : Shape).Idx → EReal) (a : Fin n0) (b : Fin n1) : EReal := w (ValueIdx.ix2 a b)

/-- The 4 × 2048 × 2048 input as 8192 rows: row r = 2048 · b + s is position s of sequence b. -/
def rowsOf (x : (⟨3, ![4, 2048, 2048]⟩ : Shape).Idx → EReal) (r : Fin 8192) (d : Fin 2048) : EReal :=
  x (ValueIdx.ix3 (⟨r.val / 2048, by have := r.isLt; omega⟩ : Fin 4) (⟨r.val % 2048, Nat.mod_lt _ (by decide)⟩ : Fin 2048) d)

/-- The constant one, as the single-precision word both programs print. -/
def one : EReal := Ideal.ofBits .f32 0x3F800000#32
/-- The constant two, as the single-precision word both programs print. -/
def two : EReal := Ideal.ofBits .f32 0x40000000#32

/-- The logistic function 1 / (1 + e^(-z)) on the extended reals. -/
def sig (z : EReal) : EReal := Ideal.logistic z
/-- z · σ(z). -/
def silu (z : EReal) : EReal := z * sig z

/-! ## Forward: rows × model width in, rows × model width out -/

section Forward

variable (X : Fin 8192 → Fin 2048 → EReal) (Wg Wu : Fin 8192 → Fin 2048 → EReal) (Wd : Fin 2048 → Fin 8192 → EReal)

/-- Row r of x against row h of a weight matrix: the pre-activation at (r, h). -/
def pre (W : Fin 8192 → Fin 2048 → EReal) (r : Fin 8192) (h : Fin 8192) : EReal := ∑ d : Fin 2048, X r d * W h d
/-- The hidden activation (g · σ(g)) · u at (r, h). -/
def hid (r : Fin 8192) (h : Fin 8192) : EReal := silu (pre X Wg r h) * pre X Wu r h
/-- The output at (r, d): the hidden row against row d of the down projection. -/
def out (r : Fin 8192) (d : Fin 2048) : EReal := ∑ h : Fin 8192, hid X Wg Wu r h * Wd d h

end Forward

/-! ## Backward: the three raw gradient sums as functions of five arrays -/

section Backward

variable (E Xp : Fin 8192 → Fin 2048 → EReal) (Gp Up : Fin 8192 → Fin 8192 → EReal) (Wd : Fin 2048 → Fin 8192 → EReal)

/-- The hidden activation recomputed from the stored pre-activations. -/
def hidB (r h : Fin 8192) : EReal := silu (Gp r h) * Up r h
/-- The error signal pulled back through the down projection: dh = e · Wd at (r, h). -/
def dHid (r h : Fin 8192) : EReal := ∑ d : Fin 2048, E r d * Wd d h
/-- The derivative with respect to the gate pre-activation at (r, h). -/
def dGate (r h : Fin 8192) : EReal :=
  ((dHid E Wd r h * Up r h) * sig (Gp r h)) * (one + Gp r h * (one - sig (Gp r h)))
/-- The derivative with respect to the up pre-activation at (r, h). -/
def dUp (r h : Fin 8192) : EReal := dHid E Wd r h * silu (Gp r h)
/-- eᵀ · hidden at (d, h), summed over all rows. -/
def rawDown (d : Fin 2048) (h : Fin 8192) : EReal := ∑ r : Fin 8192, E r d * hidB Gp Up r h
/-- (gate derivative)ᵀ · xp at (h, d), summed over all rows. -/
def rawGate (h : Fin 8192) (d : Fin 2048) : EReal := ∑ r : Fin 8192, dGate E Gp Up Wd r h * Xp r d
/-- (up derivative)ᵀ · xp at (h, d), summed over all rows. -/
def rawUp (h : Fin 8192) (d : Fin 2048) : EReal := ∑ r : Fin 8192, dUp E Gp Wd r h * Xp r d

end Backward

/-! ## The error signal, in the arrangement that keeps every row -/

section ErrorAll

variable (X : Fin 8192 → Fin 2048 → EReal) (O : Fin 8192 → Fin 2048 → EReal)

/-- Row r = 2048 · b + s has a successor in its sequence unless s = 2047. -/
def hasNext (r : Fin 8192) : Prop := r.val % 2048 < 2047
instance (r : Fin 8192) : Decidable (hasNext r) := by unfold hasNext; infer_instance

/-- The next row (meaningful only where `hasNext`). -/
def next (r : Fin 8192) : Fin 8192 := ⟨(r.val + 1) % 8192, Nat.mod_lt _ (by decide)⟩

/-- Twice (output − next input) where the row has a successor, zero where it has none. -/
def errAll (r : Fin 8192) (d : Fin 2048) : EReal := if hasNext r then two * (O r d - X (next r) d) else 0

end ErrorAll

/-! ## The arrangement that keeps only the 8188 rows with a successor -/

section Kept

/-- Kept row q = 2047 · b + s (s < 2047) is row 2048 · b + s of the full arrangement. -/
def keptRow (q : Fin 8188) : Fin 8192 :=
  ⟨2048 * (q.val / 2047) + q.val % 2047, by have := q.isLt; have := Nat.mod_lt q.val (show 0 < 2047 by decide); omega⟩

variable (X : Fin 8192 → Fin 2048 → EReal) (O : Fin 8192 → Fin 2048 → EReal)

/-- The error signal on a kept row: twice (output − next input), no case split. -/
def errKept (q : Fin 8188) (d : Fin 2048) : EReal := two * (O (keptRow q) d - X (next (keptRow q)) d)

end Kept

section BackwardKept

variable (E Xp : Fin 8188 → Fin 2048 → EReal) (Gp Up : Fin 8188 → Fin 8192 → EReal) (Wd : Fin 2048 → Fin 8192 → EReal)

/-- The same three sums over the kept rows only. -/
def hidBK (q : Fin 8188) (h : Fin 8192) : EReal := silu (Gp q h) * Up q h
def dHidK (q : Fin 8188) (h : Fin 8192) : EReal := ∑ d : Fin 2048, E q d * Wd d h
def dGateK (q : Fin 8188) (h : Fin 8192) : EReal :=
  ((dHidK E Wd q h * Up q h) * sig (Gp q h)) * (one + Gp q h * (one - sig (Gp q h)))
def dUpK (q : Fin 8188) (h : Fin 8192) : EReal := dHidK E Wd q h * silu (Gp q h)
def rawDownK (d : Fin 2048) (h : Fin 8192) : EReal := ∑ q : Fin 8188, E q d * hidBK Gp Up q h
def rawGateK (h : Fin 8192) (d : Fin 2048) : EReal := ∑ q : Fin 8188, dGateK E Gp Up Wd q h * Xp q d
def rawUpK (h : Fin 8192) (d : Fin 2048) : EReal := ∑ q : Fin 8188, dUpK E Gp Wd q h * Xp q d

end BackwardKept

end Cert.Mlp

end
-- ==== Proof.Algebra.lean ====
/-
  Pure algebra of finite sums over the extended reals and over the index types used by the gated two-layer network.

  Only the laws that hold at the infinities are used: addition and multiplication are commutative and associative,
  zero is neutral for addition and absorbing for multiplication, and a finite sum may be reindexed along a bijection or
  restricted to a subset outside of which every term is zero. Distributivity and cancellation are never used.

  Contents: a sum over a · b indices as a sum of a tiles of b indices; a running sum as a finite sum; a sum over the
  8192 rows whose terms vanish on the rows without a successor as a sum over the 8188 kept rows; and the consequences
  for the error signal, for the three raw gradient sums, for the sum of squared errors, and for the output as a sum of
  32 tiles of 256 hidden coordinates.
-/
import proofs.«115693_j5566277616153_2_alg».proof.Proof.Spec
import Mathlib.Algebra.BigOperators.Fin
import Mathlib.Logic.Equiv.Fin.Basic
import Mathlib.Data.EReal.Basic

noncomputable section

namespace Cert.Mlp

open Finset

/-! ## A sum over a · b indices as a tiles of b indices -/

/-- The k-th index of the j-th tile of width b lies below a · b. -/
theorem tile_lt {a b : ℕ} (j : Fin a) (k : Fin b) : b * j.val + k.val < a * b := by
  have h1 : b * (j.val + 1) ≤ b * a := Nat.mul_le_mul_left b j.isLt
  have h2 := k.isLt
  rw [Nat.mul_comm a b]
  have h3 : b * (j.val + 1) = b * j.val + b := Nat.mul_succ b j.val
  omega

/-- A sum over a · b indices equals the sum over a tiles of the sums over the b indices b · j + k of tile j. -/
theorem sum_tiles {M : Type*} [AddCommMonoid M] (a b : ℕ) (f : Fin (a * b) → M) :
    ∑ x, f x = ∑ j : Fin a, ∑ k : Fin b, f ⟨b * j.val + k.val, tile_lt j k⟩ := by
  rw [← Equiv.sum_comp finProdFinEquiv f, Fintype.sum_prod_type]
  refine Finset.sum_congr rfl fun j _ => Finset.sum_congr rfl fun k _ => ?_
  congr 1
  apply Fin.ext
  simp only [finProdFinEquiv, Equiv.coe_fn_mk]
  exact Nat.add_comm _ _

/-- A sum over 8192 indices equals the sum over 32 tiles of the sums over the 256 indices 256 · j + k. -/
theorem sum_tiles_32_256 {M : Type*} [AddCommMonoid M] (f : Fin 8192 → M) :
    ∑ h : Fin 8192, f h
      = ∑ j : Fin 32, ∑ k : Fin 256, f ⟨256 * j.val + k.val, by have := j.isLt; have := k.isLt; omega⟩ :=
  sum_tiles 32 256 f

/-- A sum over 8192 indices equals the sum over 16 tiles of the sums over the 512 indices 512 · j + k. -/
theorem sum_tiles_16_512 {M : Type*} [AddCommMonoid M] (f : Fin 8192 → M) :
    ∑ h : Fin 8192, f h
      = ∑ j : Fin 16, ∑ k : Fin 512, f ⟨512 * j.val + k.val, by have := j.isLt; have := k.isLt; omega⟩ :=
  sum_tiles 16 512 f

/-! ## A running sum as a finite sum -/

/-- The running sum started from zero: step 0 gives 0 + g 0, and step n + 1 adds g (n + 1) to step n. -/
def foldAcc {M : Type*} [AddCommMonoid M] (g : ℕ → M) : ℕ → M
  | 0 => 0 + g 0
  | n + 1 => foldAcc g n + g (n + 1)

/-- Any sequence that starts at 0 + g 0 and adds g (n + 1) at step n + 1 is, at step n, the sum of g j over j ≤ n. -/
theorem fold_eq_sum_of_rec {M : Type*} [AddCommMonoid M] (g acc : ℕ → M) (h0 : acc 0 = 0 + g 0)
    (hs : ∀ n, acc (n + 1) = acc n + g (n + 1)) (n : ℕ) : acc n = ∑ j ∈ Finset.range (n + 1), g j := by
  induction n with
  | zero => rw [h0, zero_add, Finset.sum_range_one]
  | succ n ih => rw [hs, ih, Finset.sum_range_succ g (n + 1)]

/-- The running sum at step n is the sum of g j over j ≤ n. -/
theorem fold_eq_sum {M : Type*} [AddCommMonoid M] (g : ℕ → M) (n : ℕ) :
    foldAcc g n = ∑ j ∈ Finset.range (n + 1), g j :=
  fold_eq_sum_of_rec g (foldAcc g) rfl (fun _ => rfl) n

/-- The running sum at step n is the sum of g j over the n + 1 indices j of Fin (n + 1). -/
theorem fold_eq_sum_fin {M : Type*} [AddCommMonoid M] (g : ℕ → M) (n : ℕ) :
    foldAcc g n = ∑ j : Fin (n + 1), g j.val := by
  rw [fold_eq_sum, Fin.sum_univ_eq_sum_range]

/-- Any sequence obeying the running-sum recursion is, at step n, the sum of g j over the indices j of Fin (n + 1). -/
theorem fold_eq_sum_fin_of_rec {M : Type*} [AddCommMonoid M] (g acc : ℕ → M) (h0 : acc 0 = 0 + g 0)
    (hs : ∀ n, acc (n + 1) = acc n + g (n + 1)) (n : ℕ) : acc n = ∑ j : Fin (n + 1), g j.val := by
  rw [fold_eq_sum_of_rec g acc h0 hs, Fin.sum_univ_eq_sum_range]

/-! ## The kept rows inside all rows -/

/-- Distinct kept rows are distinct rows. -/
theorem keptRow_injective : Function.Injective keptRow := by
  intro q1 q2 h
  have h' := congrArg Fin.val h
  simp only [keptRow] at h'
  apply Fin.ext
  have := q1.isLt
  have := q2.isLt
  omega

/-- Every kept row has a successor in its sequence. -/
theorem hasNext_keptRow (q : Fin 8188) : hasNext (keptRow q) := by
  unfold hasNext
  simp only [keptRow]
  have := q.isLt
  omega

/-- Every row with a successor is a kept row: row 2048 · b + s with s < 2047 is kept row 2047 · b + s. -/
theorem exists_keptRow_of_hasNext {r : Fin 8192} (h : hasNext r) : ∃ q, keptRow q = r := by
  unfold hasNext at h
  refine ⟨⟨2047 * (r.val / 2048) + r.val % 2048, by have := r.isLt; omega⟩, ?_⟩
  apply Fin.ext
  simp only [keptRow]
  have := r.isLt
  omega

/-- A sum over all 8192 rows whose terms vanish on the rows without a successor is the sum over the 8188 kept rows. -/
theorem sum_kept {M : Type*} [AddCommMonoid M] (f : Fin 8192 → M) (hf : ∀ r, ¬ hasNext r → f r = 0) :
    ∑ r : Fin 8192, f r = ∑ q : Fin 8188, f (keptRow q) := by
  have key : ∑ r ∈ Finset.univ.map ⟨keptRow, keptRow_injective⟩, f r = ∑ q : Fin 8188, f (keptRow q) :=
    Finset.sum_map Finset.univ ⟨keptRow, keptRow_injective⟩ f
  rw [← key]
  symm
  apply Finset.sum_subset (Finset.subset_univ _)
  intro r _ hr
  apply hf
  intro hn
  obtain ⟨q, rfl⟩ := exists_keptRow_of_hasNext hn
  exact hr (Finset.mem_map.mpr ⟨q, Finset.mem_univ _, rfl⟩)

/-! ## The error signal in the two arrangements -/

section Error

variable (X : Fin 8192 → Fin 2048 → EReal) (O : Fin 8192 → Fin 2048 → EReal)

/-- On a kept row the error signal of the all-rows arrangement is the error signal of the kept arrangement. -/
theorem errAll_kept (q : Fin 8188) (d : Fin 2048) : errAll X O (keptRow q) d = errKept X O q d := by
  unfold errAll errKept
  rw [if_pos (hasNext_keptRow q)]

/-- On a row without a successor the error signal of the all-rows arrangement is zero. -/
theorem errAll_zero {r : Fin 8192} (h : ¬ hasNext r) (d : Fin 2048) : errAll X O r d = 0 := by
  unfold errAll
  rw [if_neg h]

/-- The sum of squared errors over all rows equals the sum of squared errors over the kept rows. -/
theorem sumsq_kept :
    ∑ r : Fin 8192, ∑ d : Fin 2048, errAll X O r d * errAll X O r d
      = ∑ q : Fin 8188, ∑ d : Fin 2048, errKept X O q d * errKept X O q d := by
  rw [sum_kept (fun r => ∑ d : Fin 2048, errAll X O r d * errAll X O r d)]
  · refine Finset.sum_congr rfl fun q _ => Finset.sum_congr rfl fun d _ => ?_
    rw [errAll_kept]
  · intro r hr
    refine Finset.sum_eq_zero fun d _ => ?_
    rw [errAll_zero X O hr, zero_mul]

end Error

/-! ## The three raw gradient sums over all rows and over the kept rows -/

section Gradients

variable (E Xp : Fin 8192 → Fin 2048 → EReal) (Gp Up : Fin 8192 → Fin 8192 → EReal) (Wd : Fin 2048 → Fin 8192 → EReal)

/-- Where the error signal vanishes on a whole row, its pull-back through the down projection vanishes on that row. -/
theorem dHid_zero {r : Fin 8192} (hr : ∀ d, E r d = 0) (h : Fin 8192) : dHid E Wd r h = 0 := by
  unfold dHid
  refine Finset.sum_eq_zero fun d _ => ?_
  rw [hr d, zero_mul]

/-- Where the error signal vanishes on a whole row, the derivative with respect to the gate pre-activation vanishes. -/
theorem dGate_zero {r : Fin 8192} (hr : ∀ d, E r d = 0) (h : Fin 8192) : dGate E Gp Up Wd r h = 0 := by
  unfold dGate
  rw [dHid_zero E Wd hr h, zero_mul, zero_mul, zero_mul]

/-- Where the error signal vanishes on a whole row, the derivative with respect to the up pre-activation vanishes. -/
theorem dUp_zero {r : Fin 8192} (hr : ∀ d, E r d = 0) (h : Fin 8192) : dUp E Gp Wd r h = 0 := by
  unfold dUp
  rw [dHid_zero E Wd hr h, zero_mul]

variable (hE : ∀ r d, ¬ hasNext r → E r d = 0)
include hE

/-- With an error signal that is zero on the rows without a successor, the down-projection gradient sum over all rows
equals the same sum over the kept rows. -/
theorem rawDown_kept (d : Fin 2048) (h : Fin 8192) :
    rawDown E Gp Up d h
      = rawDownK (fun q => E (keptRow q)) (fun q => Gp (keptRow q)) (fun q => Up (keptRow q)) d h := by
  unfold rawDown
  rw [sum_kept (fun r => E r d * hidB Gp Up r h)]
  · rfl
  · intro r hr
    rw [hE r d hr, zero_mul]

/-- With an error signal that is zero on the rows without a successor, the gate-projection gradient sum over all rows
equals the same sum over the kept rows. -/
theorem rawGate_kept (h : Fin 8192) (d : Fin 2048) :
    rawGate E Xp Gp Up Wd h d
      = rawGateK (fun q => E (keptRow q)) (fun q => Xp (keptRow q)) (fun q => Gp (keptRow q))
          (fun q => Up (keptRow q)) Wd h d := by
  unfold rawGate
  rw [sum_kept (fun r => dGate E Gp Up Wd r h * Xp r d)]
  · rfl
  · intro r hr
    rw [dGate_zero E Gp Up Wd (fun d' => hE r d' hr) h, zero_mul]

/-- With an error signal that is zero on the rows without a successor, the up-projection gradient sum over all rows
equals the same sum over the kept rows. -/
theorem rawUp_kept (h : Fin 8192) (d : Fin 2048) :
    rawUp E Xp Gp Wd h d
      = rawUpK (fun q => E (keptRow q)) (fun q => Xp (keptRow q)) (fun q => Gp (keptRow q)) Wd h d := by
  unfold rawUp
  rw [sum_kept (fun r => dUp E Gp Wd r h * Xp r d)]
  · rfl
  · intro r hr
    rw [dUp_zero E Gp Wd (fun d' => hE r d' hr) h, zero_mul]

end Gradients

/-! ## The three raw gradient sums at the error signal itself -/

section GradientsAtError

variable (X O Xp : Fin 8192 → Fin 2048 → EReal) (Gp Up : Fin 8192 → Fin 8192 → EReal) (Wd : Fin 2048 → Fin 8192 → EReal)

/-- The error signal of the all-rows arrangement, read on the kept rows, is the error signal of the kept arrangement. -/
theorem errAll_comp_keptRow : (fun q => errAll X O (keptRow q)) = errKept X O := by
  funext q d
  exact errAll_kept X O q d

/-- The down-projection gradient sum of the all-rows error signal equals that of the kept error signal. -/
theorem rawDown_errAll (d : Fin 2048) (h : Fin 8192) :
    rawDown (errAll X O) Gp Up d h
      = rawDownK (errKept X O) (fun q => Gp (keptRow q)) (fun q => Up (keptRow q)) d h := by
  rw [rawDown_kept (errAll X O) Gp Up (fun r d' hr => errAll_zero X O hr d'), errAll_comp_keptRow]

/-- The gate-projection gradient sum of the all-rows error signal equals that of the kept error signal. -/
theorem rawGate_errAll (h : Fin 8192) (d : Fin 2048) :
    rawGate (errAll X O) Xp Gp Up Wd h d
      = rawGateK (errKept X O) (fun q => Xp (keptRow q)) (fun q => Gp (keptRow q)) (fun q => Up (keptRow q)) Wd h d := by
  rw [rawGate_kept (errAll X O) Xp Gp Up Wd (fun r d' hr => errAll_zero X O hr d'), errAll_comp_keptRow]

/-- The up-projection gradient sum of the all-rows error signal equals that of the kept error signal. -/
theorem rawUp_errAll (h : Fin 8192) (d : Fin 2048) :
    rawUp (errAll X O) Xp Gp Wd h d
      = rawUpK (errKept X O) (fun q => Xp (keptRow q)) (fun q => Gp (keptRow q)) Wd h d := by
  rw [rawUp_kept (errAll X O) Xp Gp Wd (fun r d' hr => errAll_zero X O hr d'), errAll_comp_keptRow]

end GradientsAtError

/-! ## The output as a sum of 32 tiles of 256 hidden coordinates -/

/-- The output at (r, d) is the sum over 32 tiles of the sums, over the 256 hidden coordinates of the tile, of the
hidden activation times the down-projection entry. -/
theorem out_tiles (X : Fin 8192 → Fin 2048 → EReal) (Wg Wu : Fin 8192 → Fin 2048 → EReal)
    (Wd : Fin 2048 → Fin 8192 → EReal) (r : Fin 8192) (d : Fin 2048) :
    out X Wg Wu Wd r d
      = ∑ j : Fin 32, ∑ k : Fin 256,
          hid X Wg Wu r ⟨256 * j.val + k.val, by have := j.isLt; have := k.isLt; omega⟩
            * Wd d ⟨256 * j.val + k.val, by have := j.isLt; have := k.isLt; omega⟩ := by
  unfold out
  exact sum_tiles_32_256 (fun h => hid X Wg Wu r h * Wd d h)

end Cert.Mlp

end
-- ==== Proof.HostErr.lean ====
/-
  The error signal and its sum of squares, read index by index.

  The error signal is defined on 4 sequences of 2048 positions: twice the difference between the output at a position and
  the input at the next position of the same sequence, and zero at the last position of each sequence, which has no
  successor. This file reads it at one index (b, s, d); reads the two reshapes between the 4 × 2048 × 2048 arrangement
  and the 8192 = 4 · 2048 rows, row r = 2048 · b + s; concludes that the error signal laid out as rows is the error
  signal of the rows' mathematics; and writes the sum of its squares over the whole array as a sum over rows and
  coordinates. A sum over a three-axis index set is the triple sum over its coordinates, and the first two coordinates
  merge into one row index; the same re-indexing is given for the 4 × 2047 × 2048 arrangement, which keeps only the
  8188 rows that have a successor.
-/
import proofs.«115693_j5566277616153_2_alg».proof.Proof.HostMid
import proofs.«115693_j5566277616153_2_alg».proof.Proof.Spec
import proofs.«115693_j5566277616153_2_alg».proof.Proof.Algebra
import Idealize.ShloMosaic.Lib.ValueIdx
import Idealize.ShloMosaic.Lib.Pipeline.Value
import Idealize.ShloMosaic.Lib.ValueLayout
import Idealize.ShloMosaic.Lib.ReduceAll
import Idealize.ShloMosaic.Lib.IdealHost
import Idealize.ShloMosaic.Lib.WordArith
import Idealize.ShloMosaic.PureOps.Ideal.Laws

set_option maxRecDepth 16384

noncomputable section

namespace Cert.Mlp

open Idealize.ShloMosaic Idealize.ShloMosaic.ValueIdx
open scoped BigOperators

/-! ## Sums over a three-axis index set -/

/-- A three-axis index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a three-axis index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over the 4 × 2047 × 2048 arrangement is the sum over the 8188 kept rows q = 2047 · b + s and the
    2048 coordinates. -/
theorem sum_idx_kept {M : Type*} [AddCommMonoid M] (f : (⟨3, ![4, 2047, 2048]⟩ : Shape).Idx → M) :
    ∑ j, f j = ∑ q : Fin 8188, ∑ d : Fin 2048,
      f (ix3 (⟨q.val / 2047, by have := q.isLt; omega⟩ : Fin 4) (⟨q.val % 2047, Nat.mod_lt _ (by decide)⟩ : Fin 2047) d) := by
  rw [sum_idx3, sum_tiles 4 2047 (fun q : Fin 8188 => ∑ d : Fin 2048,
      f (ix3 (⟨q.val / 2047, by have := q.isLt; omega⟩ : Fin 4) (⟨q.val % 2047, Nat.mod_lt _ (by decide)⟩ : Fin 2047) d))]
  refine Finset.sum_congr rfl fun b _ => Finset.sum_congr rfl fun s _ => Finset.sum_congr rfl fun d _ => ?_
  have hb := b.isLt
  have hs := s.isLt
  congr 2 <;> apply Fin.ext <;> show _ = _ <;> simp only <;> omega

/-- A sum over the 4 × 2048 × 2048 arrangement is the sum over the 8192 rows r = 2048 · b + s and the 2048 coordinates. -/
theorem sum_idx_rows {M : Type*} [AddCommMonoid M] (f : (⟨3, ![4, 2048, 2048]⟩ : Shape).Idx → M) :
    ∑ j, f j = ∑ r : Fin 8192, ∑ d : Fin 2048,
      f (ix3 (⟨r.val / 2048, by have := r.isLt; omega⟩ : Fin 4) (⟨r.val % 2048, Nat.mod_lt _ (by decide)⟩ : Fin 2048) d) := by
  rw [sum_idx3, sum_tiles 4 2048 (fun r : Fin 8192 => ∑ d : Fin 2048,
      f (ix3 (⟨r.val / 2048, by have := r.isLt; omega⟩ : Fin 4) (⟨r.val % 2048, Nat.mod_lt _ (by decide)⟩ : Fin 2048) d))]
  refine Finset.sum_congr rfl fun b _ => Finset.sum_congr rfl fun s _ => Finset.sum_congr rfl fun d _ => ?_
  have hb := b.isLt
  have hs := s.isLt
  congr 2 <;> apply Fin.ext <;> show _ = _ <;> simp only <;> omega

end Cert.Mlp

namespace Cert.KernelIdeal.HostValue

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen
open scoped BigOperators

/-! ## The mask and the shifted input at an index -/

/-- The signed comparison of a position below 2048 with 2047, as a one-bit word: one exactly when the position is below 2047. -/
theorem slt_word (s : Nat) (hs : s < 2048) :
    IntOp.cmpi .slt (BitVec.ofNat 32 s) 2047#32 = if s < 2047 then 1#1 else 0#1 := by
  have e1 : (BitVec.ofNat 32 s).toInt = (s : Int) := WordArith.toInt_ofNat_small s (by omega)
  have e2 : (2047#32 : BitVec 32).toInt = (2047 : Int) := WordArith.toInt_ofNat_small 2047 (by decide)
  by_cases h : s < 2047
  · rw [if_pos h]
    refine IntOp.cmpi_slt.2 ?_
    rw [e1, e2]; omega
  · rw [if_neg h]
    refine eq_zero_of_ne_one fun hc => ?_
    have := IntOp.cmpi_slt.1 hc
    rw [e1, e2] at this; omega

/-- The mask at (b, s, d) is the bit (s < 2047). -/
theorem mask_apply (b : Fin 4) (s : Fin 2048) (d : Fin 2048) :
    validMask (F := Ideal) (ix3 b s d) = if s.val < 2047 then 1#1 else 0#1 := by
  unfold validMask
  rw [broadcastInDim_apply _ bcast_S1x2048x1_S4x2048x2048_0_1_2 _ (ix3 b s d) (ix3 (0 : Fin 1) s (0 : Fin 1))
        (fun a => by match a with | ⟨0, _⟩ => rfl | ⟨1, _⟩ => rfl | ⟨2, _⟩ => rfl),
      shapeCast_apply _ shapeCasts_S2048_S1x2048x1 (ix3 (0 : Fin 1) s (0 : Fin 1)) (ix1 s)
        (by rw [Shape.rowMajor_val_one, Shape.rowMajor_val_three]; show s.val = (0 * 2048 + s.val) * 1 + 0; omega)]
  exact slt_word s.val s.isLt

/-- The shifted input at (b, s, d), s < 2047, is the input at (b, s + 1, d). -/
theorem xNext_apply_lt (x : (⟨S4x2048x2048, .f32⟩ : BufTy).Contents (Elt Ideal)) (b : Fin 4) (s : Fin 2048) (d : Fin 2048)
    (h : s.val < 2047) :
    xNext (F := Ideal) x (ix3 b s d) = x (ix3 b (⟨s.val + 1, by omega⟩ : Fin 2048) d) := by
  unfold xNext
  refine (concatenate_pair_apply_left (t := S4x2048x2048) (s₁ := S4x2047x2048) (s₂ := S4x1x2048) _ _ _ _ (ix3 b s d) rfl (ix3 b (⟨s.val, h⟩ : Fin 2047) d)
    (fun a => by match a with | ⟨0, _⟩ => rfl | ⟨1, _⟩ => rfl | ⟨2, _⟩ => rfl)).trans ?_
  exact slice3_axis1_apply 1 x slices_S4x2048x2048_S4x2047x2048_0_1_0 b ⟨s.val, h⟩ d ⟨s.val + 1, by omega⟩
    (by show s.val + 1 = 1 + s.val; omega)

/-- The error signal at (b, s, d): twice (output − input at the next position) when s < 2047, zero at s = 2047. -/
theorem err_apply (o x : (⟨S4x2048x2048, .f32⟩ : BufTy).Contents (Elt Ideal)) (b : Fin 4) (s : Fin 2048) (d : Fin 2048) :
    errOf (F := Ideal) o x (ix3 b s d)
      = if s.val < 2047 then
          Cert.Mlp.two * (o (ix3 b s d) - x (ix3 b (⟨(s.val + 1) % 2048, Nat.mod_lt _ (by decide)⟩ : Fin 2048) d))
        else 0 := by
  unfold errOf
  rw [select_apply, mask_apply]
  by_cases h : s.val < 2047
  · rw [if_pos h, if_pos h, select_one, mulf_apply, subf_apply, broadcastInDim_scalar_apply, constant_apply,
      xNext_apply_lt x b s d h]
    have e : (⟨s.val + 1, by omega⟩ : Fin 2048) = ⟨(s.val + 1) % 2048, Nat.mod_lt _ (by decide)⟩ :=
      Fin.ext (by show s.val + 1 = (s.val + 1) % 2048; omega)
    rw [e]
    rfl
  · rw [if_neg h, if_neg h, select_zero, broadcastInDim_scalar_apply, constant_apply]
    exact Ideal.ofBits_zero_f32

/-! ## The two reshapes between sequences × positions and rows -/

/-- The 4 × 2048 × 2048 arrangement laid out as 8192 rows reads, at (r, d), position r mod 2048 of sequence r / 2048. -/
theorem rows_of_cast (x : (⟨S4x2048x2048, .f32⟩ : BufTy).Contents (Elt Ideal)) (r : Fin 8192) (d : Fin 2048) :
    shapeCast S8192x2048 x shapeCasts_S4x2048x2048_S8192x2048 (ix2 r d) = Cert.Mlp.rowsOf x r d := by
  unfold Cert.Mlp.rowsOf
  refine shapeCast_apply x shapeCasts_S4x2048x2048_S8192x2048 (ix2 r d) _ ?_
  rw [Shape.rowMajor_val_two, Shape.rowMajor_val_three]
  show (r.val / 2048 * 2048 + r.val % 2048) * 2048 + d.val = r.val * 2048 + d.val
  omega

/-- 8192 rows laid back out as 4 × 2048 × 2048 and read as rows are the rows themselves. -/
theorem cast_rows (y : S8192x2048.Idx → EReal) (r : Fin 8192) (d : Fin 2048) :
    Cert.Mlp.rowsOf (shapeCast S4x2048x2048 y shapeCasts_S8192x2048_S4x2048x2048) r d = y (ix2 r d) := by
  unfold Cert.Mlp.rowsOf
  refine shapeCast_apply y shapeCasts_S8192x2048_S4x2048x2048 _ (ix2 r d) ?_
  rw [Shape.rowMajor_val_two, Shape.rowMajor_val_three]
  show r.val * 2048 + d.val = (r.val / 2048 * 2048 + r.val % 2048) * 2048 + d.val
  omega

/-! ## The error signal as rows -/

/-- The error signal laid out as 8192 rows is, at (r, d), twice (output − input at the next row) on the rows that have
    a successor in their sequence, and zero on the others. -/
theorem err_rows (o x : (⟨S4x2048x2048, .f32⟩ : BufTy).Contents (Elt Ideal)) (r : Fin 8192) (d : Fin 2048) :
    shapeCast S8192x2048 (errOf (F := Ideal) o x) shapeCasts_S4x2048x2048_S8192x2048 (ix2 r d)
      = Cert.Mlp.errAll (Cert.Mlp.rowsOf x) (Cert.Mlp.rowsOf o) r d := by
  have hr := r.isLt
  rw [rows_of_cast]
  unfold Cert.Mlp.errAll
  show errOf (F := Ideal) o x (ix3 _ _ d) = _
  rw [err_apply]
  by_cases h : Cert.Mlp.hasNext r
  · have h' : r.val % 2048 < 2047 := h
    rw [if_pos h', if_pos h]
    unfold Cert.Mlp.rowsOf Cert.Mlp.next
    congr 5
    · show r.val / 2048 = (r.val + 1) % 8192 / 2048; omega
    · show (r.val % 2048 + 1) % 2048 = (r.val + 1) % 8192 % 2048; omega
  · have h' : ¬ r.val % 2048 < 2047 := h
    rw [if_neg h', if_neg h]

/-! ## The sum of squares over the whole array -/

/-- The host's sum of the squared entries over all three axes, started from the zero word, is that word plus the sum
    over the 8192 rows and the 2048 coordinates of the squared entries. -/
theorem sumsq_all (e : (⟨S4x2048x2048, .f32⟩ : BufTy).Contents (Elt Ideal)) (i : S_.Idx) :
    Host.reduceAdd (F := Ideal) (mulf e e) (constant S_ .f32 0x00000000#32) reducesTo_S4x2048x2048_S_d0_1_2 h_S_ i
      = Ideal.ofBits .f32 0x00000000#32
        + ∑ r : Fin 8192, ∑ d : Fin 2048, Cert.Mlp.rowsOf e r d * Cert.Mlp.rowsOf e r d := by
  simp only [Host.reduceAdd, Ideal.hostReduceAdd_def]
  refine (Ideal.hostReduceAdd_total reducesTo_S4x2048x2048_S_d0_1_2 (fun b => b.elim0) _ _ i).trans ?_
  rw [Cert.Mlp.sum_idx_rows]
  rfl

end Cert.KernelIdeal.HostValue

end
-- ==== Proof.FwdCases.lean ====
/-
  The first kernel region, one grid point at a time. The grid is 16 row tiles (512 rows each) by 32 column tiles of the
  hidden axis (256 columns each), the column tile moving fastest. At a point the body reads a block of x, a block of
  each of the two up-projection weights and a block of the down-projection weight; it stores the two pre-activation
  tiles, and it adds the tile's contribution to the output block — after first setting the block to zero when the column
  tile is the first one. This file reads off what each of the two control cases leaves in each of the three output
  buffers, as the body's own arithmetic applied to the blocks it loaded.
-/
import proofs.«115693_j5566277616153_2_alg».proof.Proof.Gen.KernelIdeal.Frame
import Idealize.ShloMosaic.Lib.Pipeline.Value
import Idealize.ShloMosaic.Lib.Tactic

set_option maxRecDepth 16384

noncomputable section

namespace Cert.KernelIdeal.FwdValue

open Idealize.ShloMosaic Idealize.ShloMosaic.TcCoe Idealize.SL.Sem
open Idealize.ShloMosaic.Pipeline (Dat)
open Cert.KernelIdeal Cert.KernelIdeal.Gen

variable {F : FTy → Type} [FloatOps F]

/-- Every store and load of the body starts at the origin of its buffer. -/
theorem hz : (![0, 0] : Fin 2 → Nat) = fun _ => 0 := funext fun a => by fin_cases a <;> rfl

/-- A later column tile: the output block becomes what it held plus the tile's contribution. -/
theorem out_B_4 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x256 .bf16) (harg7 : arg7.IsWhole) (arg8 : Memref sig .tc .vmem S512x256 .bf16) (harg8 : arg8.IsWhole) (hc0 : ¬cond0_0 i) (x0 : Vec F S512x2048 .bf16) (x1 : Vec F S256x2048 .bf16) (x2 : Vec F S256x2048 .bf16) (x3 : Vec F S2048x256 .bf16) (xo4 : Vec F S512x2048 .f32) :
    out0_B_4 c i arg2 harg2 arg3 harg3 arg4 harg4 arg5 harg5 arg6 harg6 arg7 harg7 arg8 harg8 hc0 x0 x1 x2 x3 xo4 = k0_pay5 x0 x1 x2 x3 xo4 := by
  unfold out0_B_4
  rw [View.read_writes_eq_canon _ _ _ (cover0_B_4 c i arg2 harg2 arg3 harg3 arg4 harg4 arg5 harg5 arg6 harg6 arg7 harg7 arg8 harg8 hc0 x0 x1 x2 x3 xo4)]
  unfold kernelRun0_B
  dsimp only
  rw [View.canon_unit_zero hz]
  simp only [View.readAt_eq_ld, harg2.read_unread, harg3.read_unread, harg4.read_unread, harg5.read_unread, harg6.read_unread, View.ld_unit_zero (S := S512x2048) hz, View.ld_unit_zero (S := S256x2048) hz, View.ld_unit_zero (S := S2048x256) hz]

/-- A later column tile: the gate pre-activation tile, stored whole. -/
theorem out_B_5 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x256 .bf16) (harg7 : arg7.IsWhole) (arg8 : Memref sig .tc .vmem S512x256 .bf16) (harg8 : arg8.IsWhole) (hc0 : ¬cond0_0 i) (x0 : Vec F S512x2048 .bf16) (x1 : Vec F S256x2048 .bf16) (x2 : Vec F S256x2048 .bf16) (x3 : Vec F S2048x256 .bf16) (xo4 : Vec F S512x2048 .f32) :
    out0_B_5 c i arg2 harg2 arg3 harg3 arg4 harg4 arg5 harg5 arg6 harg6 arg7 harg7 arg8 harg8 hc0 x0 x1 x2 x3 xo4 = k0_pay6 x0 x1 := by
  unfold out0_B_5
  rw [View.read_writes_eq_canon _ _ _ (cover0_B_5 c i arg2 harg2 arg3 harg3 arg4 harg4 arg5 harg5 arg6 harg6 arg7 harg7 arg8 harg8 hc0 x0 x1 x2 x3 xo4)]
  unfold kernelRun0_B
  dsimp only
  rw [View.canon_unit_zero hz]
  simp only [View.readAt_eq_ld, harg2.read_unread, harg3.read_unread, harg4.read_unread, harg5.read_unread, harg6.read_unread, View.ld_unit_zero (S := S512x2048) hz, View.ld_unit_zero (S := S256x2048) hz, View.ld_unit_zero (S := S2048x256) hz]

/-- A later column tile: the up pre-activation tile, stored whole. -/
theorem out_B_6 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x256 .bf16) (harg7 : arg7.IsWhole) (arg8 : Memref sig .tc .vmem S512x256 .bf16) (harg8 : arg8.IsWhole) (hc0 : ¬cond0_0 i) (x0 : Vec F S512x2048 .bf16) (x1 : Vec F S256x2048 .bf16) (x2 : Vec F S256x2048 .bf16) (x3 : Vec F S2048x256 .bf16) (xo4 : Vec F S512x2048 .f32) :
    out0_B_6 c i arg2 harg2 arg3 harg3 arg4 harg4 arg5 harg5 arg6 harg6 arg7 harg7 arg8 harg8 hc0 x0 x1 x2 x3 xo4 = k0_pay7 x0 x2 := by
  unfold out0_B_6
  rw [View.read_writes_eq_canon _ _ _ (cover0_B_6 c i arg2 harg2 arg3 harg3 arg4 harg4 arg5 harg5 arg6 harg6 arg7 harg7 arg8 harg8 hc0 x0 x1 x2 x3 xo4)]
  unfold kernelRun0_B
  dsimp only
  rw [View.canon_unit_zero hz]
  simp only [View.readAt_eq_ld, harg2.read_unread, harg3.read_unread, harg4.read_unread, harg5.read_unread, harg6.read_unread, View.ld_unit_zero (S := S512x2048) hz, View.ld_unit_zero (S := S256x2048) hz, View.ld_unit_zero (S := S2048x256) hz]

/-- The first column tile: the output block is set to zero, read back, and the tile's contribution added. -/
theorem out_A_4 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x256 .bf16) (harg7 : arg7.IsWhole) (arg8 : Memref sig .tc .vmem S512x256 .bf16) (harg8 : arg8.IsWhole) (hc0 : cond0_0 i) (x0 : Vec F S512x2048 .bf16) (x1 : Vec F S256x2048 .bf16) (x2 : Vec F S256x2048 .bf16) (x3 : Vec F S2048x256 .bf16) :
    out0_A_4 c i arg2 harg2 arg3 harg3 arg4 harg4 arg5 harg5 arg6 harg6 arg7 harg7 arg8 harg8 hc0 x0 x1 x2 x3 = k0_pay5 x0 x1 x2 x3 k0_pay4 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, View.ld_unit_zero (S := S512x2048) hz, View.ld_unit_zero (S := S256x2048) hz, View.ld_unit_zero (S := S2048x256) hz]

/-- The first column tile: the gate pre-activation tile. -/
theorem out_A_5 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x256 .bf16) (harg7 : arg7.IsWhole) (arg8 : Memref sig .tc .vmem S512x256 .bf16) (harg8 : arg8.IsWhole) (hc0 : cond0_0 i) (x0 : Vec F S512x2048 .bf16) (x1 : Vec F S256x2048 .bf16) (x2 : Vec F S256x2048 .bf16) (x3 : Vec F S2048x256 .bf16) :
    out0_A_5 c i arg2 harg2 arg3 harg3 arg4 harg4 arg5 harg5 arg6 harg6 arg7 harg7 arg8 harg8 hc0 x0 x1 x2 x3 = k0_pay6 x0 x1 := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  rw [View.canon_unit_zero hz]
  simp only [View.readAt_eq_ld, harg2.read_unread, harg3.read_unread, harg4.read_unread, harg5.read_unread, View.ld_unit_zero (S := S512x2048) hz, View.ld_unit_zero (S := S256x2048) hz, View.ld_unit_zero (S := S2048x256) hz]

/-- The first column tile: the up pre-activation tile. -/
theorem out_A_6 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x256 .bf16) (harg7 : arg7.IsWhole) (arg8 : Memref sig .tc .vmem S512x256 .bf16) (harg8 : arg8.IsWhole) (hc0 : cond0_0 i) (x0 : Vec F S512x2048 .bf16) (x1 : Vec F S256x2048 .bf16) (x2 : Vec F S256x2048 .bf16) (x3 : Vec F S2048x256 .bf16) :
    out0_A_6 c i arg2 harg2 arg3 harg3 arg4 harg4 arg5 harg5 arg6 harg6 arg7 harg7 arg8 harg8 hc0 x0 x1 x2 x3 = k0_pay7 x0 x2 := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  rw [View.canon_unit_zero hz]
  simp only [View.readAt_eq_ld, harg2.read_unread, harg3.read_unread, harg4.read_unread, harg5.read_unread, View.ld_unit_zero (S := S512x2048) hz, View.ld_unit_zero (S := S256x2048) hz, View.ld_unit_zero (S := S2048x256) hz]

end Cert.KernelIdeal.FwdValue

end
-- ==== Proof.LibMatmulRows.lean ====
/-
  A plain matrix product read at one entry. For a `tpu.matmul` of an `[M, K]` by a `[K, N]` operand into a
  zero accumulator, with one contracted axis (the left operand's columns against the right operand's rows), the
  entry `(p, q)` of the result at the extended reals is `∑ k, l (p, k) * r (k, q)`: the accumulator contributes `0`,
  and the one-axis contraction index is re-indexed by its coordinate `k : Fin K`.
  The dimension record enters only through four facts about its operand indices (which coordinate of the left and
  right operand index comes from the output index and which from the contraction index); for a printed record each
  is one line (`DotDims.lhsIdx_val_of_single`, `rhsIdx_val_of_single`, or unfolding `lhsIdx` / `rhsIdx`).
-/
import Idealize.ShloMosaic.PureOps.Ideal.Laws
import Idealize.ShloMosaic.Lib.ValueIdx

open scoped BigOperators

namespace Idealize.ShloMosaic.MatmulRows

open Idealize.ShloMosaic Idealize.ShloMosaic.ValueIdx

/-- Entry `(p, q)` of `l · r` accumulated into zero is the sum over the contracted coordinate. -/
theorem matmul_zero_apply {M K N : ℕ} {φ₁ φ₂ : FTy} (D : DotDims ⟨2, ![M, K]⟩ ⟨2, ![K, N]⟩ ⟨2, ![M, N]⟩)
    (prec : Option ContractPrecision) (hr : D.contr.rank = 1) (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRows
-- ==== Proof.FwdPayload.lean ====
/-
  The arithmetic of the first kernel's body at one grid point, entry by entry, at the exact values. With a the block of
  x (512 rows), g and u the blocks of the two up-projection weights (256 hidden coordinates) and w the block of the
  down-projection weight (those same 256 hidden coordinates):
    • the stored pre-activation tiles are a · gᵀ and a · uᵀ, each entry a sum over the 2048 model coordinates;
    • the new output block is the old one plus ((a·gᵀ) · σ(a·gᵀ) · (a·uᵀ)) · wᵀ, each entry a sum over the tile's 256
      hidden coordinates.
  A change of float format is the identity here, and a product accumulated into zero is the plain sum.
-/
import proofs.«115693_j5566277616153_2_alg».proof.Proof.Gen.KernelIdeal.Skeleton
import proofs.«115693_j5566277616153_2_alg».proof.Proof.Spec
import proofs.«115693_j5566277616153_2_alg».proof.Proof.LibMatmulRows
import Idealize.ShloMosaic.Lib.ValueLayout
import Idealize.ShloMosaic.Lib.Pipeline.Value
import Idealize.ShloMosaic.PureOps.Ideal.Laws

set_option maxRecDepth 16384

noncomputable section

namespace Cert.KernelIdeal.FwdValue

open Idealize.ShloMosaic Idealize.ShloMosaic.TcCoe Idealize.ShloMosaic.ValueIdx Idealize.ShloMosaic.MatmulRows
open Cert.KernelIdeal Cert.KernelIdeal.Gen

/-! ## Which operand coordinate comes from where, for the body's two products -/

theorem dA_l0 (i : S512x256.Idx) (q : dot_S512x2048_S2048x256_S512x256_1_0_0_1_n_n.contr.Idx) : (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem dA_l1 (i : S512x256.Idx) (q : dot_S512x2048_S2048x256_S512x256_1_0_0_1_n_n.contr.Idx) : (dot_S512x2048_S2048x256_S512x256_1_0_0_1_n_n.lhsIdx i q 1).val = (q ⟨0, by decide⟩).val :=
  dot_S512x2048_S2048x256_S512x256_1_0_0_1_n_n.lhsIdx_val_of_single rfl i q
theorem dA_r0 (i : S512x256.Idx) (q : dot_S512x2048_S2048x256_S512x256_1_0_0_1_n_n.contr.Idx) : (dot_S512x2048_S2048x256_S512x256_1_0_0_1_n_n.rhsIdx i q 0).val = (q ⟨0, by decide⟩).val :=
  dot_S512x2048_S2048x256_S512x256_1_0_0_1_n_n.rhsIdx_val_of_single rfl i q
theorem dA_r1 (i : S512x256.Idx) (q : dot_S512x2048_S2048x256_S512x256_1_0_0_1_n_n.contr.Idx) : (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

theorem dB_l0 (i : S512x2048.Idx) (q : dot_S512x256_S256x2048_S512x2048_1_0_0_1_n_n.contr.Idx) : (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem dB_l1 (i : S512x2048.Idx) (q : dot_S512x256_S256x2048_S512x2048_1_0_0_1_n_n.contr.Idx) : (dot_S512x256_S256x2048_S512x2048_1_0_0_1_n_n.lhsIdx i q 1).val = (q ⟨0, by decide⟩).val :=
  dot_S512x256_S256x2048_S512x2048_1_0_0_1_n_n.lhsIdx_val_of_single rfl i q
theorem dB_r0 (i : S512x2048.Idx) (q : dot_S512x256_S256x2048_S512x2048_1_0_0_1_n_n.contr.Idx) : (dot_S512x256_S256x2048_S512x2048_1_0_0_1_n_n.rhsIdx i q 0).val = (q ⟨0, by decide⟩).val :=
  dot_S512x256_S256x2048_S512x2048_1_0_0_1_n_n.rhsIdx_val_of_single rfl i q
theorem dB_r1 (i : S512x2048.Idx) (q : dot_S512x256_S256x2048_S512x2048_1_0_0_1_n_n.contr.Idx) : (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-! ## The payloads at an entry -/

section Payloads

variable (a : Vec Ideal S512x2048 .bf16) (g u : Vec Ideal S256x2048 .bf16) (w : Vec Ideal S2048x256 .bf16)
  (old : Vec Ideal S512x2048 .f32)

/-- A pre-activation tile at (p, k): row p of the x block against row k of the weight block. -/
theorem pay2_apply (p : Fin 512) (k : Fin 256) :
    k0_pay2 (F := Ideal) a g (ix2 p k) = ∑ e : Fin 2048, a (ix2 p e) * g (ix2 k e) := by
  unfold k0_pay2 k0_pay1
  refine (matmul_zero_apply dot_S512x2048_S2048x256_S512x256_1_0_0_1_n_n none rfl rfl dA_l0 dA_l1 dA_r0 dA_r1 _ _ p k).trans ?_
  refine Finset.sum_congr rfl fun e _ => ?_
  rw [shapeCast_self, shapeCast_self, transpose_ix2_apply]

/-- The second pre-activation tile: the same product against the other weight block. -/
theorem pay3_apply (p : Fin 512) (k : Fin 256) :
    k0_pay3 (F := Ideal) a u (ix2 p k) = ∑ e : Fin 2048, a (ix2 p e) * u (ix2 k e) := by
  unfold k0_pay3 k0_pay1
  refine (matmul_zero_apply dot_S512x2048_S2048x256_S512x256_1_0_0_1_n_n none rfl rfl dA_l0 dA_l1 dA_r0 dA_r1 _ _ p k).trans ?_
  refine Finset.sum_congr rfl fun e _ => ?_
  rw [shapeCast_self, shapeCast_self, transpose_ix2_apply]

/-- The stored gate tile is the pre-activation tile (the narrowing of the format is the identity). -/
theorem pay6_apply (p : Fin 512) (k : Fin 256) :
    k0_pay6 (F := Ideal) a g (ix2 p k) = ∑ e : Fin 2048, a (ix2 p e) * g (ix2 k e) :=
  pay2_apply a g p k

/-- The stored up tile likewise. -/
theorem pay7_apply (p : Fin 512) (k : Fin 256) :
    k0_pay7 (F := Ideal) a u (ix2 p k) = ∑ e : Fin 2048, a (ix2 p e) * u (ix2 k e) :=
  pay3_apply a u p k

/-- The block the first column tile starts from is zero. -/
theorem pay4_apply (y : S512x2048.Idx) : k0_pay4 (F := Ideal) y = 0 := Ideal.ofBits_zero_f32

/-- The output block after the point, at (p, q): what it held, plus the sum over the tile's 256 hidden coordinates of the
    hidden activation at (p, k) times the down-projection entry (q, k). -/
theorem pay5_apply (p : Fin 512) (q : Fin 2048) :
    k0_pay5 (F := Ideal) a g u w old (ix2 p q)
      = old (ix2 p q) + ∑ k : Fin 256,
          (Cert.Mlp.silu (∑ e : Fin 2048, a (ix2 p e) * g (ix2 k e)) * (∑ e : Fin 2048, a (ix2 p e) * u (ix2 k e))) * w (ix2 q k) := by
  unfold k0_pay5
  show shapeCast S512x2048 old shapeCasts_S512x2048_S512x2048 (ix2 p q) + _ = _
  rw [shapeCast_self]
  refine congrArg (old (ix2 p q) + ·) ?_
  refine (matmul_zero_apply dot_S512x256_S256x2048_S512x2048_1_0_0_1_n_n none rfl rfl dB_l0 dB_l1 dB_r0 dB_r1 _ _ p q).trans ?_
  refine Finset.sum_congr rfl fun k _ => ?_
  rw [shapeCast_self, transpose_ix2_apply]
  show (k0_pay2 (F := Ideal) a g (ix2 p k) * Ideal.logistic (k0_pay2 (F := Ideal) a g (ix2 p k))) * k0_pay3 (F := Ideal) a u (ix2 p k) * w (ix2 q k) = _
  rw [pay2_apply, pay3_apply]
  rfl

end Payloads

end Cert.KernelIdeal.FwdValue

end
-- ==== Proof.FwdRegion.lean ====
/-
  The first kernel region as a whole. With the region's four input arrays read by coordinates — x as 8192 rows, the two
  up-projection weights as 8192 hidden rows, the down-projection weight as 2048 rows of 8192 hidden columns — the block
  a window shows at grid point t = 32 · i + j is rows 512·i … 512·i+511 of x, hidden rows 256·j … 256·j+255 of the two
  up-projection weights, and hidden columns 256·j … of the down-projection weight. So one grid point adds to the output
  block, at (p, q), the sum over the tile's 256 hidden coordinates h of hidden(512·i+p, h) · Wd(q, h); over the 32 column
  tiles of a row tile these add up to the whole sum over the 8192 hidden coordinates, which is what is written back at
  the row tile's last point. The two pre-activation tiles are written back at every point.
-/
import proofs.«115693_j5566277616153_2_alg».proof.Proof.FwdCases
import proofs.«115693_j5566277616153_2_alg».proof.Proof.FwdPayload
import proofs.«115693_j5566277616153_2_alg».proof.Proof.Algebra

set_option maxRecDepth 16384

noncomputable section

namespace Cert.KernelIdeal.FwdValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The region's input arrays by coordinates -/

/-- x: row r, model coordinate d. -/
def xA (c : Dev nD) (r : Fin 8192) (d : Fin 2048) : EReal := V c main_v1 (ix2 r d)
/-- The gate projection's weight: hidden row h, model coordinate d. -/
def wgA (c : Dev nD) (h : Fin 8192) (d : Fin 2048) : EReal := V c main_v2 (ix2 h d)
/-- The up projection's weight: hidden row h, model coordinate d. -/
def wuA (c : Dev nD) (h : Fin 8192) (d : Fin 2048) : EReal := V c main_v3 (ix2 h d)
/-- The down projection's weight: model row d, hidden column h. -/
def wdA (c : Dev nD) (d : Fin 2048) (h : Fin 8192) : EReal := V c main_v4 (ix2 d h)

/-- Row p of row tile i. -/
def rowOf (i : ℕ) (p : Fin 512) : Fin 8192 := ⟨(512 * i + p.val) % 8192, Nat.mod_lt _ (by decide)⟩
/-- Hidden coordinate k of column tile j. -/
def colOf (j : ℕ) (k : Fin 256) : Fin 8192 := ⟨(256 * j + k.val) % 8192, Nat.mod_lt _ (by decide)⟩

/-! ## The printed index maps, decided once over the grid: point t is row tile t / 32, column tile t % 32 -/

theorem idx_facts0 : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = 0 ∧ win0_3.index t (1 : Fin 2) = t.val % 32
    ∧ win0_4.index t (0 : Fin 2) = t.val / 32 ∧ win0_4.index t (1 : Fin 2) = 0
    ∧ win0_5.index t (0 : Fin 2) = t.val / 32 ∧ win0_5.index t (1 : Fin 2) = t.val % 32
    ∧ win0_6.index t (0 : Fin 2) = t.val / 32 ∧ win0_6.index t (1 : Fin 2) = t.val % 32 :=
  (by decide +kernel : ∀ t : Fin grid0.N, _)

/-! ## The input blocks at explicit coordinates -/

theorem iblk_x (c : Dev nD) (t : Fin cfg0.N) (p : Fin 512) (e : Fin 2048) :
    (iblk0 V c 0 t : Vec Ideal S512x2048 .bf16) (ix2 p e) = xA V c (rowOf (t.val / 32) p) e := by
  obtain ⟨h0, h1, -⟩ := idx_facts0 t
  have hN : cfg0.N = 512 := N_0
  have ht := t.isLt
  unfold iblk0 xA
  rw [View.read_apply]
  show V c main_v1 _ = V c main_v1 _
  congr 1
  funext a
  apply Fin.ext
  match a with
  | ⟨0, _⟩ => show win0_0.index t (0 : Fin 2) * 512 + 1 * p.val = (512 * (t.val / 32) + p.val) % 8192; rw [h0]; have := p.isLt; omega
  | ⟨1, _⟩ => show win0_0.index t (1 : Fin 2) * 2048 + 1 * e.val = e.val; rw [h1]; omega

theorem iblk_g (c : Dev nD) (t : Fin cfg0.N) (k : Fin 256) (e : Fin 2048) :
    (iblk0 V c 1 t : Vec Ideal S256x2048 .bf16) (ix2 k e) = wgA V c (colOf (t.val % 32) k) e := by
  obtain ⟨-, -, h0, h1, -⟩ := idx_facts0 t
  unfold iblk0 wgA
  rw [View.read_apply]
  show V c main_v2 _ = V c main_v2 _
  congr 1
  funext a
  apply Fin.ext
  match a with
  | ⟨0, _⟩ => show win0_1.index t (0 : Fin 2) * 256 + 1 * k.val = (256 * (t.val % 32) + k.val) % 8192; rw [h0]; have := k.isLt; omega
  | ⟨1, _⟩ => show win0_1.index t (1 : Fin 2) * 2048 + 1 * e.val = e.val; rw [h1]; omega

theorem iblk_u (c : Dev nD) (t : Fin cfg0.N) (k : Fin 256) (e : Fin 2048) :
    (iblk0 V c 2 t : Vec Ideal S256x2048 .bf16) (ix2 k e) = wuA V c (colOf (t.val % 32) k) e := by
  obtain ⟨-, -, -, -, h0, h1, -⟩ := idx_facts0 t
  unfold iblk0 wuA
  rw [View.read_apply]
  show V c main_v3 _ = V c main_v3 _
  congr 1
  funext a
  apply Fin.ext
  match a with
  | ⟨0, _⟩ => show win0_2.index t (0 : Fin 2) * 256 + 1 * k.val = (256 * (t.val % 32) + k.val) % 8192; rw [h0]; have := k.isLt; omega
  | ⟨1, _⟩ => show win0_2.index t (1 : Fin 2) * 2048 + 1 * e.val = e.val; rw [h1]; omega

theorem iblk_w (c : Dev nD) (t : Fin cfg0.N) (q : Fin 2048) (k : Fin 256) :
    (iblk0 V c 3 t : Vec Ideal S2048x256 .bf16) (ix2 q k) = wdA V c q (colOf (t.val % 32) k) := by
  obtain ⟨-, -, -, -, -, -, h0, h1, -⟩ := idx_facts0 t
  unfold iblk0 wdA
  rw [View.read_apply]
  show V c main_v4 _ = V c main_v4 _
  congr 1
  funext a
  apply Fin.ext
  match a with
  | ⟨0, _⟩ => show win0_3.index t (0 : Fin 2) * 2048 + 1 * q.val = q.val; rw [h0]; omega
  | ⟨1, _⟩ => show win0_3.index t (1 : Fin 2) * 256 + 1 * k.val = (256 * (t.val % 32) + k.val) % 8192; rw [h1]; have := k.isLt; omega

/-! ## One grid point -/

/-- A sum of products of entries of two blocks, each entry known. -/
theorem sum_blocks_eq (A : Vec Ideal S512x2048 .bf16) (G : Vec Ideal S256x2048 .bf16) (f g : Fin 2048 → EReal) (p : Fin 512) (k : Fin 256)
    (hA : ∀ e, A (ix2 p e) = f e) (hG : ∀ e, G (ix2 k e) = g e) :
    (∑ e : Fin 2048, A (ix2 p e) * G (ix2 k e)) = ∑ e : Fin 2048, f e * g e :=
  Finset.sum_congr rfl fun e _ => by rw [hA e, hG e]

/-- Column tile j's contribution to the output at (r, d). -/
def tileTerm (c : Dev nD) (r : Fin 8192) (d : Fin 2048) (j : ℕ) : EReal :=
  ∑ k : Fin 256, Cert.Mlp.hid (xA V c) (wgA V c) (wuA V c) r (colOf j k) * wdA V c d (colOf j k)

/-- The body at point t turns an output block `old` into `old` plus the point's column tile's contribution. -/
theorem step_value (c : Dev nD) (t : Fin cfg0.N) (old : Vec Ideal S512x2048 .f32) (p : Fin 512) (q : Fin 2048) :
    k0_pay5 (F := Ideal) (iblk0 V c 0 t) (iblk0 V c 1 t) (iblk0 V c 2 t) (iblk0 V c 3 t) old (ix2 p q)
      = old (ix2 p q) + tileTerm V c (rowOf (t.val / 32) p) q (t.val % 32) := by
  refine (pay5_apply (iblk0 V c 0 t) (iblk0 V c 1 t) (iblk0 V c 2 t) (iblk0 V c 3 t) old p q).trans ?_
  refine congrArg (old (ix2 p q) + ·) (Finset.sum_congr rfl fun k _ => ?_)
  have hA : ∀ e : Fin 2048, (iblk0 V c 0 t : Vec Ideal S512x2048 .bf16) (ix2 p e) = xA V c (rowOf (t.val / 32) p) e := fun e => iblk_x V c t p e
  have hG : ∀ e : Fin 2048, (iblk0 V c 1 t : Vec Ideal S256x2048 .bf16) (ix2 k e) = wgA V c (colOf (t.val % 32) k) e := fun e => iblk_g V c t k e
  have hU : ∀ e : Fin 2048, (iblk0 V c 2 t : Vec Ideal S256x2048 .bf16) (ix2 k e) = wuA V c (colOf (t.val % 32) k) e := fun e => iblk_u V c t k e
  have hW : (iblk0 V c 3 t : Vec Ideal S2048x256 .bf16) (ix2 q k) = wdA V c q (colOf (t.val % 32) k) := iblk_w V c t q k
  rw [hW, sum_blocks_eq (iblk0 V c 0 t) (iblk0 V c 1 t) _ _ p k hA hG, sum_blocks_eq (iblk0 V c 0 t) (iblk0 V c 2 t) _ _ p k hA hU]
  rfl

/-- The stored gate pre-activation tile at point t. -/
theorem gate_value (c : Dev nD) (t : Fin cfg0.N) (p : Fin 512) (k : Fin 256) :
    k0_pay6 (F := Ideal) (iblk0 V c 0 t) (iblk0 V c 1 t) (ix2 p k)
      = Cert.Mlp.pre (xA V c) (wgA V c) (rowOf (t.val / 32) p) (colOf (t.val % 32) k) := by
  refine (pay6_apply (iblk0 V c 0 t) (iblk0 V c 1 t) p k).trans ?_
  exact Finset.sum_congr rfl fun e _ => by rw [iblk_x V c t p e, iblk_g V c t k e]

/-- The stored up pre-activation tile at point t. -/
theorem up_value (c : Dev nD) (t : Fin cfg0.N) (p : Fin 512) (k : Fin 256) :
    k0_pay7 (F := Ideal) (iblk0 V c 0 t) (iblk0 V c 2 t) (ix2 p k)
      = Cert.Mlp.pre (xA V c) (wuA V c) (rowOf (t.val / 32) p) (colOf (t.val % 32) k) := by
  refine (pay7_apply (iblk0 V c 0 t) (iblk0 V c 2 t) p k).trans ?_
  exact Finset.sum_congr rfl fun e _ => by rw [iblk_x V c t p e, iblk_u V c t k e]

end Cert.KernelIdeal.FwdValue

end
-- ==== Proof.FwdFinal.lean ====
/-
  The first kernel region over the whole grid. After grid point n the output block holds, at (p, q), the running sum —
  started from zero at the row tile's first column tile — of the column tiles' contributions up to column tile n mod 32;
  this is by recursion on n, the first column tile restarting the sum and every other one extending it. At the row
  tile's last column tile the running sum is the whole sum over the 8192 hidden coordinates, and that is the block
  written back; the blocks written back tile the array, so the array ends holding the network's output. The two
  pre-activation arrays are written back tile by tile at every point.
-/
import proofs.«115693_j5566277616153_2_alg».proof.Proof.FwdRegion

set_option maxRecDepth 16384

noncomputable section

namespace Cert.KernelIdeal.FwdValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- THE RUNNING SUM. After point n the output block at (p, q) is the sum, started from zero, of the contributions of
    column tiles 0 … n mod 32 of row tile n / 32. -/
theorem acc_value (c : Dev nD) : ∀ (n : ℕ) (hn : n < cfg0.N) (p : Fin 512) (q : Fin 2048),
    (outsAt0 V c n hn).1 (ix2 p q) = Cert.Mlp.foldAcc (tileTerm V c (rowOf (n / 32) p) q) (n % 32)
  | 0, hn, p, q => by
    rw [outsAt0_A V c ⟨0, hn⟩ rfl]
    dsimp only
    rw [out_A_4]
    refine (step_value V c ⟨0, hn⟩ _ p q).trans ?_
    rw [pay4_apply]
    rfl
  | n + 1, hn, p, q => by
    by_cases h0 : (n + 1) % 32 = 0
    · rw [outsAt0_A V c ⟨n + 1, hn⟩ h0]
      dsimp only
      rw [out_A_4]
      refine (step_value V c ⟨n + 1, hn⟩ _ p q).trans ?_
      rw [pay4_apply]
      show 0 + tileTerm V c (rowOf ((n + 1) / 32) p) q ((n + 1) % 32) = Cert.Mlp.foldAcc _ ((n + 1) % 32)
      rw [h0]
      rfl
    · rw [outsAt0_B V c ⟨n + 1, hn⟩ h0]
      dsimp only
      rw [out_B_4]
      refine (step_value V c ⟨n + 1, hn⟩ _ p q).trans ?_
      show (outsAt0 V c n _).1 (ix2 p q) + tileTerm V c (rowOf ((n + 1) / 32) p) q ((n + 1) % 32) = Cert.Mlp.foldAcc _ ((n + 1) % 32)
      rw [acc_value c n (Nat.lt_of_succ_lt hn) p q]
      have hd : n / 32 = (n + 1) / 32 := by omega
      obtain ⟨k, hk⟩ : ∃ k, (n + 1) % 32 = k + 1 := ⟨(n + 1) % 32 - 1, by omega⟩
      have hk' : n % 32 = k := by omega
      rw [hk, hk', hd]
      rfl

/-- The gate pre-activation tile after point n (stored whole at every point). -/
theorem gate_tile (c : Dev nD) (n : ℕ) (hn : n < cfg0.N) (p : Fin 512) (k : Fin 256) :
    (outsAt0 V c n hn).2.1 (ix2 p k) = Cert.Mlp.pre (xA V c) (wgA V c) (rowOf (n / 32) p) (colOf (n % 32) k) := by
  by_cases h0 : n % 32 = 0
  · rw [outsAt0_A V c ⟨n, hn⟩ h0]
    dsimp only
    rw [out_A_5]
    exact gate_value V c ⟨n, hn⟩ p k
  · rw [outsAt0_B V c ⟨n, hn⟩ h0]
    dsimp only
    rw [out_B_5]
    exact gate_value V c ⟨n, hn⟩ p k

/-- The up pre-activation tile after point n. -/
theorem up_tile (c : Dev nD) (n : ℕ) (hn : n < cfg0.N) (p : Fin 512) (k : Fin 256) :
    (outsAt0 V c n hn).2.2 (ix2 p k) = Cert.Mlp.pre (xA V c) (wuA V c) (rowOf (n / 32) p) (colOf (n % 32) k) := by
  by_cases h0 : n % 32 = 0
  · rw [outsAt0_A V c ⟨n, hn⟩ h0]
    dsimp only
    rw [out_A_6]
    exact up_value V c ⟨n, hn⟩ p k
  · rw [outsAt0_B V c ⟨n, hn⟩ h0]
    dsimp only
    rw [out_B_6]
    exact up_value V c ⟨n, hn⟩ p k

/-! ## From blocks to arrays -/

/-- The network's output as the contents of the region's first output array. -/
def G4 (c : Dev nD) : Buf (Elt Ideal) ((c : Thread nD τ).loc main_v5_0) :=
  fun (i : S8192x2048.Idx) => Cert.Mlp.out (xA V c) (wgA V c) (wuA V c) (wdA V c) ⟨(i 0).val, (i 0).isLt⟩ ⟨(i 1).val, (i 1).isLt⟩
/-- The gate pre-activation as the contents of the second output array. -/
def G5 (c : Dev nD) : Buf (Elt Ideal) ((c : Thread nD τ).loc main_v5_1) :=
  fun (i : S8192x8192.Idx) => Cert.Mlp.pre (xA V c) (wgA V c) ⟨(i 0).val, (i 0).isLt⟩ ⟨(i 1).val, (i 1).isLt⟩
/-- The up pre-activation as the contents of the third output array. -/
def G6 (c : Dev nD) : Buf (Elt Ideal) ((c : Thread nD τ).loc main_v5_2) :=
  fun (i : S8192x8192.Idx) => Cert.Mlp.pre (xA V c) (wuA V c) ⟨(i 0).val, (i 0).isLt⟩ ⟨(i 1).val, (i 1).isLt⟩

/-- The 32 column tiles' contributions add up to the whole sum over the hidden coordinates. -/
theorem tiles_total (c : Dev nD) (r : Fin 8192) (d : Fin 2048) :
    Cert.Mlp.foldAcc (tileTerm V c r d) 31 = Cert.Mlp.out (xA V c) (wgA V c) (wuA V c) (wdA V c) r d := by
  rw [Cert.Mlp.fold_eq_sum_fin, Cert.Mlp.out_tiles]
  refine Finset.sum_congr rfl fun j _ => ?_
  unfold tileTerm
  refine Finset.sum_congr rfl fun k _ => ?_
  have hc : colOf j.val k = ⟨256 * j.val + k.val, by have := j.isLt; have := k.isLt; omega⟩ :=
    Fin.ext (Nat.mod_eq_of_lt (by have := j.isLt; have := k.isLt; omega))
  rw [hc]

/-- What a row tile's last point writes back is that row tile's block of the network's output. -/
theorem flushed4 (c : Dev nD) (t : Fin cfg0.N) (hf : (cfg0.win 4).flush t = true) :
    (dat0 V c).flushed 4 t = ((cfg0.win 4).blk t).view.read (Elt Ideal) (G4 V c) := by
  have h31 : t.val % 32 = 31 := (flush0_4 t).mp hf
  obtain ⟨-, -, -, -, -, -, -, -, h0, h1, -⟩ := idx_facts0 t
  have hN : cfg0.N = 512 := N_0
  have ht := t.isLt
  show (cfg0.win 4).cut (grid0.coords t) ((dat0 V c).after 4 t) = _
  rw [after0_4]
  funext j
  obtain ⟨p, q, rfl⟩ : ∃ (p : Fin 512) (q : Fin 2048), j = ix2 p q := ⟨j 0, j 1, eq_ix2 j⟩
  show (outsAt0 V c t.val t.isLt).1 (ix2 p q) = G4 V c (((cfg0.win 4).blk t).view.emb (ix2 p q))
  have hemb : ((cfg0.win 4).blk t).view.emb (ix2 p q) = (ix2 (rowOf (t.val / 32) p) q : S8192x2048.Idx) :=
    funext fun a => Fin.ext (by
      match a with
      | ⟨0, _⟩ => show win0_4.index t (0 : Fin 2) * 512 + 1 * p.val = (512 * (t.val / 32) + p.val) % 8192; rw [h0]; have := p.isLt; omega
      | ⟨1, _⟩ => show win0_4.index t (1 : Fin 2) * 2048 + 1 * q.val = q.val; rw [h1]; omega)
  rw [hemb, acc_value V c t.val t.isLt p q, h31, tiles_total]
  rfl

/-- Every entry of the output array is in the block some row tile's last point writes back. -/
theorem cover4 (c : Dev nD) (i : S8192x2048.Idx) :
    ∃ t : Fin cfg0.N, (cfg0.win 4).flush t = true ∧ i ∈ ((cfg0.win 4).blk t).view.set := by
  have hN : cfg0.N = 512 := N_0
  have hi0 : (i 0).val < 8192 := (i 0).isLt
  have hi1 : (i 1).val < 2048 := (i 1).isLt
  let t : Fin cfg0.N := ⟨32 * ((i 0).val / 512) + 31, by omega⟩
  have htv : t.val = 32 * ((i 0).val / 512) + 31 := rfl
  obtain ⟨-, -, -, -, -, -, -, -, h0, h1, -⟩ := idx_facts0 t
  refine ⟨t, (flush0_4 t).mpr (by omega), ?_⟩
  show i ∈ ((View.whole main_v5_0).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; rw [h0]; omega
  | ⟨1, _⟩ => show win0_4.index t (1 : Fin 2) * 2048 ≤ (i 1).val ∧ (i 1).val < win0_4.index t (1 : Fin 2) * 2048 + 2048; rw [h1]; omega

/-- THE OUTPUT ARRAY after the region: the network's output, entry by entry. -/
theorem final4 (c : Dev nD) : (dat0 V c).arrAt 4 cfg0.N = G4 V c :=
  (dat0 V c).arrAt_eq_of_cover 4 (G4 V c) (flushed4 V c) (cover4 c)

/-- Every point writes back its tile of the gate pre-activation. -/
theorem flushed5 (c : Dev nD) (t : Fin cfg0.N) (hf : (cfg0.win 5).flush t = true) :
    (dat0 V c).flushed 5 t = ((cfg0.win 5).blk t).view.read (Elt Ideal) (G5 V c) := by
  obtain ⟨-, -, -, -, -, -, -, -, -, -, h0, h1, -⟩ := idx_facts0 t
  have hN : cfg0.N = 512 := N_0
  have ht := t.isLt
  show (cfg0.win 5).cut (grid0.coords t) ((dat0 V c).after 5 t) = _
  rw [after0_5]
  funext j
  obtain ⟨p, k, rfl⟩ : ∃ (p : Fin 512) (k : Fin 256), j = ix2 p k := ⟨j 0, j 1, eq_ix2 j⟩
  show (outsAt0 V c t.val t.isLt).2.1 (ix2 p k) = G5 V c (((cfg0.win 5).blk t).view.emb (ix2 p k))
  have hemb : ((cfg0.win 5).blk t).view.emb (ix2 p k) = (ix2 (rowOf (t.val / 32) p) (colOf (t.val % 32) k) : S8192x8192.Idx) :=
    funext fun a => Fin.ext (by
      match a with
      | ⟨0, _⟩ => show win0_5.index t (0 : Fin 2) * 512 + 1 * p.val = (512 * (t.val / 32) + p.val) % 8192; rw [h0]; have := p.isLt; omega
      | ⟨1, _⟩ => show win0_5.index t (1 : Fin 2) * 256 + 1 * k.val = (256 * (t.val % 32) + k.val) % 8192; rw [h1]; have := k.isLt; omega)
  rw [hemb, gate_tile V c t.val t.isLt p k]
  rfl

/-- Every entry of a pre-activation array is in some point's tile. -/
theorem cover5 (c : Dev nD) (i : S8192x8192.Idx) :
    ∃ t : Fin cfg0.N, (cfg0.win 5).flush t = true ∧ i ∈ ((cfg0.win 5).blk t).view.set := by
  have hN : cfg0.N = 512 := N_0
  have hi0 : (i 0).val < 8192 := (i 0).isLt
  have hi1 : (i 1).val < 8192 := (i 1).isLt
  let t : Fin cfg0.N := ⟨32 * ((i 0).val / 512) + (i 1).val / 256, by omega⟩
  have htv : t.val = 32 * ((i 0).val / 512) + (i 1).val / 256 := rfl
  obtain ⟨-, -, -, -, -, -, -, -, -, -, h0, h1, -⟩ := idx_facts0 t
  refine ⟨t, flush0_5 t, ?_⟩
  show i ∈ ((View.whole main_v5_1).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; rw [h0]; omega
  | ⟨1, _⟩ => show win0_5.index t (1 : Fin 2) * 256 ≤ (i 1).val ∧ (i 1).val < win0_5.index t (1 : Fin 2) * 256 + 256; rw [h1]; omega

/-- THE GATE PRE-ACTIVATION ARRAY after the region. -/
theorem final5 (c : Dev nD) : (dat0 V c).arrAt 5 cfg0.N = G5 V c :=
  (dat0 V c).arrAt_eq_of_cover 5 (G5 V c) (flushed5 V c) (cover5 c)

/-- Every point writes back its tile of the up pre-activation. -/
theorem flushed6 (c : Dev nD) (t : Fin cfg0.N) (hf : (cfg0.win 6).flush t = true) :
    (dat0 V c).flushed 6 t = ((cfg0.win 6).blk t).view.read (Elt Ideal) (G6 V c) := by
  obtain ⟨-, -, -, -, -, -, -, -, -, -, -, -, h0, h1⟩ := idx_facts0 t
  have hN : cfg0.N = 512 := N_0
  have ht := t.isLt
  show (cfg0.win 6).cut (grid0.coords t) ((dat0 V c).after 6 t) = _
  rw [after0_6]
  funext j
  obtain ⟨p, k, rfl⟩ : ∃ (p : Fin 512) (k : Fin 256), j = ix2 p k := ⟨j 0, j 1, eq_ix2 j⟩
  show (outsAt0 V c t.val t.isLt).2.2 (ix2 p k) = G6 V c (((cfg0.win 6).blk t).view.emb (ix2 p k))
  have hemb : ((cfg0.win 6).blk t).view.emb (ix2 p k) = (ix2 (rowOf (t.val / 32) p) (colOf (t.val % 32) k) : S8192x8192.Idx) :=
    funext fun a => Fin.ext (by
      match a with
      | ⟨0, _⟩ => show win0_6.index t (0 : Fin 2) * 512 + 1 * p.val = (512 * (t.val / 32) + p.val) % 8192; rw [h0]; have := p.isLt; omega
      | ⟨1, _⟩ => show win0_6.index t (1 : Fin 2) * 256 + 1 * k.val = (256 * (t.val % 32) + k.val) % 8192; rw [h1]; have := k.isLt; omega)
  rw [hemb, up_tile V c t.val t.isLt p k]
  rfl

theorem cover6 (c : Dev nD) (i : S8192x8192.Idx) :
    ∃ t : Fin cfg0.N, (cfg0.win 6).flush t = true ∧ i ∈ ((cfg0.win 6).blk t).view.set := by
  have hN : cfg0.N = 512 := N_0
  have hi0 : (i 0).val < 8192 := (i 0).isLt
  have hi1 : (i 1).val < 8192 := (i 1).isLt
  let t : Fin cfg0.N := ⟨32 * ((i 0).val / 512) + (i 1).val / 256, by omega⟩
  have htv : t.val = 32 * ((i 0).val / 512) + (i 1).val / 256 := rfl
  obtain ⟨-, -, -, -, -, -, -, -, -, -, -, -, h0, h1⟩ := idx_facts0 t
  refine ⟨t, flush0_6 t, ?_⟩
  show i ∈ ((View.whole main_v5_2).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; rw [h0]; omega
  | ⟨1, _⟩ => show win0_6.index t (1 : Fin 2) * 256 ≤ (i 1).val ∧ (i 1).val < win0_6.index t (1 : Fin 2) * 256 + 256; rw [h1]; omega

/-- THE UP PRE-ACTIVATION ARRAY after the region. -/
theorem final6 (c : Dev nD) : (dat0 V c).arrAt 6 cfg0.N = G6 V c :=
  (dat0 V c).arrAt_eq_of_cover 6 (G6 V c) (flushed6 V c) (cover6 c)

end Cert.KernelIdeal.FwdValue

end
-- ==== Proof.RefStages.lean ====
/-
  The reference computation read stage by stage as the mathematics of the gated two-layer network.

  Every stage of the reference is a function of the four argument arrays. Read at one index, the two forward
  contractions are the pre-activations of a flattened row against a weight row, the host's spelling of
  z / (1 + e^(-z)) is z · σ(z), the third contraction is the network's output, and twice the difference between
  the output at a position and the input at the next position is the error signal on the rows that have a successor.
-/
import proofs.«115693_j5566277616153_2_alg».proof.Proof.Gen.ReferenceIdeal.Read
import proofs.«115693_j5566277616153_2_alg».proof.Proof.Spec
import Idealize.ShloMosaic.Lib.IdealHost
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Mlp
open scoped BigOperators

/-! ## Reading an argument array by coordinates -/

/-- The input array at an index whose coordinates are (r / 2048, r mod 2048, d) is entry (r, d) of the flattened rows. -/
theorem rowsOf_at (x0 : S4x2048x2048.Idx → EReal) (r : Fin 8192) (d : Fin 2048) (j : S4x2048x2048.Idx)
    (h0 : (j 0).val = r.val / 2048) (h1 : (j 1).val = r.val % 2048) (h2 : (j 2).val = d.val) :
    x0 j = rowsOf x0 r d := by
  unfold rowsOf
  congr 1
  funext a
  match a with
  | ⟨0, _⟩ => exact Fin.ext h0
  | ⟨1, _⟩ => exact Fin.ext h1
  | ⟨2, _⟩ => exact Fin.ext h2

/-- A two-axis array at an index whose coordinates are (a, b) is its entry (a, b). -/
theorem mat_at {n0 n1 : Nat} (w : (⟨2, ![n0, n1]⟩ : Shape).Idx → EReal) (a : Fin n0) (b : Fin n1)
    (j : (⟨2, ![n0, n1]⟩ : Shape).Idx) (h0 : (j 0).val = a.val) (h1 : (j 1).val = b.val) :
    w j = mat w a b := by
  unfold mat
  congr 1
  funext c
  match c with
  | ⟨0, _⟩ => exact Fin.ext h0
  | ⟨1, _⟩ => exact Fin.ext h1

/-- Row 2048 · b + s of the flattened arrangement, from the coordinates' values. -/
abbrev rowN (b s : Nat) (hb : b < 4) (hs : s < 2048) : Fin 8192 := ⟨2048 * b + s, by omega⟩

/-- The host's spelling z · (1 / (1 + e^(-z))), with the constant one printed as a single-precision word, is z · σ(z). -/
theorem silu_spelt (z : EReal) :
    z * Ideal.div (Ideal.ofBits .f32 0x3F800000#32) (Ideal.ofBits .f32 0x3F800000#32 + Ideal.exp (-z)) = silu z := by
  unfold silu Cert.Mlp.sig Ideal.logistic
  rw [Ideal.ofBits_one_f32]

/-- The same spelling of the logistic function alone. -/
theorem sig_spelt (z : EReal) :
    Ideal.div (Ideal.ofBits .f32 0x3F800000#32) (Ideal.ofBits .f32 0x3F800000#32 + Ideal.exp (-z)) = Cert.Mlp.sig z := by
  unfold Cert.Mlp.sig Ideal.logistic
  rw [Ideal.ofBits_one_f32]

section Stages

variable (x0 : (⟨S4x2048x2048, .f32⟩ : BufTy).Contents (Elt Ideal))
  (x1 x2 : (⟨S8192x2048, .f32⟩ : BufTy).Contents (Elt Ideal))
  (x3 : (⟨S2048x8192, .f32⟩ : BufTy).Contents (Elt Ideal))

/-! ## Forward stages -/

/-- The first contraction at (b, s, h) is the gate pre-activation of row 2048 · b + s against weight row h. -/
theorem v0_eq (i : S4x2048x8192.Idx) :
    val_main_v0 (F := Ideal) x0 x2 i
      = pre (rowsOf x0) (mat x2) (rowN (i 0).val (i 1).val (i 0).isLt (i 1).isLt) ⟨(i 2).val, (i 2).isLt⟩ := by
  rw [val_main_v0_apply]
  unfold pre
  refine Finset.sum_congr rfl fun k _ => ?_
  have h0 : (i 0).val < 4 := (i 0).isLt
  have h1 : (i 1).val < 2048 := (i 1).isLt
  rw [rowsOf_at x0 (rowN (i 0).val (i 1).val (i 0).isLt (i 1).isLt) k (lidx_main_v0 i k)
        (by show (i 0).val = (2048 * (i 0).val + (i 1).val) / 2048; omega)
        (by show (i 1).val = (2048 * (i 0).val + (i 1).val) % 2048; omega) rfl,
      mat_at x2 ⟨(i 2).val, (i 2).isLt⟩ k (ridx_main_v0 i k) rfl rfl]

/-- The second contraction at (b, s, h) is the up pre-activation of row 2048 · b + s against weight row h. -/
theorem v1_eq (i : S4x2048x8192.Idx) :
    val_main_v1 (F := Ideal) x0 x1 i
      = pre (rowsOf x0) (mat x1) (rowN (i 0).val (i 1).val (i 0).isLt (i 1).isLt) ⟨(i 2).val, (i 2).isLt⟩ := by
  rw [val_main_v1_apply]
  unfold pre
  refine Finset.sum_congr rfl fun k _ => ?_
  have h0 : (i 0).val < 4 := (i 0).isLt
  have h1 : (i 1).val < 2048 := (i 1).isLt
  rw [rowsOf_at x0 (rowN (i 0).val (i 1).val (i 0).isLt (i 1).isLt) k (lidx_main_v1 i k)
        (by show (i 0).val = (2048 * (i 0).val + (i 1).val) / 2048; omega)
        (by show (i 1).val = (2048 * (i 0).val + (i 1).val) % 2048; omega) rfl,
      mat_at x1 ⟨(i 2).val, (i 2).isLt⟩ k (ridx_main_v1 i k) rfl rfl]

/-- The activation stage is z · σ(z) of the gate pre-activation. -/
theorem v2_eq (i : S4x2048x8192.Idx) :
    val_main_v2 (F := Ideal) x0 x2 i = silu (val_main_v0 (F := Ideal) x0 x2 i) := by
  rw [val_main_v2_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def]
  exact silu_spelt _

/-- The product of the activation and the up pre-activation is the hidden activation. -/
theorem v3_eq (i : S4x2048x8192.Idx) :
    val_main_v3 (F := Ideal) x0 x1 x2 i
      = hid (rowsOf x0) (mat x2) (mat x1) (rowN (i 0).val (i 1).val (i 0).isLt (i 1).isLt) ⟨(i 2).val, (i 2).isLt⟩ := by
  rw [val_main_v3_apply, v2_eq, v0_eq, v1_eq]
  rfl

/-- (1) The third contraction at (b, s, d) is the network's output at row 2048 · b + s and coordinate d. -/
theorem ref_out (i : S4x2048x2048.Idx) :
    val_main_v4 (F := Ideal) x0 x1 x2 x3 i
      = out (rowsOf x0) (mat x2) (mat x1) (mat x3)
          ⟨2048 * (i 0).val + (i 1).val, by have h0 : (i 0).val < 4 := (i 0).isLt; have h1 : (i 1).val < 2048 := (i 1).isLt; omega⟩
          (i 2) := by
  rw [val_main_v4_apply]
  unfold out
  refine Finset.sum_congr rfl fun k _ => ?_
  rw [v3_eq, mat_at x3 (i 2) k (ridx_main_v4 i k) rfl rfl]

/-! ## The error signal on the rows that have a successor -/

/-- (2) Twice the difference of the two slices at (b, s, d), s < 2047, is the error signal at kept row 2047 · b + s. -/
theorem ref_err (i : S4x2047x2048.Idx) :
    val_main_v9 (F := Ideal) x0 x1 x2 x3 i
      = errKept (rowsOf x0) (out (rowsOf x0) (mat x2) (mat x1) (mat x3))
          ⟨2047 * (i 0).val + (i 1).val, by have h0 : (i 0).val < 4 := (i 0).isLt; have h1 : (i 1).val < 2047 := (i 1).isLt; omega⟩
          (i 2) := by
  have h0 : (i 0).val < 4 := (i 0).isLt
  have h1 : (i 1).val < 2047 := (i 1).isLt
  have e5 : val_main_v4 (F := Ideal) x0 x1 x2 x3 (idx_main_v5 i)
      = out (rowsOf x0) (mat x2) (mat x1) (mat x3) (keptRow ⟨2047 * (i 0).val + (i 1).val, by omega⟩) (i 2) := by
    rw [ref_out]
    exact congrArg (fun r => out (rowsOf x0) (mat x2) (mat x1) (mat x3) r (i 2))
      (Fin.ext (by
        show 2048 * (i 0).val + (i 1).val
          = 2048 * ((2047 * (i 0).val + (i 1).val) / 2047) + (2047 * (i 0).val + (i 1).val) % 2047
        omega))
  have e6 : x0 (idx_main_v6 i) = rowsOf x0 (next (keptRow ⟨2047 * (i 0).val + (i 1).val, by omega⟩)) (i 2) :=
    rowsOf_at x0 _ (i 2) (idx_main_v6 i)
      (by
        show (i 0).val
          = ((2048 * ((2047 * (i 0).val + (i 1).val) / 2047) + (2047 * (i 0).val + (i 1).val) % 2047 + 1) % 8192) / 2048
        omega)
      (by
        show 1 + (i 1).val
          = ((2048 * ((2047 * (i 0).val + (i 1).val) / 2047) + (2047 * (i 0).val + (i 1).val) % 2047 + 1) % 8192) % 2048
        omega)
      rfl
  rw [val_main_v9_apply, val_main_v8_apply, val_main_cst_apply, val_main_v7_apply, val_main_v5_apply,
    val_main_v6_apply, e5, e6]
  rfl

/-! ## The stages on the 8188 kept rows -/

/-- The reshaped slice of the input at (q, d) is the input at kept row q. -/
theorem v18_eq (j : S8188x2048.Idx) :
    val_main_v18 (F := Ideal) x0 j = rowsOf x0 (keptRow (j 0)) (j 1) := by
  have h0 : (j 0).val < 8188 := (j 0).isLt
  have h1 : (j 1).val < 2048 := (j 1).isLt
  rw [val_main_v18_apply, val_main_v17_apply]
  exact rowsOf_at x0 (keptRow (j 0)) (j 1) _
    (by
      show ((j 0).val * 2048 + (j 1).val) / 4192256 = (2048 * ((j 0).val / 2047) + (j 0).val % 2047) / 2048
      omega)
    (by
      show ((j 0).val * 2048 + (j 1).val) / 2048 % 2047 = (2048 * ((j 0).val / 2047) + (j 0).val % 2047) % 2048
      omega)
    (by
      show ((j 0).val * 2048 + (j 1).val) % 2048 = (j 1).val
      omega)

/-- The reshaped error signal at (q, d) is the error signal at kept row q. -/
theorem v19_eq (j : S8188x2048.Idx) :
    val_main_v19 (F := Ideal) x0 x1 x2 x3 j
      = errKept (rowsOf x0) (out (rowsOf x0) (mat x2) (mat x1) (mat x3)) (j 0) (j 1) := by
  have h0 : (j 0).val < 8188 := (j 0).isLt
  have h1 : (j 1).val < 2048 := (j 1).isLt
  rw [val_main_v19_apply, ref_err]
  exact congrArg₂ (errKept (rowsOf x0) (out (rowsOf x0) (mat x2) (mat x1) (mat x3)))
    (Fin.ext (by
      show 2047 * (((j 0).val * 2048 + (j 1).val) / 4192256) + ((j 0).val * 2048 + (j 1).val) / 2048 % 2047 = (j 0).val
      omega))
    (Fin.ext (by
      show ((j 0).val * 2048 + (j 1).val) % 2048 = (j 1).val
      omega))

/-- The gate contraction on the kept rows at (q, h) is the gate pre-activation of kept row q. -/
theorem v21_eq (i : S8188x8192.Idx) :
    val_main_v21 (F := Ideal) x0 x2 i = pre (rowsOf x0) (mat x2) (keptRow (i 0)) (i 1) := by
  rw [val_main_v21_apply]
  unfold pre
  refine Finset.sum_congr rfl fun k _ => ?_
  rw [v18_eq, val_main_v20_apply, mat_at x2 (i 1) k (idx_main_v20 (ridx_main_v21 i k)) rfl rfl]
  rfl

/-- The up contraction on the kept rows at (q, h) is the up pre-activation of kept row q. -/
theorem v24_eq (i : S8188x8192.Idx) :
    val_main_v24 (F := Ideal) x0 x1 i = pre (rowsOf x0) (mat x1) (keptRow (i 0)) (i 1) := by
  rw [val_main_v24_apply]
  unfold pre
  refine Finset.sum_congr rfl fun k _ => ?_
  rw [v18_eq, val_main_v23_apply, mat_at x1 (i 1) k (idx_main_v23 (ridx_main_v24 i k)) rfl rfl]
  rfl

/-- The activation on the kept rows is z · σ(z) of the gate pre-activation. -/
theorem v22_eq (i : S8188x8192.Idx) :
    val_main_v22 (F := Ideal) x0 x2 i = silu (val_main_v21 (F := Ideal) x0 x2 i) := by
  rw [val_main_v22_apply, val_main_call2_v5_apply, val_main_call2_v4_apply, val_main_call2_cst_0_apply,
    val_main_call2_v3_apply, val_main_call2_v2_apply, val_main_call2_cst_apply, val_main_call2_v1_apply,
    val_main_call2_v0_apply]
  simp only [Ideal.mulf_def, Ideal.hostDivf_def, Ideal.addf_def, Ideal.hostUnary_exp_def, Ideal.hostNegf_def,
    Ideal.negf_def, Ideal.ofBits_def]
  exact silu_spelt _

/-- The logistic stage on the kept rows is σ of the gate pre-activation. -/
theorem v38_eq (i : S8188x8192.Idx) :
    val_main_v38 (F := Ideal) x0 x2 i = Cert.Mlp.sig (val_main_v21 (F := Ideal) x0 x2 i) := by
  rw [val_main_v38_apply, val_main_v37_apply, val_main_cst_7_apply, val_main_v36_apply, val_main_v35_apply,
    val_main_cst_6_apply, val_main_v34_apply, val_main_v33_apply]
  simp only [Ideal.hostDivf_def, Ideal.addf_def, Ideal.hostUnary_exp_def, Ideal.hostNegf_def,
    Ideal.negf_def, Ideal.ofBits_def]
  exact sig_spelt _

/-- The product of the activation and the up pre-activation on the kept rows is the hidden activation recomputed
    from the two stored pre-activations. -/
theorem v25_eq (i : S8188x8192.Idx) :
    val_main_v25 (F := Ideal) x0 x1 x2 i
      = hidBK (fun q h => pre (rowsOf x0) (mat x2) (keptRow q) h) (fun q h => pre (rowsOf x0) (mat x1) (keptRow q) h)
          (i 0) (i 1) := by
  rw [val_main_v25_apply, v22_eq, v21_eq, v24_eq]
  rfl

/-- (3) The contraction of the transposed error signal with the hidden activation at (d, h) is the raw gradient sum
    of the down projection over the kept rows. -/
theorem ref_rawDown (i : S2048x8192.Idx) :
    val_main_v27 (F := Ideal) x0 x1 x2 x3 i
      = rawDownK (errKept (rowsOf x0) (out (rowsOf x0) (mat x2) (mat x1) (mat x3)))
          (fun q h => pre (rowsOf x0) (mat x2) (keptRow q) h) (fun q h => pre (rowsOf x0) (mat x1) (keptRow q) h)
          (i 0) (i 1) := by
  rw [val_main_v27_apply]
  unfold rawDownK
  refine Finset.sum_congr rfl fun k _ => ?_
  rw [val_main_v26_apply, v19_eq, v25_eq]
  rfl

/-- The error signal against the down projection at (q, h) is the error pulled back to the hidden coordinates. -/
theorem v30_eq (i : S8188x8192.Idx) :
    val_main_v30 (F := Ideal) x0 x1 x2 x3 i
      = dHidK (errKept (rowsOf x0) (out (rowsOf x0) (mat x2) (mat x1) (mat x3))) (mat x3) (i 0) (i 1) := by
  rw [val_main_v30_apply]
  unfold dHidK
  refine Finset.sum_congr rfl fun k _ => ?_
  rw [v19_eq, mat_at x3 k (i 1) (ridx_main_v30 i k) rfl rfl]
  rfl

/-- The derivative with respect to the gate pre-activation, as the reference spells it. -/
theorem v45_eq (i : S8188x8192.Idx) :
    val_main_v45 (F := Ideal) x0 x1 x2 x3 i
      = dGateK (errKept (rowsOf x0) (out (rowsOf x0) (mat x2) (mat x1) (mat x3)))
          (fun q h => pre (rowsOf x0) (mat x2) (keptRow q) h) (fun q h => pre (rowsOf x0) (mat x1) (keptRow q) h)
          (mat x3) (i 0) (i 1) := by
  rw [val_main_v45_apply, val_main_v39_apply, val_main_v31_apply, val_main_v44_apply, val_main_v43_apply,
    val_main_cst_9_apply, val_main_v42_apply, val_main_v41_apply, val_main_v40_apply, val_main_cst_8_apply,
    v38_eq, v30_eq, v24_eq, v21_eq]
  rfl

/-- (4) The contraction of the transposed gate derivative with the kept input rows at (h, d) is the raw gradient sum
    of the gate projection. -/
theorem ref_rawGate (i : S8192x2048.Idx) :
    val_main_v47 (F := Ideal) x0 x1 x2 x3 i
      = rawGateK (errKept (rowsOf x0) (out (rowsOf x0) (mat x2) (mat x1) (mat x3)))
          (fun q d => rowsOf x0 (keptRow q) d)
          (fun q h => pre (rowsOf x0) (mat x2) (keptRow q) h) (fun q h => pre (rowsOf x0) (mat x1) (keptRow q) h)
          (mat x3) (i 0) (i 1) := by
  rw [val_main_v47_apply]
  unfold rawGateK
  refine Finset.sum_congr rfl fun k _ => ?_
  rw [val_main_v46_apply, v45_eq, v18_eq]
  rfl

/-- The derivative with respect to the up pre-activation, as the reference spells it. -/
theorem v32_eq (i : S8188x8192.Idx) :
    val_main_v32 (F := Ideal) x0 x1 x2 x3 i
      = dUpK (errKept (rowsOf x0) (out (rowsOf x0) (mat x2) (mat x1) (mat x3)))
          (fun q h => pre (rowsOf x0) (mat x2) (keptRow q) h) (mat x3) (i 0) (i 1) := by
  rw [val_main_v32_apply, v30_eq, v22_eq, v21_eq]
  rfl

/-- (5) The contraction of the transposed up derivative with the kept input rows at (h, d) is the raw gradient sum
    of the up projection. -/
theorem ref_rawUp (i : S8192x2048.Idx) :
    val_main_v51 (F := Ideal) x0 x1 x2 x3 i
      = rawUpK (errKept (rowsOf x0) (out (rowsOf x0) (mat x2) (mat x1) (mat x3)))
          (fun q d => rowsOf x0 (keptRow q) d)
          (fun q h => pre (rowsOf x0) (mat x2) (keptRow q) h) (mat x3) (i 0) (i 1) := by
  rw [val_main_v51_apply]
  unfold rawUpK
  refine Finset.sum_congr rfl fun k _ => ?_
  rw [val_main_v50_apply, v32_eq, v18_eq]
  rfl

/-! ## The radicand of the error signal's norm -/

/-- (6) The radicand of the norm is the printed zero plus the sum, over every index of the error signal, of its square. -/
theorem ref_sumsq (i : S_.Idx) :
    val_main_call1_v1 (F := Ideal) x0 x1 x2 x3 i
      = Ideal.ofBits .f32 0x00000000#32
        + ∑ j : S4x2047x2048.Idx, val_main_v9 (F := Ideal) x0 x1 x2 x3 j * val_main_v9 (F := Ideal) x0 x1 x2 x3 j := by
  rw [val_main_call1_v1_apply]
  rfl

/-- The same radicand with every term read as the square of the error signal at its kept row. -/
theorem ref_sumsq_err (i : S_.Idx) :
    val_main_call1_v1 (F := Ideal) x0 x1 x2 x3 i
      = Ideal.ofBits .f32 0x00000000#32
        + ∑ j : S4x2047x2048.Idx,
            errKept (rowsOf x0) (out (rowsOf x0) (mat x2) (mat x1) (mat x3))
                ⟨2047 * (j 0).val + (j 1).val, by have h0 : (j 0).val < 4 := (j 0).isLt; have h1 : (j 1).val < 2047 := (j 1).isLt; omega⟩
                (j 2)
              * errKept (rowsOf x0) (out (rowsOf x0) (mat x2) (mat x1) (mat x3))
                ⟨2047 * (j 0).val + (j 1).val, by have h0 : (j 0).val < 4 := (j 0).isLt; have h1 : (j 1).val < 2047 := (j 1).isLt; omega⟩
                (j 2) := by
  rw [ref_sumsq]
  congr 1
  exact Finset.sum_congr rfl fun j _ => by rw [ref_err]

end Stages

end Cert.ReferenceIdeal.RefValue

end
-- ==== Proof.HostTail.lean ====
/-
  The last stretch of the idealized kernel program, after its second kernel region: each of the three raw gradient sums
  is divided by the number of rows that have a successor (8188), scaled by the scalar gate, and then rescaled by
  min(1, 1 / max(‖g‖, 10⁻¹²)), the Euclidean norm taken over the whole scaled array. Here each result buffer's final
  contents are read as that one function of the region's output array and of the gate, both as they stand when the
  region is left.
-/
import proofs.«115693_j5566277616153_2_alg».proof.Proof.Gen.KernelIdeal.Frame
import proofs.«115693_j5566277616153_2_alg».proof.Proof.LibHostFold
import Idealize.ShloMosaic.Lib.StableHlo.Run

set_option maxRecDepth 16384

noncomputable section

namespace Cert.KernelIdeal.HostValue

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]

/-- A raw 8192 × 2048 gradient sum divided by 8188 and scaled by the gate. -/
def scaleHD (raw : (⟨S8192x2048, .f32⟩ : BufTy).Contents (Elt F)) (sg : (⟨S_, .f32⟩ : BufTy).Contents (Elt F)) :
    (⟨S8192x2048, .f32⟩ : BufTy).Contents (Elt F) :=
  mulf (Host.divf raw (broadcastInDim S8192x2048 ![] bcast_S_S8192x2048 (constant S_ .f32 0x45FFE000#32)))
    (broadcastInDim S8192x2048 ![] bcast_S_S8192x2048 sg)

/-- An 8192 × 2048 array rescaled by min(1, 1 / max(‖g‖, 10⁻¹²)). -/
def clipHD (g : (⟨S8192x2048, .f32⟩ : BufTy).Contents (Elt F)) : (⟨S8192x2048, .f32⟩ : BufTy).Contents (Elt F) :=
  mulf g (broadcastInDim S8192x2048 ![] bcast_S_S8192x2048
    (minimumf (constant S_ .f32 0x3F800000#32) (Host.divf (constant S_ .f32 0x3F800000#32)
      (maximumf (Host.sqrt (Host.reduceAdd (mulf g g) (constant S_ .f32 0x00000000#32) reducesTo_S8192x2048_S_d0_1 h_S_))
        (constant S_ .f32 0x2B8CBCCC#32)))))

/-- The same two steps for the 2048 × 8192 gradient. -/
def scaleDH (raw : (⟨S2048x8192, .f32⟩ : BufTy).Contents (Elt F)) (sg : (⟨S_, .f32⟩ : BufTy).Contents (Elt F)) :
    (⟨S2048x8192, .f32⟩ : BufTy).Contents (Elt F) :=
  mulf (Host.divf raw (broadcastInDim S2048x8192 ![] bcast_S_S2048x8192 (constant S_ .f32 0x45FFE000#32)))
    (broadcastInDim S2048x8192 ![] bcast_S_S2048x8192 sg)

def clipDH (g : (⟨S2048x8192, .f32⟩ : BufTy).Contents (Elt F)) : (⟨S2048x8192, .f32⟩ : BufTy).Contents (Elt F) :=
  mulf g (broadcastInDim S2048x8192 ![] bcast_S_S2048x8192
    (minimumf (constant S_ .f32 0x3F800000#32) (Host.divf (constant S_ .f32 0x3F800000#32)
      (maximumf (Host.sqrt (Host.reduceAdd (mulf g g) (constant S_ .f32 0x00000000#32) reducesTo_S2048x8192_S_d0_1 h_S_))
        (constant S_ .f32 0x2B8CBCCC#32)))))

variable (m : (ℓ : Loc nD τ sig) → Buf (Elt F) ℓ) (ρ : Dev nD → PrngReg)

/-- The seven host stretches after the second region, as one line of operations from the contents the region leaves. -/
theorem W14_eq (c : Dev nD) : W14 m ρ c
    = StableHlo.after (hostOps2 ++ (hostOps2_1 ++ (hostOps2_2 ++ (hostOps2_3 ++ (hostOps2_4 ++ (hostOps2_5 ++ hostOps2_6)))))) (W7 m ρ c) :=
  ((StableHlo.after_append hostOps2 _ _).trans ((StableHlo.after_append hostOps2_1 _ _).trans
    ((StableHlo.after_append hostOps2_2 _ _).trans ((StableHlo.after_append hostOps2_3 _ _).trans
      ((StableHlo.after_append hostOps2_4 _ _).trans (StableHlo.after_append hostOps2_5 _ _)))))).symm

set_option maxHeartbeats 4000000 in
/-- The up-projection gradient (result 1): the third output of the region, divided, scaled and clipped. -/
theorem W14_v42 (c : Dev nD) : W14 m ρ c (Proc.devRef .tc main_v42)
    = clipHD (scaleHD (W7 m ρ c (Proc.devRef .tc main_v28_2)) (W7 m ρ c (Proc.devRef .tc main_v25))) := by
  rw [W14_eq]
  simp only [hostOps2, hostOps2_1, hostOps2_2, hostOps2_3, hostOps2_4, hostOps2_5, hostOps2_6, List.cons_append, List.nil_append]
  after_results
  rfl

set_option maxHeartbeats 4000000 in
/-- The down-projection gradient (result 2): the first output of the region, divided, scaled and clipped. -/
theorem W14_v50 (c : Dev nD) : W14 m ρ c (Proc.devRef .tc main_v50)
    = clipDH (scaleDH (W7 m ρ c (Proc.devRef .tc main_v28_0)) (W7 m ρ c (Proc.devRef .tc main_v25))) := by
  rw [W14_eq]
  simp only [hostOps2, hostOps2_1, hostOps2_2, hostOps2_3, hostOps2_4, hostOps2_5, hostOps2_6, List.cons_append, List.nil_append]
  after_results
  rfl

set_option maxHeartbeats 4000000 in
/-- The gate-projection gradient (result 3): the second output of the region, divided, scaled and clipped. -/
theorem W14_v58 (c : Dev nD) : W14 m ρ c (Proc.devRef .tc main_v58)
    = clipHD (scaleHD (W7 m ρ c (Proc.devRef .tc main_v28_1)) (W7 m ρ c (Proc.devRef .tc main_v25))) := by
  rw [W14_eq]
  simp only [hostOps2, hostOps2_1, hostOps2_2, hostOps2_3, hostOps2_4, hostOps2_5, hostOps2_6, List.cons_append, List.nil_append]
  after_results
  rfl

set_option maxHeartbeats 4000000 in
/-- The output (result 0) is not touched after the second region. -/
theorem W14_v6 (c : Dev nD) : W14 m ρ c (Proc.devRef .tc main_v6) = W7 m ρ c (Proc.devRef .tc main_v6) := by
  rw [W14_eq]
  simp only [hostOps2, hostOps2_1, hostOps2_2, hostOps2_3, hostOps2_4, hostOps2_5, hostOps2_6, List.cons_append, List.nil_append]
  after_results

end Cert.KernelIdeal.HostValue

end
-- ==== Proof.RefTail.lean ====
/-
  The reference program's last steps, in the same words as the kernel program's. Each of its three gradient results is
  its raw sum divided by 8188, scaled by the gate and clipped to unit norm — the same function of (raw sum, gate) that
  the kernel program applies after its second region — and its gate is the same function of the sum of squares of the
  error signal. So the two programs' gradient results agree as soon as their raw sums and their sums of squares do.
-/
import proofs.«115693_j5566277616153_2_alg».proof.Proof.HostTail
import proofs.«115693_j5566277616153_2_alg».proof.Proof.HostMid
import proofs.«115693_j5566277616153_2_alg».proof.Proof.Gen.ReferenceIdeal.Read

set_option maxRecDepth 16384

noncomputable section

namespace Cert.Bridge

open Idealize.ShloMosaic Idealize.ShloMosaic.TcCoe
open Cert.KernelIdeal.HostValue

variable {F : FTy → Type} [FloatOps F]

/-- The gate as a function of the sum of squares s of the error signal: with μ = √s / 8188,
    min(μ / max(0.95 + 0.05 · μ, 10⁻⁸), 3). -/
def gateFrom (s : (⟨Cert.KernelIdeal.S_, .f32⟩ : BufTy).Contents (Elt F)) : (⟨Cert.KernelIdeal.S_, .f32⟩ : BufTy).Contents (Elt F) :=
  minimumf (Host.divf (Host.divf (Host.sqrt s) (constant Cert.KernelIdeal.S_ .f32 0x45FFE000#32))
      (maximumf (addf (constant Cert.KernelIdeal.S_ .f32 0x3F733333#32)
          (mulf (constant Cert.KernelIdeal.S_ .f32 0x3D4CCCCD#32) (Host.divf (Host.sqrt s) (constant Cert.KernelIdeal.S_ .f32 0x45FFE000#32))))
        (constant Cert.KernelIdeal.S_ .f32 0x322BCC77#32)))
    (constant Cert.KernelIdeal.S_ .f32 0x40400000#32)

/-- The kernel program's gate is that function of the sum of squares of its error signal. -/
theorem gateOf_eq (e : (⟨Cert.KernelIdeal.S4x2048x2048, .f32⟩ : BufTy).Contents (Elt F)) :
    gateOf e = gateFrom (Host.reduceAdd (mulf e e) (constant Cert.KernelIdeal.S_ .f32 0x00000000#32)
      Cert.KernelIdeal.Gen.reducesTo_S4x2048x2048_S_d0_1_2 Cert.KernelIdeal.Gen.h_S_) := rfl

section Reference

open Cert.ReferenceIdeal Cert.ReferenceIdeal.Read

variable (x0 : (⟨S4x2048x2048, .f32⟩ : BufTy).Contents (Elt F)) (x1 x2 : (⟨S8192x2048, .f32⟩ : BufTy).Contents (Elt F))
  (x3 : (⟨S2048x8192, .f32⟩ : BufTy).Contents (Elt F))

/-- The reference's gate is the same function of its sum of squares. -/
theorem ref_gate : val_main_v16 (F := F) x0 x1 x2 x3 = gateFrom (val_main_call1_v1 (F := F) x0 x1 x2 x3) := rfl

/-- The reference's up-projection gradient (its second result). -/
theorem ref_v61 : val_main_v61 (F := F) x0 x1 x2 x3
    = clipHD (scaleHD (val_main_v51 (F := F) x0 x1 x2 x3) (val_main_v16 (F := F) x0 x1 x2 x3)) := rfl

/-- The reference's down-projection gradient (its third result). -/
theorem ref_v69 : val_main_v69 (F := F) x0 x1 x2 x3
    = clipDH (scaleDH (val_main_v27 (F := F) x0 x1 x2 x3) (val_main_v16 (F := F) x0 x1 x2 x3)) := rfl

/-- The reference's gate-projection gradient (its fourth result). -/
theorem ref_v77 : val_main_v77 (F := F) x0 x1 x2 x3
    = clipHD (scaleHD (val_main_v47 (F := F) x0 x1 x2 x3) (val_main_v16 (F := F) x0 x1 x2 x3)) := rfl

end Reference

end Cert.Bridge

end
-- ==== Proof.KernelStages.lean ====
/-
  The idealized kernel program's buffers along its run, in the words of the specification, at the exact values. From the
  launch contents x0 (the 4 × 2048 × 2048 input) and the three weights: the first region reads x0 as 8192 rows and the
  weights as they are, and leaves the network's output and the two pre-activation arrays; the output laid back out as
  sequences × positions is the program's first result, and it equals the reference's; the error signal as 8192 rows is
  twice (output − next input) with zero rows where there is no next position; the gate is one function of the sum of
  squares of the error signal, and that sum equals the reference's sum over its 8188 rows.
-/
import proofs.«115693_j5566277616153_2_alg».proof.Proof.HostHead
import proofs.«115693_j5566277616153_2_alg».proof.Proof.HostMid
import proofs.«115693_j5566277616153_2_alg».proof.Proof.HostKept
import proofs.«115693_j5566277616153_2_alg».proof.Proof.HostErr
import proofs.«115693_j5566277616153_2_alg».proof.Proof.FwdFinal
import proofs.«115693_j5566277616153_2_alg».proof.Proof.RefStages
import proofs.«115693_j5566277616153_2_alg».proof.Proof.RefTail

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.HostValue Cert.KernelIdeal.FwdValue

variable (m : (ℓ : Loc nD τ sig) → Buf (Elt Ideal) ℓ) (ρ : Dev nD → PrngReg)

/-- The four argument arrays as launched. -/
abbrev a0 (c : Dev nD) : (⟨S4x2048x2048, .f32⟩ : BufTy).Contents (Elt Ideal) := m ((c.tc : Thread nD τ).loc main_arg0)
abbrev a1 (c : Dev nD) : (⟨S8192x2048, .f32⟩ : BufTy).Contents (Elt Ideal) := m ((c.tc : Thread nD τ).loc main_arg1)
abbrev a2 (c : Dev nD) : (⟨S8192x2048, .f32⟩ : BufTy).Contents (Elt Ideal) := m ((c.tc : Thread nD τ).loc main_arg2)
abbrev a3 (c : Dev nD) : (⟨S2048x8192, .f32⟩ : BufTy).Contents (Elt Ideal) := m ((c.tc : Thread nD τ).loc main_arg3)

/-- x as rows, the gate / up / down weights by coordinates, and the network's output. -/
abbrev X (c : Dev nD) : Fin 8192 → Fin 2048 → EReal := Cert.Mlp.rowsOf (a0 m c)
abbrev Wg (c : Dev nD) : Fin 8192 → Fin 2048 → EReal := Cert.Mlp.mat (a2 m c)
abbrev Wu (c : Dev nD) : Fin 8192 → Fin 2048 → EReal := Cert.Mlp.mat (a1 m c)
abbrev Wd (c : Dev nD) : Fin 2048 → Fin 8192 → EReal := Cert.Mlp.mat (a3 m c)
abbrev O (c : Dev nD) : Fin 8192 → Fin 2048 → EReal := Cert.Mlp.out (X m c) (Wg m c) (Wu m c) (Wd m c)

/-! ## What the first region reads -/

theorem x_in (c : Dev nD) : xA (V1 m ρ) c = X m c := by
  funext r d
  show W1 m ρ c (Proc.devRef .tc main_v1) (ix2 r d) = _
  rw [W1_v1]
  exact rows_of_cast _ r d

theorem wg_in (c : Dev nD) : wgA (V1 m ρ) c = Wg m c := by
  funext h d
  show W1 m ρ c (Proc.devRef .tc main_v2) (ix2 h d) = _
  rw [W1_v2]
  rfl

theorem wu_in (c : Dev nD) : wuA (V1 m ρ) c = Wu m c := by
  funext h d
  show W1 m ρ c (Proc.devRef .tc main_v3) (ix2 h d) = _
  rw [W1_v3]
  rfl

theorem wd_in (c : Dev nD) : wdA (V1 m ρ) c = Wd m c := by
  funext d h
  show W1 m ρ c (Proc.devRef .tc main_v4) (ix2 d h) = _
  rw [W1_v4]
  rfl

/-! ## What the first region leaves -/

theorem out_arr (c : Dev nD) (r : Fin 8192) (d : Fin 2048) :
    W2 m ρ c (Proc.devRef .tc main_v5_0) (ix2 r d) = O m c r d := by
  rw [show W2 m ρ c (Proc.devRef .tc main_v5_0) = G4 (V1 m ρ) c from (W2_arr m ρ c 4).trans (final4 (V1 m ρ) c)]
  show Cert.Mlp.out (xA (V1 m ρ) c) (wgA (V1 m ρ) c) (wuA (V1 m ρ) c) (wdA (V1 m ρ) c) r d = _
  rw [x_in, wg_in, wu_in, wd_in]

theorem gate_arr (c : Dev nD) (r h : Fin 8192) :
    W2 m ρ c (Proc.devRef .tc main_v5_1) (ix2 r h) = Cert.Mlp.pre (X m c) (Wg m c) r h := by
  rw [show W2 m ρ c (Proc.devRef .tc main_v5_1) = G5 (V1 m ρ) c from (W2_arr m ρ c 5).trans (final5 (V1 m ρ) c)]
  show Cert.Mlp.pre (xA (V1 m ρ) c) (wgA (V1 m ρ) c) r h = _
  rw [x_in, wg_in]

theorem up_arr (c : Dev nD) (r h : Fin 8192) :
    W2 m ρ c (Proc.devRef .tc main_v5_2) (ix2 r h) = Cert.Mlp.pre (X m c) (Wu m c) r h := by
  rw [show W2 m ρ c (Proc.devRef .tc main_v5_2) = G6 (V1 m ρ) c from (W2_arr m ρ c 6).trans (final6 (V1 m ρ) c)]
  show Cert.Mlp.pre (xA (V1 m ρ) c) (wuA (V1 m ρ) c) r h = _
  rw [x_in, wu_in]

/-- The output laid out as sequences × positions, read back as rows, is the network's output. -/
theorem out_rows (c : Dev nD) : Cert.Mlp.rowsOf (outOf m ρ c) = O m c := by
  funext r d
  exact (cast_rows _ r d).trans (out_arr m ρ c r d)

/-- An input array of the first region is left as it was entered. -/
theorem in_kept (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin cfg0.N).trans (A_eq0 (V1 m ρ) c w))

/-- The input is still as launched when the first region is left. -/
theorem arg0_kept (c : Dev nD) : W2 m ρ c (Proc.devRef .tc main_arg0) = a0 m c :=
  (W2_of_ne m ρ c main_arg0 (by decide)).trans (W1_arg0 m ρ c)

/-! ## The first result -/

/-- The kernel program's first result is the reference's. -/
theorem result0 (c : Dev nD) :
    outOf m ρ c = Cert.ReferenceIdeal.Read.val_main_v4 (F := Ideal) (a0 m c) (a1 m c) (a2 m c) (a3 m c) := by
  funext i
  obtain ⟨b, s, d, rfl⟩ : ∃ (b : Fin 4) (s : Fin 2048) (d : Fin 2048), i = ix3 b s d := ⟨i 0, i 1, i 2, eq_ix3 i⟩
  rw [Cert.ReferenceIdeal.RefValue.ref_out]
  have hr : Cert.Mlp.rowsOf (outOf m ρ c) ⟨2048 * b.val + s.val, by have := b.isLt; have := s.isLt; omega⟩ d = outOf m ρ c (ix3 b s d) := by
    unfold Cert.Mlp.rowsOf
    congr 1
    funext a
    apply Fin.ext
    match a with
    | ⟨0, _⟩ => show (2048 * b.val + s.val) / 2048 = b.val; have := s.isLt; omega
    | ⟨1, _⟩ => show (2048 * b.val + s.val) % 2048 = s.val; have := s.isLt; omega
    | ⟨2, _⟩ => rfl
  rw [← hr, out_rows]

/-! ## What the second region reads -/

/-- Its first operand, by coordinates: the error signal on all 8192 rows. -/
theorem e_in (c : Dev nD) : Cert.Mlp.mat (n0 := 8192) (n1 := 2048) (W6 m ρ c (Proc.devRef .tc main_v27)) = Cert.Mlp.errAll (X m c) (O m c) := by
  funext r d
  show W6 m ρ c (Proc.devRef .tc main_v27) (ix2 r d) = _
  rw [W6_v27]
  show shapeCast S8192x2048 (errOf (F := Ideal) (outOf m ρ c) (W2 m ρ c (Proc.devRef .tc main_arg0))) shapeCasts_S4x2048x2048_S8192x2048 (ix2 r d) = _
  rw [err_rows, arg0_kept, out_rows]

theorem xp_in (c : Dev nD) : Cert.Mlp.mat (n0 := 8192) (n1 := 2048) (W6 m ρ c (Proc.devRef .tc main_v1)) = X m c := by
  funext r d
  show W6 m ρ c (Proc.devRef .tc main_v1) (ix2 r d) = _
  rw [W6_v1_kept, show W2 m ρ c (Proc.devRef .tc main_v1) = W1 m ρ c (Proc.devRef .tc main_v1) from in_kept m ρ c 0 rfl, W1_v1]
  exact rows_of_cast _ r d

theorem gp_in (c : Dev nD) : Cert.Mlp.mat (n0 := 8192) (n1 := 8192) (W6 m ρ c (Proc.devRef .tc main_v5_1)) = Cert.Mlp.pre (X m c) (Wg m c) := by
  funext r h
  show W6 m ρ c (Proc.devRef .tc main_v5_1) (ix2 r h) = _
  rw [W6_v5_1_kept]
  exact gate_arr m ρ c r h

theorem up_in (c : Dev nD) : Cert.Mlp.mat (n0 := 8192) (n1 := 8192) (W6 m ρ c (Proc.devRef .tc main_v5_2)) = Cert.Mlp.pre (X m c) (Wu m c) := by
  funext r h
  show W6 m ρ c (Proc.devRef .tc main_v5_2) (ix2 r h) = _
  rw [W6_v5_2_kept]
  exact up_arr m ρ c r h

theorem wd2_in (c : Dev nD) : Cert.Mlp.mat (n0 := 2048) (n1 := 8192) (W6 m ρ c (Proc.devRef .tc main_v4)) = Wd m c := by
  funext d h
  show W6 m ρ c (Proc.devRef .tc main_v4) (ix2 d h) = _
  rw [W6_v4_kept, show W2 m ρ c (Proc.devRef .tc main_v4) = W1 m ρ c (Proc.devRef .tc main_v4) from in_kept m ρ c 3 rfl, W1_v4]
  rfl

/-! ## The gate -/

/-- The two programs' sums of squares of the error signal agree: the rows without a next position contribute zero. -/
theorem sumsq_eq (c : Dev nD) :
    Host.reduceAdd (F := Ideal) (mulf (errOf (F := Ideal) (outOf m ρ c) (a0 m c)) (errOf (F := Ideal) (outOf m ρ c) (a0 m c)))
        (constant S_ .f32 0x00000000#32) reducesTo_S4x2048x2048_S_d0_1_2 h_S_
      = Cert.ReferenceIdeal.Read.val_main_call1_v1 (F := Ideal) (a0 m c) (a1 m c) (a2 m c) (a3 m c) := by
  funext i
  rw [sumsq_all, Cert.ReferenceIdeal.RefValue.ref_sumsq_err, Cert.Mlp.sum_idx_kept]
  refine congrArg (Ideal.ofBits .f32 0x00000000#32 + ·) ?_
  have hE : ∀ r d, Cert.Mlp.rowsOf (errOf (F := Ideal) (outOf m ρ c) (a0 m c)) r d = Cert.Mlp.errAll (X m c) (O m c) r d := fun r d => by
    rw [← rows_of_cast, err_rows, out_rows]
  rw [Finset.sum_congr rfl (fun r _ => Finset.sum_congr rfl (fun d _ => by rw [hE r d])), Cert.Mlp.sumsq_kept]
  refine Finset.sum_congr rfl fun q _ => Finset.sum_congr rfl fun d _ => ?_
  have hq : (⟨2047 * (q.val / 2047) + q.val % 2047, by have := q.isLt; omega⟩ : Fin 8188) = q := Fin.ext (by show 2047 * (q.val / 2047) + q.val % 2047 = q.val; omega)
  show _ = Cert.Mlp.errKept (X m c) (O m c) ⟨2047 * (q.val / 2047) + q.val % 2047, _⟩ d * Cert.Mlp.errKept (X m c) (O m c) ⟨2047 * (q.val / 2047) + q.val % 2047, _⟩ d
  rw [hq]

/-- The gate when the second region is entered is the reference's gate. -/
theorem gate_eq (c : Dev nD) :
    W6 m ρ c (Proc.devRef .tc main_v25) = Cert.ReferenceIdeal.Read.val_main_v16 (F := Ideal) (a0 m c) (a1 m c) (a2 m c) (a3 m c) := by
  rw [W6_v25, arg0_kept, gateOf_eq, ref_gate, sumsq_eq]

end Cert.Bridge

end
-- ==== Proof.BwdRegion.lean ====
/-
  The second kernel of the backward pass, read as mathematics.

  The grid has 32 · 16 points; point t = 16 · i + j works on hidden tile i (256 hidden coordinates) and row tile j
  (512 rows). At every point the body forms, from the blocks of the error signal, the activations, the two stored
  pre-activations and the down projection, three partial sums over the 512 rows of the tile, and adds them into
  three accumulators which are set to zero when j = 0 and written back when j = 15. This module shows that the three
  result arrays end holding, index by index, the three raw gradient sums over ALL 8192 rows.
-/
import proofs.«115693_j5566277616153_2_alg».proof.Proof.Gen.KernelIdeal.Frame
import proofs.«115693_j5566277616153_2_alg».proof.Proof.Spec
import proofs.«115693_j5566277616153_2_alg».proof.Proof.LibMatmulRows
import proofs.«115693_j5566277616153_2_alg».proof.Proof.Algebra
import Idealize.ShloMosaic.Lib.Pipeline.Value
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.BwdValue

open Cert.KernelIdeal Cert.KernelIdeal.Gen

variable {F : FTy → Type} [FloatOps F]

/-- The offset (0, 0) is the zero offset on both axes. -/
theorem hz : (![0, 0] : Fin 2 → Nat) = fun _ => 0 := funext fun a => by fin_cases a <;> rfl

/-- At a point with j ≠ 0 the body leaves in accumulator 1 what it held plus the point's partial sum. -/
theorem out_B_5 (c : Dev nD) (i : grid1.Coords) (a2 : Memref sig .tc .vmem S512x2048 .bf16) (h2 : a2.IsWhole) (a3 : Memref sig .tc .vmem S512x2048 .bf16) (h3 : a3.IsWhole) (a4 : Memref sig .tc .vmem S512x256 .bf16) (h4 : a4.IsWhole) (a5 : Memref sig .tc .vmem S512x256 .bf16) (h5 : a5.IsWhole) (a6 : Memref sig .tc .vmem S2048x256 .bf16) (h6 : a6.IsWhole) (a7 : Memref sig .tc .vmem S2048x256 .f32) (h7 : a7.IsWhole) (a8 : Memref sig .tc .vmem S256x2048 .f32) (h8 : a8.IsWhole) (a9 : Memref sig .tc .vmem S256x2048 .f32) (h9 : a9.IsWhole) (hc : ¬cond1_0 i) (x0 x1 : Vec F S512x2048 .bf16) (x2 x3 : Vec F S512x256 .bf16) (x4 : Vec F S2048x256 .bf16) (xo5 : Vec F S2048x256 .f32) (xo6 xo7 : Vec F S256x2048 .f32) :
    out1_B_5 c i a2 h2 a3 h3 a4 h4 a5 h5 a6 h6 a7 h7 a8 h8 a9 h9 hc x0 x1 x2 x3 x4 xo5 xo6 xo7 = addf xo5 (k1_pay9 x0 x2 x3) := by
  unfold out1_B_5
  rw [View.read_writes_eq_canon _ _ _ (cover1_B_5 c i a2 h2 a3 h3 a4 h4 a5 h5 a6 h6 a7 h7 a8 h8 a9 h9 hc x0 x1 x2 x3 x4 xo5 xo6 xo7)]
  unfold kernelRun1_B
  dsimp only
  sl_unfold_words
  rw [View.canon_unit_zero hz]
  unfold k1_pay1
  simp only [View.readAt_eq_ld, h2.read_unread, h3.read_unread, h4.read_unread, h5.read_unread, h6.read_unread, h7.read_unread, h8.read_unread, h9.read_unread, View.ld_unit_zero (S := S2048x256) hz, View.ld_unit_zero (S := S256x2048) hz, View.ld_unit_zero (S := S512x2048) hz, View.ld_unit_zero (S := S512x256) hz, shapeCast_self]

/-- At a point with j ≠ 0 the body leaves in accumulator 2 what it held plus the point's partial sum. -/
theorem out_B_6 (c : Dev nD) (i : grid1.Coords) (a2 : Memref sig .tc .vmem S512x2048 .bf16) (h2 : a2.IsWhole) (a3 : Memref sig .tc .vmem S512x2048 .bf16) (h3 : a3.IsWhole) (a4 : Memref sig .tc .vmem S512x256 .bf16) (h4 : a4.IsWhole) (a5 : Memref sig .tc .vmem S512x256 .bf16) (h5 : a5.IsWhole) (a6 : Memref sig .tc .vmem S2048x256 .bf16) (h6 : a6.IsWhole) (a7 : Memref sig .tc .vmem S2048x256 .f32) (h7 : a7.IsWhole) (a8 : Memref sig .tc .vmem S256x2048 .f32) (h8 : a8.IsWhole) (a9 : Memref sig .tc .vmem S256x2048 .f32) (h9 : a9.IsWhole) (hc : ¬cond1_0 i) (x0 x1 : Vec F S512x2048 .bf16) (x2 x3 : Vec F S512x256 .bf16) (x4 : Vec F S2048x256 .bf16) (xo5 : Vec F S2048x256 .f32) (xo6 xo7 : Vec F S256x2048 .f32) :
    out1_B_6 c i a2 h2 a3 h3 a4 h4 a5 h5 a6 h6 a7 h7 a8 h8 a9 h9 hc x0 x1 x2 x3 x4 xo5 xo6 xo7 = addf xo6 (k1_pay11 x0 x1 x2 x3 x4) := by
  unfold out1_B_6
  rw [View.read_writes_eq_canon _ _ _ (cover1_B_6 c i a2 h2 a3 h3 a4 h4 a5 h5 a6 h6 a7 h7 a8 h8 a9 h9 hc x0 x1 x2 x3 x4 xo5 xo6 xo7)]
  unfold kernelRun1_B
  dsimp only
  sl_unfold_words
  rw [View.canon_unit_zero hz]
  unfold k1_pay2
  simp only [View.readAt_eq_ld, h2.read_unread, h3.read_unread, h4.read_unread, h5.read_unread, h6.read_unread, h7.read_unread, h8.read_unread, h9.read_unread, View.ld_unit_zero (S := S2048x256) hz, View.ld_unit_zero (S := S256x2048) hz, View.ld_unit_zero (S := S512x2048) hz, View.ld_unit_zero (S := S512x256) hz, shapeCast_self]

/-- At a point with j ≠ 0 the body leaves in accumulator 3 what it held plus the point's partial sum. -/
theorem out_B_7 (c : Dev nD) (i : grid1.Coords) (a2 : Memref sig .tc .vmem S512x2048 .bf16) (h2 : a2.IsWhole) (a3 : Memref sig .tc .vmem S512x2048 .bf16) (h3 : a3.IsWhole) (a4 : Memref sig .tc .vmem S512x256 .bf16) (h4 : a4.IsWhole) (a5 : Memref sig .tc .vmem S512x256 .bf16) (h5 : a5.IsWhole) (a6 : Memref sig .tc .vmem S2048x256 .bf16) (h6 : a6.IsWhole) (a7 : Memref sig .tc .vmem S2048x256 .f32) (h7 : a7.IsWhole) (a8 : Memref sig .tc .vmem S256x2048 .f32) (h8 : a8.IsWhole) (a9 : Memref sig .tc .vmem S256x2048 .f32) (h9 : a9.IsWhole) (hc : ¬cond1_0 i) (x0 x1 : Vec F S512x2048 .bf16) (x2 x3 : Vec F S512x256 .bf16) (x4 : Vec F S2048x256 .bf16) (xo5 : Vec F S2048x256 .f32) (xo6 xo7 : Vec F S256x2048 .f32) :
    out1_B_7 c i a2 h2 a3 h3 a4 h4 a5 h5 a6 h6 a7 h7 a8 h8 a9 h9 hc x0 x1 x2 x3 x4 xo5 xo6 xo7 = addf xo7 (k1_pay12 x0 x1 x2 x4) := by
  unfold out1_B_7
  rw [View.read_writes_eq_canon _ _ _ (cover1_B_7 c i a2 h2 a3 h3 a4 h4 a5 h5 a6 h6 a7 h7 a8 h8 a9 h9 hc x0 x1 x2 x3 x4 xo5 xo6 xo7)]
  unfold kernelRun1_B
  dsimp only
  sl_unfold_words
  rw [View.canon_unit_zero hz]
  unfold k1_pay3
  simp only [View.readAt_eq_ld, h2.read_unread, h3.read_unread, h4.read_unread, h5.read_unread, h6.read_unread, h7.read_unread, h8.read_unread, h9.read_unread, View.ld_unit_zero (S := S2048x256) hz, View.ld_unit_zero (S := S256x2048) hz, View.ld_unit_zero (S := S512x2048) hz, View.ld_unit_zero (S := S512x256) hz, shapeCast_self]

/-- At a point with j = 0 the body zeroes accumulator 1, reads the zero back, and leaves zero plus the point's partial sum. -/
theorem out_A_5 (c : Dev nD) (i : grid1.Coords) (a2 : Memref sig .tc .vmem S512x2048 .bf16) (h2 : a2.IsWhole) (a3 : Memref sig .tc .vmem S512x2048 .bf16) (h3 : a3.IsWhole) (a4 : Memref sig .tc .vmem S512x256 .bf16) (h4 : a4.IsWhole) (a5 : Memref sig .tc .vmem S512x256 .bf16) (h5 : a5.IsWhole) (a6 : Memref sig .tc .vmem S2048x256 .bf16) (h6 : a6.IsWhole) (a7 : Memref sig .tc .vmem S2048x256 .f32) (h7 : a7.IsWhole) (a8 : Memref sig .tc .vmem S256x2048 .f32) (h8 : a8.IsWhole) (a9 : Memref sig .tc .vmem S256x2048 .f32) (h9 : a9.IsWhole) (hc : cond1_0 i) (x0 x1 : Vec F S512x2048 .bf16) (x2 x3 : Vec F S512x256 .bf16) (x4 : Vec F S2048x256 .bf16) :
    out1_A_5 c i a2 h2 a3 h3 a4 h4 a5 h5 a6 h6 a7 h7 a8 h8 a9 h9 hc x0 x1 x2 x3 x4 = addf (broadcast S2048x256 (Scalar.ofBits .f32 0x00000000#32)) (k1_pay9 x0 x2 x3) := by
  unfold out1_A_5
  rw [View.read_writes_eq_canon _ _ _ (cover1_A_5 c i a2 h2 a3 h3 a4 h4 a5 h5 a6 h6 a7 h7 a8 h8 a9 h9 hc x0 x1 x2 x3 x4)]
  unfold kernelRun1_A
  dsimp only
  sl_unfold_words
  rw [View.canon_cons_unit_zero (S := S2048x256) hz, View.readCov_unit_zero (S := S2048x256) _ hz]
  unfold k1_pay1 k1_pay13
  simp only [View.readAt_eq_ld, h2.read_unread, h3.read_unread, h4.read_unread, h5.read_unread, h6.read_unread, h7.read_unread, h8.read_unread, h9.read_unread, View.ld_unit_zero (S := S2048x256) hz, View.ld_unit_zero (S := S256x2048) hz, View.ld_unit_zero (S := S512x2048) hz, View.ld_unit_zero (S := S512x256) hz, shapeCast_self]

/-- At a point with j = 0 the body zeroes accumulator 2, reads the zero back, and leaves zero plus the point's partial sum. -/
theorem out_A_6 (c : Dev nD) (i : grid1.Coords) (a2 : Memref sig .tc .vmem S512x2048 .bf16) (h2 : a2.IsWhole) (a3 : Memref sig .tc .vmem S512x2048 .bf16) (h3 : a3.IsWhole) (a4 : Memref sig .tc .vmem S512x256 .bf16) (h4 : a4.IsWhole) (a5 : Memref sig .tc .vmem S512x256 .bf16) (h5 : a5.IsWhole) (a6 : Memref sig .tc .vmem S2048x256 .bf16) (h6 : a6.IsWhole) (a7 : Memref sig .tc .vmem S2048x256 .f32) (h7 : a7.IsWhole) (a8 : Memref sig .tc .vmem S256x2048 .f32) (h8 : a8.IsWhole) (a9 : Memref sig .tc .vmem S256x2048 .f32) (h9 : a9.IsWhole) (hc : cond1_0 i) (x0 x1 : Vec F S512x2048 .bf16) (x2 x3 : Vec F S512x256 .bf16) (x4 : Vec F S2048x256 .bf16) :
    out1_A_6 c i a2 h2 a3 h3 a4 h4 a5 h5 a6 h6 a7 h7 a8 h8 a9 h9 hc x0 x1 x2 x3 x4 = addf (broadcast S256x2048 (Scalar.ofBits .f32 0x00000000#32)) (k1_pay11 x0 x1 x2 x3 x4) := by
  unfold out1_A_6
  rw [View.read_writes_eq_canon _ _ _ (cover1_A_6 c i a2 h2 a3 h3 a4 h4 a5 h5 a6 h6 a7 h7 a8 h8 a9 h9 hc x0 x1 x2 x3 x4)]
  unfold kernelRun1_A
  dsimp only
  sl_unfold_words
  rw [View.canon_cons_unit_zero (S := S256x2048) hz, View.readCov_unit_zero (S := S256x2048) _ hz]
  unfold k1_pay2 k1_pay14
  simp only [View.readAt_eq_ld, h2.read_unread, h3.read_unread, h4.read_unread, h5.read_unread, h6.read_unread, h7.read_unread, h8.read_unread, h9.read_unread, View.ld_unit_zero (S := S2048x256) hz, View.ld_unit_zero (S := S256x2048) hz, View.ld_unit_zero (S := S512x2048) hz, View.ld_unit_zero (S := S512x256) hz, shapeCast_self]

/-- At a point with j = 0 the body zeroes accumulator 3, reads the zero back, and leaves zero plus the point's partial sum. -/
theorem out_A_7 (c : Dev nD) (i : grid1.Coords) (a2 : Memref sig .tc .vmem S512x2048 .bf16) (h2 : a2.IsWhole) (a3 : Memref sig .tc .vmem S512x2048 .bf16) (h3 : a3.IsWhole) (a4 : Memref sig .tc .vmem S512x256 .bf16) (h4 : a4.IsWhole) (a5 : Memref sig .tc .vmem S512x256 .bf16) (h5 : a5.IsWhole) (a6 : Memref sig .tc .vmem S2048x256 .bf16) (h6 : a6.IsWhole) (a7 : Memref sig .tc .vmem S2048x256 .f32) (h7 : a7.IsWhole) (a8 : Memref sig .tc .vmem S256x2048 .f32) (h8 : a8.IsWhole) (a9 : Memref sig .tc .vmem S256x2048 .f32) (h9 : a9.IsWhole) (hc : cond1_0 i) (x0 x1 : Vec F S512x2048 .bf16) (x2 x3 : Vec F S512x256 .bf16) (x4 : Vec F S2048x256 .bf16) :
    out1_A_7 c i a2 h2 a3 h3 a4 h4 a5 h5 a6 h6 a7 h7 a8 h8 a9 h9 hc x0 x1 x2 x3 x4 = addf (broadcast S256x2048 (Scalar.ofBits .f32 0x00000000#32)) (k1_pay12 x0 x1 x2 x4) := by
  unfold out1_A_7
  rw [View.read_writes_eq_canon _ _ _ (cover1_A_7 c i a2 h2 a3 h3 a4 h4 a5 h5 a6 h6 a7 h7 a8 h8 a9 h9 hc x0 x1 x2 x3 x4)]
  unfold kernelRun1_A
  dsimp only
  sl_unfold_words
  rw [View.canon_cons_unit_zero (S := S256x2048) hz, View.readCov_unit_zero (S := S256x2048) _ hz]
  unfold k1_pay3 k1_pay15
  simp only [View.readAt_eq_ld, h2.read_unread, h3.read_unread, h4.read_unread, h5.read_unread, h6.read_unread, h7.read_unread, h8.read_unread, h9.read_unread, View.ld_unit_zero (S := S2048x256) hz, View.ld_unit_zero (S := S256x2048) hz, View.ld_unit_zero (S := S512x2048) hz, View.ld_unit_zero (S := S512x256) hz, shapeCast_self]

/-! ## The three matrix products of the body, entry by entry -/

/-- In the product of a 2048 × 512 by a 512 × 256 matrix, the left operand's row is the output's row. -/
theorem dot_S2048x512_S512x256_S2048x256_1_0_0_1_n_n_l0 (i : _) (q : dot_S2048x512_S512x256_S2048x256_1_0_0_1_n_n.contr.Idx) : (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
/-- In the product of a 2048 × 512 by a 512 × 256 matrix, the left operand's column is the contracted coordinate. -/
theorem dot_S2048x512_S512x256_S2048x256_1_0_0_1_n_n_l1 (i : _) (q : dot_S2048x512_S512x256_S2048x256_1_0_0_1_n_n.contr.Idx) : (dot_S2048x512_S512x256_S2048x256_1_0_0_1_n_n.lhsIdx i q 1).val = (q ⟨0, by decide⟩).val :=
  dot_S2048x512_S512x256_S2048x256_1_0_0_1_n_n.lhsIdx_val_of_single rfl i q
/-- In the product of a 2048 × 512 by a 512 × 256 matrix, the right operand's row is the contracted coordinate. -/
theorem dot_S2048x512_S512x256_S2048x256_1_0_0_1_n_n_r0 (i : _) (q : dot_S2048x512_S512x256_S2048x256_1_0_0_1_n_n.contr.Idx) : (dot_S2048x512_S512x256_S2048x256_1_0_0_1_n_n.rhsIdx i q 0).val = (q ⟨0, by decide⟩).val :=
  dot_S2048x512_S512x256_S2048x256_1_0_0_1_n_n.rhsIdx_val_of_single rfl i q
/-- In the product of a 2048 × 512 by a 512 × 256 matrix, the right operand's column is the output's column. -/
theorem dot_S2048x512_S512x256_S2048x256_1_0_0_1_n_n_r1 (i : _) (q : dot_S2048x512_S512x256_S2048x256_1_0_0_1_n_n.contr.Idx) : (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- In the product of a 512 × 2048 by a 2048 × 256 matrix, the left operand's row is the output's row. -/
theorem dot_S512x2048_S2048x256_S512x256_1_0_0_1_n_n_l0 (i : _) (q : dot_S512x2048_S2048x256_S512x256_1_0_0_1_n_n.contr.Idx) : (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
/-- In the product of a 512 × 2048 by a 2048 × 256 matrix, the left operand's column is the contracted coordinate. -/
theorem dot_S512x2048_S2048x256_S512x256_1_0_0_1_n_n_l1 (i : _) (q : dot_S512x2048_S2048x256_S512x256_1_0_0_1_n_n.contr.Idx) : (dot_S512x2048_S2048x256_S512x256_1_0_0_1_n_n.lhsIdx i q 1).val = (q ⟨0, by decide⟩).val :=
  dot_S512x2048_S2048x256_S512x256_1_0_0_1_n_n.lhsIdx_val_of_single rfl i q
/-- In the product of a 512 × 2048 by a 2048 × 256 matrix, the right operand's row is the contracted coordinate. -/
theorem dot_S512x2048_S2048x256_S512x256_1_0_0_1_n_n_r0 (i : _) (q : dot_S512x2048_S2048x256_S512x256_1_0_0_1_n_n.contr.Idx) : (dot_S512x2048_S2048x256_S512x256_1_0_0_1_n_n.rhsIdx i q 0).val = (q ⟨0, by decide⟩).val :=
  dot_S512x2048_S2048x256_S512x256_1_0_0_1_n_n.rhsIdx_val_of_single rfl i q
/-- In the product of a 512 × 2048 by a 2048 × 256 matrix, the right operand's column is the output's column. -/
theorem dot_S512x2048_S2048x256_S512x256_1_0_0_1_n_n_r1 (i : _) (q : dot_S512x2048_S2048x256_S512x256_1_0_0_1_n_n.contr.Idx) : (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- In the product of a 256 × 512 by a 512 × 2048 matrix, the left operand's row is the output's row. -/
theorem dot_S256x512_S512x2048_S256x2048_1_0_0_1_n_n_l0 (i : _) (q : dot_S256x512_S512x2048_S256x2048_1_0_0_1_n_n.contr.Idx) : (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
/-- In the product of a 256 × 512 by a 512 × 2048 matrix, the left operand's column is the contracted coordinate. -/
theorem dot_S256x512_S512x2048_S256x2048_1_0_0_1_n_n_l1 (i : _) (q : dot_S256x512_S512x2048_S256x2048_1_0_0_1_n_n.contr.Idx) : (dot_S256x512_S512x2048_S256x2048_1_0_0_1_n_n.lhsIdx i q 1).val = (q ⟨0, by decide⟩).val :=
  dot_S256x512_S512x2048_S256x2048_1_0_0_1_n_n.lhsIdx_val_of_single rfl i q
/-- In the product of a 256 × 512 by a 512 × 2048 matrix, the right operand's row is the contracted coordinate. -/
theorem dot_S256x512_S512x2048_S256x2048_1_0_0_1_n_n_r0 (i : _) (q : dot_S256x512_S512x2048_S256x2048_1_0_0_1_n_n.contr.Idx) : (dot_S256x512_S512x2048_S256x2048_1_0_0_1_n_n.rhsIdx i q 0).val = (q ⟨0, by decide⟩).val :=
  dot_S256x512_S512x2048_S256x2048_1_0_0_1_n_n.rhsIdx_val_of_single rfl i q
/-- In the product of a 256 × 512 by a 512 × 2048 matrix, the right operand's column is the output's column. -/
theorem dot_S256x512_S512x2048_S256x2048_1_0_0_1_n_n_r1 (i : _) (q : dot_S256x512_S512x2048_S256x2048_1_0_0_1_n_n.contr.Idx) : (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

open Idealize.ShloMosaic.ValueIdx

/-! ## The body's arithmetic at the extended reals, entry by entry -/

/-- Recasting a 512 × 2048 block to its own shape changes nothing. -/
theorem pay4_eq (x : Vec Ideal S512x2048 .bf16) : k1_pay4 x = x := by unfold k1_pay4; exact shapeCast_self _ _
/-- Recasting the activation block to its own shape changes nothing. -/
theorem pay5_eq (x : Vec Ideal S512x2048 .bf16) : k1_pay5 x = x := by unfold k1_pay5; exact shapeCast_self _ _
/-- Widening the stored gate pre-activation is the identity at the extended reals. -/
theorem pay6_apply (x : Vec Ideal S512x256 .bf16) (j : S512x256.Idx) : k1_pay6 x j = x j := by
  unfold k1_pay6; simp only [shapeCast_self]; rfl
/-- Widening the stored up pre-activation is the identity at the extended reals. -/
theorem pay7_apply (x : Vec Ideal S512x256 .bf16) (j : S512x256.Idx) : k1_pay7 x j = x j := by
  unfold k1_pay7; simp only [shapeCast_self]; rfl
/-- The gate pre-activation times its logistic value: z · σ(z). -/
theorem pay8_apply (x : Vec Ideal S512x256 .bf16) (j : S512x256.Idx) : k1_pay8 x j = Cert.Mlp.silu (x j) := by
  unfold k1_pay8
  show k1_pay6 x j * Ideal.logistic (k1_pay6 x j) = _
  rw [pay6_apply]; rfl

/-- The error block against the down projection's block: the pulled-back error at (r, h). -/
theorem pay10_apply (x0 : Vec Ideal S512x2048 .bf16) (x4 : Vec Ideal S2048x256 .bf16) (r : Fin 512) (h : Fin 256) :
    k1_pay10 x0 x4 (ix2 r h) = ∑ d : Fin 2048, x0 (ix2 r d) * x4 (ix2 d h) := by
  unfold k1_pay10
  simp only [shapeCast_self, pay4_eq]
  exact MatmulRows.matmul_zero_apply dot_S512x2048_S2048x256_S512x256_1_0_0_1_n_n none rfl rfl dot_S512x2048_S2048x256_S512x256_1_0_0_1_n_n_l0 dot_S512x2048_S2048x256_S512x256_1_0_0_1_n_n_l1 dot_S512x2048_S2048x256_S512x256_1_0_0_1_n_n_r0 dot_S512x2048_S2048x256_S512x256_1_0_0_1_n_n_r1 x0 x4 r h

/-- The tile's partial sum for the down projection's gradient at (d, h): over the tile's 512 rows. -/
theorem pay9_apply (x0 : Vec Ideal S512x2048 .bf16) (x2 x3 : Vec Ideal S512x256 .bf16) (d : Fin 2048) (h : Fin 256) :
    k1_pay9 x0 x2 x3 (ix2 d h) = ∑ r : Fin 512, x0 (ix2 r d) * (Cert.Mlp.silu (x2 (ix2 r h)) * x3 (ix2 r h)) := by
  unfold k1_pay9
  refine (MatmulRows.matmul_zero_apply dot_S2048x512_S512x256_S2048x256_1_0_0_1_n_n none rfl rfl dot_S2048x512_S512x256_S2048x256_1_0_0_1_n_n_l0 dot_S2048x512_S512x256_S2048x256_1_0_0_1_n_n_l1 dot_S2048x512_S512x256_S2048x256_1_0_0_1_n_n_r0 dot_S2048x512_S512x256_S2048x256_1_0_0_1_n_n_r1 _ _ d h).trans ?_
  refine Finset.sum_congr rfl fun r _ => ?_
  rw [transpose_apply [1, 0] (k1_pay4 x0) transposes_S512x2048_p1_0_S2048x512 (ix2 d r) (ix2 r d) (fun b => by
    match b with
    | ⟨0, _⟩ => rfl
    | ⟨1, _⟩ => rfl), pay4_eq]
  show _ * (k1_pay8 x2 (ix2 r h) * k1_pay7 x3 (ix2 r h)) = _
  rw [pay8_apply, pay7_apply]

/-- The tile's partial sum for the up projection's gradient at (h, d): over the tile's 512 rows, the pulled-back error times z · σ(z), times the activation. -/
theorem pay12_apply (x0 x1 : Vec Ideal S512x2048 .bf16) (x2 : Vec Ideal S512x256 .bf16) (x4 : Vec Ideal S2048x256 .bf16) (h : Fin 256) (d : Fin 2048) :
    k1_pay12 x0 x1 x2 x4 (ix2 h d) = ∑ r : Fin 512, ((∑ e : Fin 2048, x0 (ix2 r e) * x4 (ix2 e h)) * Cert.Mlp.silu (x2 (ix2 r h))) * x1 (ix2 r d) := by
  unfold k1_pay12
  refine (MatmulRows.matmul_zero_apply dot_S256x512_S512x2048_S256x2048_1_0_0_1_n_n none rfl rfl dot_S256x512_S512x2048_S256x2048_1_0_0_1_n_n_l0 dot_S256x512_S512x2048_S256x2048_1_0_0_1_n_n_l1 dot_S256x512_S512x2048_S256x2048_1_0_0_1_n_n_r0 dot_S256x512_S512x2048_S256x2048_1_0_0_1_n_n_r1 _ _ h d).trans ?_
  refine Finset.sum_congr rfl fun r _ => ?_
  rw [transpose_apply [1, 0] _ transposes_S512x256_p1_0_S256x512 (ix2 h r) (ix2 r h) (fun b => by
    match b with
    | ⟨0, _⟩ => rfl
    | ⟨1, _⟩ => rfl), pay5_eq]
  show (k1_pay10 x0 x4 (ix2 r h) * k1_pay8 x2 (ix2 r h)) * _ = _
  rw [pay10_apply, pay8_apply]

/-- The tile's partial sum for the gate projection's gradient at (h, d): over the tile's 512 rows, ((dh · u) · σ(g)) · (1 + g · (1 − σ(g))), times the activation. -/
theorem pay11_apply (x0 x1 : Vec Ideal S512x2048 .bf16) (x2 x3 : Vec Ideal S512x256 .bf16) (x4 : Vec Ideal S2048x256 .bf16) (h : Fin 256) (d : Fin 2048) :
    k1_pay11 x0 x1 x2 x3 x4 (ix2 h d) = ∑ r : Fin 512,
      ((((∑ e : Fin 2048, x0 (ix2 r e) * x4 (ix2 e h)) * x3 (ix2 r h)) * Cert.Mlp.sig (x2 (ix2 r h)))
        * (Cert.Mlp.one + x2 (ix2 r h) * (Cert.Mlp.one - Cert.Mlp.sig (x2 (ix2 r h))))) * x1 (ix2 r d) := by
  unfold k1_pay11
  refine (MatmulRows.matmul_zero_apply dot_S256x512_S512x2048_S256x2048_1_0_0_1_n_n none rfl rfl dot_S256x512_S512x2048_S256x2048_1_0_0_1_n_n_l0 dot_S256x512_S512x2048_S256x2048_1_0_0_1_n_n_l1 dot_S256x512_S512x2048_S256x2048_1_0_0_1_n_n_r0 dot_S256x512_S512x2048_S256x2048_1_0_0_1_n_n_r1 _ _ h d).trans ?_
  refine Finset.sum_congr rfl fun r _ => ?_
  rw [transpose_apply [1, 0] _ transposes_S512x256_p1_0_S256x512 (ix2 h r) (ix2 r h) (fun b => by
    match b with
    | ⟨0, _⟩ => rfl
    | ⟨1, _⟩ => rfl), pay5_eq]
  show (((k1_pay10 x0 x4 (ix2 r h) * k1_pay7 x3 (ix2 r h)) * Ideal.logistic (k1_pay6 x2 (ix2 r h)))
      * (Ideal.ofBits .f32 0x3F800000#32 + k1_pay6 x2 (ix2 r h) * (Ideal.ofBits .f32 0x3F800000#32 - Ideal.logistic (k1_pay6 x2 (ix2 r h))))) * _ = _
  rw [pay10_apply, pay7_apply, pay6_apply]
  rfl

/-! ## The region's input arrays by coordinates, and the blocks the windows show -/

variable (V : (c : Dev nD) → (b : Ref sig .tc) → Buf (Elt Ideal) ((c : Thread nD τ).loc b))

/-- The error signal: row r, model coordinate d. -/
def eA (c : Dev nD) (r : Fin 8192) (d : Fin 2048) : EReal := V c main_v27 (ix2 r d)
/-- The activations: row r, model coordinate d. -/
def xpA (c : Dev nD) (r : Fin 8192) (d : Fin 2048) : EReal := V c main_v1 (ix2 r d)
/-- The stored gate pre-activation: row r, hidden coordinate h. -/
def gpA (c : Dev nD) (r : Fin 8192) (h : Fin 8192) : EReal := V c main_v5_1 (ix2 r h)
/-- The stored up pre-activation: row r, hidden coordinate h. -/
def upA (c : Dev nD) (r : Fin 8192) (h : Fin 8192) : EReal := V c main_v5_2 (ix2 r h)
/-- The down projection's weight: model row d, hidden column h. -/
def wdA (c : Dev nD) (d : Fin 2048) (h : Fin 8192) : EReal := V c main_v4 (ix2 d h)

/-- Row p of row tile j. -/
def rowOf (j : ℕ) (p : Fin 512) : Fin 8192 := ⟨(512 * j + p.val) % 8192, Nat.mod_lt _ (by decide)⟩
/-- Hidden coordinate k of hidden tile i. -/
def colOf (i : ℕ) (k : Fin 256) : Fin 8192 := ⟨(256 * i + k.val) % 8192, Nat.mod_lt _ (by decide)⟩

/-- The printed index maps over the grid: point t is hidden tile t / 16 and row tile t % 16. -/
theorem idx_facts1 : ∀ t : Fin cfg1.N,
    win1_0.index t (0 : Fin 2) = t.val % 16 ∧ win1_0.index t (1 : Fin 2) = 0
    ∧ win1_1.index t (0 : Fin 2) = t.val % 16 ∧ win1_1.index t (1 : Fin 2) = 0
    ∧ win1_2.index t (0 : Fin 2) = t.val % 16 ∧ win1_2.index t (1 : Fin 2) = t.val / 16
    ∧ win1_3.index t (0 : Fin 2) = t.val % 16 ∧ win1_3.index t (1 : Fin 2) = t.val / 16
    ∧ win1_4.index t (0 : Fin 2) = 0 ∧ win1_4.index t (1 : Fin 2) = t.val / 16
    ∧ win1_5.index t (0 : Fin 2) = 0 ∧ win1_5.index t (1 : Fin 2) = t.val / 16
    ∧ win1_6.index t (0 : Fin 2) = t.val / 16 ∧ win1_6.index t (1 : Fin 2) = 0
    ∧ win1_7.index t (0 : Fin 2) = t.val / 16 ∧ win1_7.index t (1 : Fin 2) = 0 :=
  (by decide +kernel : ∀ t : Fin grid1.N, _)

/-- The error block at point t holds rows 512 · (t mod 16) … of the error signal. -/
theorem iblk_e (c : Dev nD) (t : Fin cfg1.N) (p : Fin 512) (e : Fin 2048) :
    (iblk1 V c 0 t : Vec Ideal S512x2048 .bf16) (ix2 p e) = eA V c (rowOf (t.val % 16) p) e := by
  obtain ⟨h0, h1, -⟩ := idx_facts1 t
  unfold iblk1 eA
  rw [View.read_apply]
  show V c main_v27 _ = V c main_v27 _
  congr 1
  funext a
  apply Fin.ext
  match a with
  | ⟨0, _⟩ => show win1_0.index t (0 : Fin 2) * 512 + 1 * p.val = (512 * (t.val % 16) + p.val) % 8192; rw [h0]; have := p.isLt; omega
  | ⟨1, _⟩ => show win1_0.index t (1 : Fin 2) * 2048 + 1 * e.val = e.val; rw [h1]; omega

/-- The activation block at point t holds rows 512 · (t mod 16) … of the activations. -/
theorem iblk_xp (c : Dev nD) (t : Fin cfg1.N) (p : Fin 512) (e : Fin 2048) :
    (iblk1 V c 1 t : Vec Ideal S512x2048 .bf16) (ix2 p e) = xpA V c (rowOf (t.val % 16) p) e := by
  obtain ⟨-, -, h0, h1, -⟩ := idx_facts1 t
  unfold iblk1 xpA
  rw [View.read_apply]
  show V c main_v1 _ = V c main_v1 _
  congr 1
  funext a
  apply Fin.ext
  match a with
  | ⟨0, _⟩ => show win1_1.index t (0 : Fin 2) * 512 + 1 * p.val = (512 * (t.val % 16) + p.val) % 8192; rw [h0]; have := p.isLt; omega
  | ⟨1, _⟩ => show win1_1.index t (1 : Fin 2) * 2048 + 1 * e.val = e.val; rw [h1]; omega

/-- The gate pre-activation block at point t holds rows 512 · (t mod 16) … and hidden coordinates 256 · (t / 16) …. -/
theorem iblk_gp (c : Dev nD) (t : Fin cfg1.N) (p : Fin 512) (k : Fin 256) :
    (iblk1 V c 2 t : Vec Ideal S512x256 .bf16) (ix2 p k) = gpA V c (rowOf (t.val % 16) p) (colOf (t.val / 16) k) := by
  obtain ⟨-, -, -, -, h0, h1, -⟩ := idx_facts1 t
  have hN : cfg1.N = 512 := N_1
  have ht := t.isLt
  unfold iblk1 gpA
  rw [View.read_apply]
  show V c main_v5_1 _ = V c main_v5_1 _
  congr 1
  funext a
  apply Fin.ext
  match a with
  | ⟨0, _⟩ => show win1_2.index t (0 : Fin 2) * 512 + 1 * p.val = (512 * (t.val % 16) + p.val) % 8192; rw [h0]; have := p.isLt; omega
  | ⟨1, _⟩ => show win1_2.index t (1 : Fin 2) * 256 + 1 * k.val = (256 * (t.val / 16) + k.val) % 8192; rw [h1]; have := k.isLt; omega

/-- The up pre-activation block at point t holds rows 512 · (t mod 16) … and hidden coordinates 256 · (t / 16) …. -/
theorem iblk_up (c : Dev nD) (t : Fin cfg1.N) (p : Fin 512) (k : Fin 256) :
    (iblk1 V c 3 t : Vec Ideal S512x256 .bf16) (ix2 p k) = upA V c (rowOf (t.val % 16) p) (colOf (t.val / 16) k) := by
  obtain ⟨-, -, -, -, -, -, h0, h1, -⟩ := idx_facts1 t
  have hN : cfg1.N = 512 := N_1
  have ht := t.isLt
  unfold iblk1 upA
  rw [View.read_apply]
  show V c main_v5_2 _ = V c main_v5_2 _
  congr 1
  funext a
  apply Fin.ext
  match a with
  | ⟨0, _⟩ => show win1_3.index t (0 : Fin 2) * 512 + 1 * p.val = (512 * (t.val % 16) + p.val) % 8192; rw [h0]; have := p.isLt; omega
  | ⟨1, _⟩ => show win1_3.index t (1 : Fin 2) * 256 + 1 * k.val = (256 * (t.val / 16) + k.val) % 8192; rw [h1]; have := k.isLt; omega

/-- The down projection's block at point t holds all 2048 rows and hidden columns 256 · (t / 16) …. -/
theorem iblk_wd (c : Dev nD) (t : Fin cfg1.N) (q : Fin 2048) (k : Fin 256) :
    (iblk1 V c 4 t : Vec Ideal S2048x256 .bf16) (ix2 q k) = wdA V c q (colOf (t.val / 16) k) := by
  obtain ⟨-, -, -, -, -, -, -, -, h0, h1, -⟩ := idx_facts1 t
  have hN : cfg1.N = 512 := N_1
  have ht := t.isLt
  unfold iblk1 wdA
  rw [View.read_apply]
  show V c main_v4 _ = V c main_v4 _
  congr 1
  funext a
  apply Fin.ext
  match a with
  | ⟨0, _⟩ => show win1_4.index t (0 : Fin 2) * 2048 + 1 * q.val = q.val; rw [h0]; omega
  | ⟨1, _⟩ => show win1_4.index t (1 : Fin 2) * 256 + 1 * k.val = (256 * (t.val / 16) + k.val) % 8192; rw [h1]; have := k.isLt; omega

/-! ## One grid point: the row tile's contribution to each accumulator -/

/-- Row tile j's contribution to the down projection's gradient at (d, h). -/
def term5 (c : Dev nD) (d : Fin 2048) (h : Fin 8192) (j : ℕ) : EReal :=
  ∑ p : Fin 512, eA V c (rowOf j p) d * Cert.Mlp.hidB (gpA V c) (upA V c) (rowOf j p) h
/-- Row tile j's contribution to the gate projection's gradient at (h, d). -/
def term6 (c : Dev nD) (h : Fin 8192) (d : Fin 2048) (j : ℕ) : EReal :=
  ∑ p : Fin 512, Cert.Mlp.dGate (eA V c) (gpA V c) (upA V c) (wdA V c) (rowOf j p) h * xpA V c (rowOf j p) d
/-- Row tile j's contribution to the up projection's gradient at (h, d). -/
def term7 (c : Dev nD) (h : Fin 8192) (d : Fin 2048) (j : ℕ) : EReal :=
  ∑ p : Fin 512, Cert.Mlp.dUp (eA V c) (gpA V c) (wdA V c) (rowOf j p) h * xpA V c (rowOf j p) d

/-- A sum of products of entries of two blocks, each entry known. -/
theorem sum_blocks_eq (A : Vec Ideal S512x2048 .bf16) (W : Vec Ideal S2048x256 .bf16) (f g : Fin 2048 → EReal) (p : Fin 512) (k : Fin 256)
    (hA : ∀ e, A (ix2 p e) = f e) (hW : ∀ e, W (ix2 e k) = g e) :
    (∑ e : Fin 2048, A (ix2 p e) * W (ix2 e k)) = ∑ e : Fin 2048, f e * g e :=
  Finset.sum_congr rfl fun e _ => by rw [hA e, hW e]

/-- At point t the first partial sum, at (d, k), is row tile t mod 16's contribution at (d, 256 · (t / 16) + k). -/
theorem step5 (c : Dev nD) (t : Fin cfg1.N) (d : Fin 2048) (k : Fin 256) :
    k1_pay9 (F := Ideal) (iblk1 V c 0 t) (iblk1 V c 2 t) (iblk1 V c 3 t) (ix2 d k)
      = term5 V c d (colOf (t.val / 16) k) (t.val % 16) := by
  refine (pay9_apply (iblk1 V c 0 t) (iblk1 V c 2 t) (iblk1 V c 3 t) d k).trans ?_
  refine Finset.sum_congr rfl fun p _ => ?_
  rw [iblk_e V c t p d, iblk_gp V c t p k, iblk_up V c t p k]
  rfl

/-- At point t the second partial sum, at (k, d), is row tile t mod 16's contribution at (256 · (t / 16) + k, d). -/
theorem step6 (c : Dev nD) (t : Fin cfg1.N) (k : Fin 256) (d : Fin 2048) :
    k1_pay11 (F := Ideal) (iblk1 V c 0 t) (iblk1 V c 1 t) (iblk1 V c 2 t) (iblk1 V c 3 t) (iblk1 V c 4 t) (ix2 k d)
      = term6 V c (colOf (t.val / 16) k) d (t.val % 16) := by
  refine (pay11_apply (iblk1 V c 0 t) (iblk1 V c 1 t) (iblk1 V c 2 t) (iblk1 V c 3 t) (iblk1 V c 4 t) k d).trans ?_
  refine Finset.sum_congr rfl fun p _ => ?_
  rw [sum_blocks_eq (iblk1 V c 0 t) (iblk1 V c 4 t) _ _ p k (fun e => iblk_e V c t p e) (fun e => iblk_wd V c t e k), iblk_gp V c t p k, iblk_up V c t p k, iblk_xp V c t p d]
  rfl

/-- At point t the third partial sum, at (k, d), is row tile t mod 16's contribution at (256 · (t / 16) + k, d). -/
theorem step7 (c : Dev nD) (t : Fin cfg1.N) (k : Fin 256) (d : Fin 2048) :
    k1_pay12 (F := Ideal) (iblk1 V c 0 t) (iblk1 V c 1 t) (iblk1 V c 2 t) (iblk1 V c 4 t) (ix2 k d)
      = term7 V c (colOf (t.val / 16) k) d (t.val % 16) := by
  refine (pay12_apply (iblk1 V c 0 t) (iblk1 V c 1 t) (iblk1 V c 2 t) (iblk1 V c 4 t) k d).trans ?_
  refine Finset.sum_congr rfl fun p _ => ?_
  rw [sum_blocks_eq (iblk1 V c 0 t) (iblk1 V c 4 t) _ _ p k (fun e => iblk_e V c t p e) (fun e => iblk_wd V c t e k), iblk_gp V c t p k, iblk_xp V c t p d]
  rfl

/-! ## The accumulation over the sixteen row tiles -/

/-- THE RUNNING SUM of accumulator 1. After point n it holds, at each entry, the sum started from zero of the
    contributions of row tiles 0 … n mod 16 of hidden tile n / 16. -/
theorem acc_value5 (c : Dev nD) : ∀ (n : ℕ) (hn : n < cfg1.N) (d : Fin 2048) (k : Fin 256),
    (outsAt1 V c n hn).1 (ix2 d k) = Cert.Mlp.foldAcc (term5 V c d (colOf (n / 16) k)) (n % 16)
  | 0, hn, d, k => by
    rw [outsAt1_A V c ⟨0, hn⟩ rfl]
    dsimp only
    rw [out_A_5]
    show Ideal.ofBits .f32 0x00000000#32 + _ = _
    rw [Ideal.ofBits_zero_f32, step5 V c ⟨0, hn⟩ d k]
    rfl
  | n + 1, hn, d, k => by
    by_cases h0 : (n + 1) % 16 = 0
    · rw [outsAt1_A V c ⟨n + 1, hn⟩ h0]
      dsimp only
      rw [out_A_5]
      show Ideal.ofBits .f32 0x00000000#32 + _ = _
      rw [Ideal.ofBits_zero_f32, step5 V c ⟨n + 1, hn⟩ d k]
      show 0 + term5 V c d (colOf ((n + 1) / 16) k) ((n + 1) % 16) = Cert.Mlp.foldAcc _ ((n + 1) % 16)
      rw [h0]
      rfl
    · rw [outsAt1_B V c ⟨n + 1, hn⟩ h0]
      dsimp only
      rw [out_B_5]
      show (outsAt1 V c n _).1 (ix2 d k) + _ = _
      rw [acc_value5 c n (Nat.lt_of_succ_lt hn) d k, step5 V c ⟨n + 1, hn⟩ d k]
      show Cert.Mlp.foldAcc _ (n % 16) + term5 V c d (colOf ((n + 1) / 16) k) ((n + 1) % 16) = Cert.Mlp.foldAcc _ ((n + 1) % 16)
      have hd : n / 16 = (n + 1) / 16 := by omega
      obtain ⟨m, hm⟩ : ∃ m, (n + 1) % 16 = m + 1 := ⟨(n + 1) % 16 - 1, by omega⟩
      have hm' : n % 16 = m := by omega
      rw [hm, hm', hd]
      rfl

/-- THE RUNNING SUM of accumulator 2. After point n it holds, at each entry, the sum started from zero of the
    contributions of row tiles 0 … n mod 16 of hidden tile n / 16. -/
theorem acc_value6 (c : Dev nD) : ∀ (n : ℕ) (hn : n < cfg1.N) (k : Fin 256) (d : Fin 2048),
    (outsAt1 V c n hn).2.1 (ix2 k d) = Cert.Mlp.foldAcc (term6 V c (colOf (n / 16) k) d) (n % 16)
  | 0, hn, k, d => by
    rw [outsAt1_A V c ⟨0, hn⟩ rfl]
    dsimp only
    rw [out_A_6]
    show Ideal.ofBits .f32 0x00000000#32 + _ = _
    rw [Ideal.ofBits_zero_f32, step6 V c ⟨0, hn⟩ k d]
    rfl
  | n + 1, hn, k, d => by
    by_cases h0 : (n + 1) % 16 = 0
    · rw [outsAt1_A V c ⟨n + 1, hn⟩ h0]
      dsimp only
      rw [out_A_6]
      show Ideal.ofBits .f32 0x00000000#32 + _ = _
      rw [Ideal.ofBits_zero_f32, step6 V c ⟨n + 1, hn⟩ k d]
      show 0 + term6 V c (colOf ((n + 1) / 16) k) d ((n + 1) % 16) = Cert.Mlp.foldAcc _ ((n + 1) % 16)
      rw [h0]
      rfl
    · rw [outsAt1_B V c ⟨n + 1, hn⟩ h0]
      dsimp only
      rw [out_B_6]
      show (outsAt1 V c n _).2.1 (ix2 k d) + _ = _
      rw [acc_value6 c n (Nat.lt_of_succ_lt hn) k d, step6 V c ⟨n + 1, hn⟩ k d]
      show Cert.Mlp.foldAcc _ (n % 16) + term6 V c (colOf ((n + 1) / 16) k) d ((n + 1) % 16) = Cert.Mlp.foldAcc _ ((n + 1) % 16)
      have hd : n / 16 = (n + 1) / 16 := by omega
      obtain ⟨m, hm⟩ : ∃ m, (n + 1) % 16 = m + 1 := ⟨(n + 1) % 16 - 1, by omega⟩
      have hm' : n % 16 = m := by omega
      rw [hm, hm', hd]
      rfl

/-- THE RUNNING SUM of accumulator 3. After point n it holds, at each entry, the sum started from zero of the
    contributions of row tiles 0 … n mod 16 of hidden tile n / 16. -/
theorem acc_value7 (c : Dev nD) : ∀ (n : ℕ) (hn : n < cfg1.N) (k : Fin 256) (d : Fin 2048),
    (outsAt1 V c n hn).2.2 (ix2 k d) = Cert.Mlp.foldAcc (term7 V c (colOf (n / 16) k) d) (n % 16)
  | 0, hn, k, d => by
    rw [outsAt1_A V c ⟨0, hn⟩ rfl]
    dsimp only
    rw [out_A_7]
    show Ideal.ofBits .f32 0x00000000#32 + _ = _
    rw [Ideal.ofBits_zero_f32, step7 V c ⟨0, hn⟩ k d]
    rfl
  | n + 1, hn, k, d => by
    by_cases h0 : (n + 1) % 16 = 0
    · rw [outsAt1_A V c ⟨n + 1, hn⟩ h0]
      dsimp only
      rw [out_A_7]
      show Ideal.ofBits .f32 0x00000000#32 + _ = _
      rw [Ideal.ofBits_zero_f32, step7 V c ⟨n + 1, hn⟩ k d]
      show 0 + term7 V c (colOf ((n + 1) / 16) k) d ((n + 1) % 16) = Cert.Mlp.foldAcc _ ((n + 1) % 16)
      rw [h0]
      rfl
    · rw [outsAt1_B V c ⟨n + 1, hn⟩ h0]
      dsimp only
      rw [out_B_7]
      show (outsAt1 V c n _).2.2 (ix2 k d) + _ = _
      rw [acc_value7 c n (Nat.lt_of_succ_lt hn) k d, step7 V c ⟨n + 1, hn⟩ k d]
      show Cert.Mlp.foldAcc _ (n % 16) + term7 V c (colOf ((n + 1) / 16) k) d ((n + 1) % 16) = Cert.Mlp.foldAcc _ ((n + 1) % 16)
      have hd : n / 16 = (n + 1) / 16 := by omega
      obtain ⟨m, hm⟩ : ∃ m, (n + 1) % 16 = m + 1 := ⟨(n + 1) % 16 - 1, by omega⟩
      have hm' : n % 16 = m := by omega
      rw [hm, hm', hd]
      rfl

/-! ## From blocks to arrays -/

/-- Row p of row tile j below 16 is row 512 · j + p. -/
theorem rowOf_fin (j : Fin 16) (p : Fin 512) :
    rowOf j.val p = ⟨512 * j.val + p.val, by have := j.isLt; have := p.isLt; omega⟩ :=
  Fin.ext (Nat.mod_eq_of_lt (by have := j.isLt; have := p.isLt; omega))

/-- The 16 row tiles' contributions add up to the whole sum over the 8192 rows. -/
theorem tiles_total5 (c : Dev nD) (d : Fin 2048) (h : Fin 8192) :
    Cert.Mlp.foldAcc (term5 V c d h) 15 = Cert.Mlp.rawDown (eA V c) (gpA V c) (upA V c) d h := by
  rw [Cert.Mlp.fold_eq_sum_fin]
  unfold Cert.Mlp.rawDown
  rw [Cert.Mlp.sum_tiles_16_512]
  refine Finset.sum_congr rfl fun j _ => ?_
  unfold term5
  refine Finset.sum_congr rfl fun p _ => ?_
  rw [rowOf_fin j p]

/-- The down projection's raw gradient as the contents of the region's first result array. -/
def G5 (c : Dev nD) : Buf (Elt Ideal) ((c : Thread nD τ).loc main_v28_0) :=
  fun (i : S2048x8192.Idx) => Cert.Mlp.rawDown (eA V c) (gpA V c) (upA V c) ⟨(i 0).val, (i 0).isLt⟩ ⟨(i 1).val, (i 1).isLt⟩

/-- What a hidden tile's last point writes back is that hidden tile's block of the whole sum. -/
theorem flushed5 (c : Dev nD) (t : Fin cfg1.N) (hf : (cfg1.win 5).flush t = true) :
    (dat1 V c).flushed 5 t = ((cfg1.win 5).blk t).view.read (Elt Ideal) (G5 V c) := by
  have h15 : t.val % 16 = 15 := (flush1_5 t).mp hf
  obtain ⟨-, -, -, -, -, -, -, -, -, -, h0, h1, -⟩ := idx_facts1 t
  have hN : cfg1.N = 512 := N_1
  have ht := t.isLt
  show (cfg1.win 5).cut (grid1.coords t) ((dat1 V c).after 5 t) = _
  rw [after1_5]
  funext j
  obtain ⟨d, k, rfl⟩ : ∃ (d : Fin 2048) (k : Fin 256), j = ix2 d k := ⟨j 0, j 1, eq_ix2 j⟩
  show (outsAt1 V c t.val t.isLt).1 (ix2 d k) = G5 V c (((cfg1.win 5).blk t).view.emb (ix2 d k))
  have hemb : ((cfg1.win 5).blk t).view.emb (ix2 d k) = (ix2 d (colOf (t.val / 16) k) : S2048x8192.Idx) :=
    funext fun a => Fin.ext (by
      match a with
      | ⟨0, _⟩ => show win1_5.index t (0 : Fin 2) * 2048 + 1 * d.val = d.val; rw [h0]; omega
      | ⟨1, _⟩ => show win1_5.index t (1 : Fin 2) * 256 + 1 * k.val = (256 * (t.val / 16) + k.val) % 8192; rw [h1]; have := k.isLt; omega)
  rw [hemb, acc_value5 V c t.val t.isLt d k, h15, tiles_total5]
  rfl

/-- Every entry of the array is in the block some hidden tile's last point writes back. -/
theorem cover5 (c : Dev nD) (i : S2048x8192.Idx) :
    ∃ t : Fin cfg1.N, (cfg1.win 5).flush t = true ∧ i ∈ ((cfg1.win 5).blk t).view.set := by
  have hN : cfg1.N = 512 := N_1
  have hi0 : (i 0).val < 2048 := (i 0).isLt
  have hi1 : (i 1).val < 8192 := (i 1).isLt
  let t : Fin cfg1.N := ⟨16 * ((i 1).val / 256) + 15, by omega⟩
  have htv : t.val = 16 * ((i 1).val / 256) + 15 := rfl
  obtain ⟨-, -, -, -, -, -, -, -, -, -, h0, h1, -⟩ := idx_facts1 t
  refine ⟨t, (flush1_5 t).mpr (by omega), ?_⟩
  show i ∈ ((View.whole main_v28_0).slice (win1_5.rect t)).set
  rw [View.set_slice_whole, Rect.mem_set_unit]
  intro a
  match a with
  | ⟨0, _⟩ => show win1_5.index t (0 : Fin 2) * 2048 ≤ (i 0).val ∧ (i 0).val < win1_5.index t (0 : Fin 2) * 2048 + 2048; rw [h0]; omega
  | ⟨1, _⟩ => show win1_5.index t (1 : Fin 2) * 256 ≤ (i 1).val ∧ (i 1).val < win1_5.index t (1 : Fin 2) * 256 + 256; rw [h1]; omega

/-- THE ARRAY after the region: the whole sum over the 8192 rows, entry by entry. -/
theorem final5 (c : Dev nD) : (dat1 V c).arrAt 5 cfg1.N = G5 V c :=
  (dat1 V c).arrAt_eq_of_cover 5 (G5 V c) (flushed5 V c) (cover5 c)

/-- The 16 row tiles' contributions add up to the whole sum over the 8192 rows. -/
theorem tiles_total6 (c : Dev nD) (h : Fin 8192) (d : Fin 2048) :
    Cert.Mlp.foldAcc (term6 V c h d) 15 = Cert.Mlp.rawGate (eA V c) (xpA V c) (gpA V c) (upA V c) (wdA V c) h d := by
  rw [Cert.Mlp.fold_eq_sum_fin]
  unfold Cert.Mlp.rawGate
  rw [Cert.Mlp.sum_tiles_16_512]
  refine Finset.sum_congr rfl fun j _ => ?_
  unfold term6
  refine Finset.sum_congr rfl fun p _ => ?_
  rw [rowOf_fin j p]

/-- The gate projection's raw gradient as the contents of the region's second result array. -/
def G6 (c : Dev nD) : Buf (Elt Ideal) ((c : Thread nD τ).loc main_v28_1) :=
  fun (i : S8192x2048.Idx) => Cert.Mlp.rawGate (eA V c) (xpA V c) (gpA V c) (upA V c) (wdA V c) ⟨(i 0).val, (i 0).isLt⟩ ⟨(i 1).val, (i 1).isLt⟩

/-- What a hidden tile's last point writes back is that hidden tile's block of the whole sum. -/
theorem flushed6 (c : Dev nD) (t : Fin cfg1.N) (hf : (cfg1.win 6).flush t = true) :
    (dat1 V c).flushed 6 t = ((cfg1.win 6).blk t).view.read (Elt Ideal) (G6 V c) := by
  have h15 : t.val % 16 = 15 := (flush1_6 t).mp hf
  obtain ⟨-, -, -, -, -, -, -, -, -, -, -, -, h0, h1, -⟩ := idx_facts1 t
  have hN : cfg1.N = 512 := N_1
  have ht := t.isLt
  show (cfg1.win 6).cut (grid1.coords t) ((dat1 V c).after 6 t) = _
  rw [after1_6]
  funext j
  obtain ⟨k, d, rfl⟩ : ∃ (k : Fin 256) (d : Fin 2048), j = ix2 k d := ⟨j 0, j 1, eq_ix2 j⟩
  show (outsAt1 V c t.val t.isLt).2.1 (ix2 k d) = G6 V c (((cfg1.win 6).blk t).view.emb (ix2 k d))
  have hemb : ((cfg1.win 6).blk t).view.emb (ix2 k d) = (ix2 (colOf (t.val / 16) k) d : S8192x2048.Idx) :=
    funext fun a => Fin.ext (by
      match a with
      | ⟨0, _⟩ => show win1_6.index t (0 : Fin 2) * 256 + 1 * k.val = (256 * (t.val / 16) + k.val) % 8192; rw [h0]; have := k.isLt; omega
      | ⟨1, _⟩ => show win1_6.index t (1 : Fin 2) * 2048 + 1 * d.val = d.val; rw [h1]; omega)
  rw [hemb, acc_value6 V c t.val t.isLt k d, h15, tiles_total6]
  rfl

/-- Every entry of the array is in the block some hidden tile's last point writes back. -/
theorem cover6 (c : Dev nD) (i : S8192x2048.Idx) :
    ∃ t : Fin cfg1.N, (cfg1.win 6).flush t = true ∧ i ∈ ((cfg1.win 6).blk t).view.set := by
  have hN : cfg1.N = 512 := N_1
  have hi0 : (i 0).val < 8192 := (i 0).isLt
  have hi1 : (i 1).val < 2048 := (i 1).isLt
  let t : Fin cfg1.N := ⟨16 * ((i 0).val / 256) + 15, by omega⟩
  have htv : t.val = 16 * ((i 0).val / 256) + 15 := rfl
  obtain ⟨-, -, -, -, -, -, -, -, -, -, -, -, h0, h1, -⟩ := idx_facts1 t
  refine ⟨t, (flush1_6 t).mpr (by omega), ?_⟩
  show i ∈ ((View.whole main_v28_1).slice (win1_6.rect t)).set
  rw [View.set_slice_whole, Rect.mem_set_unit]
  intro a
  match a with
  | ⟨0, _⟩ => show win1_6.index t (0 : Fin 2) * 256 ≤ (i 0).val ∧ (i 0).val < win1_6.index t (0 : Fin 2) * 256 + 256; rw [h0]; omega
  | ⟨1, _⟩ => show win1_6.index t (1 : Fin 2) * 2048 ≤ (i 1).val ∧ (i 1).val < win1_6.index t (1 : Fin 2) * 2048 + 2048; rw [h1]; omega

/-- THE ARRAY after the region: the whole sum over the 8192 rows, entry by entry. -/
theorem final6 (c : Dev nD) : (dat1 V c).arrAt 6 cfg1.N = G6 V c :=
  (dat1 V c).arrAt_eq_of_cover 6 (G6 V c) (flushed6 V c) (cover6 c)

/-- The 16 row tiles' contributions add up to the whole sum over the 8192 rows. -/
theorem tiles_total7 (c : Dev nD) (h : Fin 8192) (d : Fin 2048) :
    Cert.Mlp.foldAcc (term7 V c h d) 15 = Cert.Mlp.rawUp (eA V c) (xpA V c) (gpA V c) (wdA V c) h d := by
  rw [Cert.Mlp.fold_eq_sum_fin]
  unfold Cert.Mlp.rawUp
  rw [Cert.Mlp.sum_tiles_16_512]
  refine Finset.sum_congr rfl fun j _ => ?_
  unfold term7
  refine Finset.sum_congr rfl fun p _ => ?_
  rw [rowOf_fin j p]

/-- The up projection's raw gradient as the contents of the region's third result array. -/
def G7 (c : Dev nD) : Buf (Elt Ideal) ((c : Thread nD τ).loc main_v28_2) :=
  fun (i : S8192x2048.Idx) => Cert.Mlp.rawUp (eA V c) (xpA V c) (gpA V c) (wdA V c) ⟨(i 0).val, (i 0).isLt⟩ ⟨(i 1).val, (i 1).isLt⟩

/-- What a hidden tile's last point writes back is that hidden tile's block of the whole sum. -/
theorem flushed7 (c : Dev nD) (t : Fin cfg1.N) (hf : (cfg1.win 7).flush t = true) :
    (dat1 V c).flushed 7 t = ((cfg1.win 7).blk t).view.read (Elt Ideal) (G7 V c) := by
  have h15 : t.val % 16 = 15 := (flush1_7 t).mp hf
  obtain ⟨-, -, -, -, -, -, -, -, -, -, -, -, -, -, h0, h1⟩ := idx_facts1 t
  have hN : cfg1.N = 512 := N_1
  have ht := t.isLt
  show (cfg1.win 7).cut (grid1.coords t) ((dat1 V c).after 7 t) = _
  rw [after1_7]
  funext j
  obtain ⟨k, d, rfl⟩ : ∃ (k : Fin 256) (d : Fin 2048), j = ix2 k d := ⟨j 0, j 1, eq_ix2 j⟩
  show (outsAt1 V c t.val t.isLt).2.2 (ix2 k d) = G7 V c (((cfg1.win 7).blk t).view.emb (ix2 k d))
  have hemb : ((cfg1.win 7).blk t).view.emb (ix2 k d) = (ix2 (colOf (t.val / 16) k) d : S8192x2048.Idx) :=
    funext fun a => Fin.ext (by
      match a with
      | ⟨0, _⟩ => show win1_7.index t (0 : Fin 2) * 256 + 1 * k.val = (256 * (t.val / 16) + k.val) % 8192; rw [h0]; have := k.isLt; omega
      | ⟨1, _⟩ => show win1_7.index t (1 : Fin 2) * 2048 + 1 * d.val = d.val; rw [h1]; omega)
  rw [hemb, acc_value7 V c t.val t.isLt k d, h15, tiles_total7]
  rfl

/-- Every entry of the array is in the block some hidden tile's last point writes back. -/
theorem cover7 (c : Dev nD) (i : S8192x2048.Idx) :
    ∃ t : Fin cfg1.N, (cfg1.win 7).flush t = true ∧ i ∈ ((cfg1.win 7).blk t).view.set := by
  have hN : cfg1.N = 512 := N_1
  have hi0 : (i 0).val < 8192 := (i 0).isLt
  have hi1 : (i 1).val < 2048 := (i 1).isLt
  let t : Fin cfg1.N := ⟨16 * ((i 0).val / 256) + 15, by omega⟩
  have htv : t.val = 16 * ((i 0).val / 256) + 15 := rfl
  obtain ⟨-, -, -, -, -, -, -, -, -, -, -, -, -, -, h0, h1⟩ := idx_facts1 t
  refine ⟨t, (flush1_7 t).mpr (by omega), ?_⟩
  show i ∈ ((View.whole main_v28_2).slice (win1_7.rect t)).set
  rw [View.set_slice_whole, Rect.mem_set_unit]
  intro a
  match a with
  | ⟨0, _⟩ => show win1_7.index t (0 : Fin 2) * 256 ≤ (i 0).val ∧ (i 0).val < win1_7.index t (0 : Fin 2) * 256 + 256; rw [h0]; omega
  | ⟨1, _⟩ => show win1_7.index t (1 : Fin 2) * 2048 ≤ (i 1).val ∧ (i 1).val < win1_7.index t (1 : Fin 2) * 2048 + 2048; rw [h1]; omega

/-- THE ARRAY after the region: the whole sum over the 8192 rows, entry by entry. -/
theorem final7 (c : Dev nD) : (dat1 V c).arrAt 7 cfg1.N = G7 V c :=
  (dat1 V c).arrAt_eq_of_cover 7 (G7 V c) (flushed7 V c) (cover7 c)

/-! ## The same arrays named through the windows -/

/-- The error signal is the first window's array read by coordinates. -/
theorem eA_eq_mat (c : Dev nD) : eA V c = Cert.Mlp.mat (n0 := 8192) (n1 := 2048) (V c (Pipeline.arrRef spec1 0)) := rfl
/-- The activations are the second window's array read by coordinates. -/
theorem xpA_eq_mat (c : Dev nD) : xpA V c = Cert.Mlp.mat (n0 := 8192) (n1 := 2048) (V c (Pipeline.arrRef spec1 1)) := rfl
/-- The gate pre-activation is the third window's array read by coordinates. -/
theorem gpA_eq_mat (c : Dev nD) : gpA V c = Cert.Mlp.mat (n0 := 8192) (n1 := 8192) (V c (Pipeline.arrRef spec1 2)) := rfl
/-- The up pre-activation is the fourth window's array read by coordinates. -/
theorem upA_eq_mat (c : Dev nD) : upA V c = Cert.Mlp.mat (n0 := 8192) (n1 := 8192) (V c (Pipeline.arrRef spec1 3)) := rfl
/-- The down projection's weight is the fifth window's array read by coordinates. -/
theorem wdA_eq_mat (c : Dev nD) : wdA V c = Cert.Mlp.mat (n0 := 2048) (n1 := 8192) (V c (Pipeline.arrRef spec1 4)) := rfl

/-- The first result array at an index is the down projection's raw gradient at the index's two coordinates. -/
theorem final5_apply (c : Dev nD) (i : S2048x8192.Idx) :
    (dat1 V c).arrAt 5 cfg1.N i = Cert.Mlp.rawDown (eA V c) (gpA V c) (upA V c) (i 0) (i 1) :=
  congrFun (final5 V c) i
/-- The second result array at an index is the gate projection's raw gradient at the index's two coordinates. -/
theorem final6_apply (c : Dev nD) (i : S8192x2048.Idx) :
    (dat1 V c).arrAt 6 cfg1.N i = Cert.Mlp.rawGate (eA V c) (xpA V c) (gpA V c) (upA V c) (wdA V c) (i 0) (i 1) :=
  congrFun (final6 V c) i
/-- The third result array at an index is the up projection's raw gradient at the index's two coordinates. -/
theorem final7_apply (c : Dev nD) (i : S8192x2048.Idx) :
    (dat1 V c).arrAt 7 cfg1.N i = Cert.Mlp.rawUp (eA V c) (xpA V c) (gpA V c) (wdA V c) (i 0) (i 1) :=
  congrFun (final7 V c) i

end Cert.KernelIdeal.BwdValue

end
-- ==== Proof.KernelRun.lean ====
/-
  The idealized kernel program's run with its four results named. The program is two kernel regions among stretches of
  host operations; the contents of every buffer at each boundary are a fold from the launch memory, and the last
  boundary's contents are what any final state holds. Here the run is stated with each result buffer at those last
  contents, beside the four argument buffers unchanged.
-/
import proofs.«115693_j5566277616153_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each of the four
    result buffers holds the last boundary's contents and each argument buffer its launch contents. -/
theorem run_results : θ_run defs (onTc (τ := τ) (main (F := F))) ⟨m, fun _ => 0, ρ⟩ (fun r => ∀ c : Dev nD,
      r.2.mem ((c.tc : Thread nD τ).loc main_v6) = W14 m ρ c (Proc.devRef .tc main_v6)
      ∧ r.2.mem ((c.tc : Thread nD τ).loc main_v42) = W14 m ρ c (Proc.devRef .tc main_v42)
      ∧ r.2.mem ((c.tc : Thread nD τ).loc main_v50) = W14 m ρ c (Proc.devRef .tc main_v50)
      ∧ r.2.mem ((c.tc : Thread nD τ).loc main_v58) = W14 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v6 (by decide)),
       h c _ (mem_uc main_v42 (by decide)),
       h c _ (mem_uc main_v50 (by decide)),
       h c _ (mem_uc main_v58 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩)

end Cert.KernelIdeal.RunValue

end
-- ==== Proof.Claims.lean ====
/-
  The two programs' results agree. The second region leaves the three raw gradient sums over all 8192 rows, of the error
  signal that is zero on the rows with no next position; such rows contribute nothing, so each sum equals the reference's
  sum over its 8188 rows. The divide–scale–clip tail is one function of (raw sum, gate) in both programs and the gates
  agree, so the three gradient results agree; the first result is the network's output in both.
-/
import proofs.«115693_j5566277616153_2_alg».proof.Proof.KernelStages
import proofs.«115693_j5566277616153_2_alg».proof.Proof.BwdRegion
import proofs.«115693_j5566277616153_2_alg».proof.Proof.HostTail
import proofs.«115693_j5566277616153_2_alg».proof.Proof.KernelRun

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.HostValue

variable (m : (ℓ : Loc nD τ sig) → Buf (Elt Ideal) ℓ) (ρ : Dev nD → PrngReg)

/-! ## The raw gradient sums -/

/-- The down-projection sum the second region leaves is the reference's. -/
theorem raw_down (c : Dev nD) : W7 m ρ c (Proc.devRef .tc main_v28_0)
    = Cert.ReferenceIdeal.Read.val_main_v27 (F := Ideal) (a0 m c) (a1 m c) (a2 m c) (a3 m c) := by
  rw [show W7 m ρ c (Proc.devRef .tc main_v28_0) = _ from (W7_arr m ρ c 5).trans (Cert.KernelIdeal.BwdValue.final5 (V6 m ρ) c)]
  funext i
  obtain ⟨d, h, rfl⟩ : ∃ (d : Fin 2048) (h : Fin 8192), i = ix2 d h := ⟨i 0, i 1, eq_ix2 i⟩
  show Cert.Mlp.rawDown (Cert.Mlp.mat (n0 := 8192) (n1 := 2048) (W6 m ρ c (Proc.devRef .tc main_v27)))
      (Cert.Mlp.mat (n0 := 8192) (n1 := 8192) (W6 m ρ c (Proc.devRef .tc main_v5_1)))
      (Cert.Mlp.mat (n0 := 8192) (n1 := 8192) (W6 m ρ c (Proc.devRef .tc main_v5_2))) d h = _
  rw [e_in, gp_in, up_in, Cert.Mlp.rawDown_errAll]
  exact (Cert.ReferenceIdeal.RefValue.ref_rawDown _ _ _ _ (ix2 d h)).symm

/-- The gate-projection sum. -/
theorem raw_gate (c : Dev nD) : W7 m ρ c (Proc.devRef .tc main_v28_1)
    = Cert.ReferenceIdeal.Read.val_main_v47 (F := Ideal) (a0 m c) (a1 m c) (a2 m c) (a3 m c) := by
  rw [show W7 m ρ c (Proc.devRef .tc main_v28_1) = _ from (W7_arr m ρ c 6).trans (Cert.KernelIdeal.BwdValue.final6 (V6 m ρ) c)]
  funext i
  obtain ⟨h, d, rfl⟩ : ∃ (h : Fin 8192) (d : Fin 2048), i = ix2 h d := ⟨i 0, i 1, eq_ix2 i⟩
  show Cert.Mlp.rawGate (Cert.Mlp.mat (n0 := 8192) (n1 := 2048) (W6 m ρ c (Proc.devRef .tc main_v27)))
      (Cert.Mlp.mat (n0 := 8192) (n1 := 2048) (W6 m ρ c (Proc.devRef .tc main_v1)))
      (Cert.Mlp.mat (n0 := 8192) (n1 := 8192) (W6 m ρ c (Proc.devRef .tc main_v5_1)))
      (Cert.Mlp.mat (n0 := 8192) (n1 := 8192) (W6 m ρ c (Proc.devRef .tc main_v5_2)))
      (Cert.Mlp.mat (n0 := 2048) (n1 := 8192) (W6 m ρ c (Proc.devRef .tc main_v4))) h d = _
  rw [e_in, xp_in, gp_in, up_in, wd2_in, Cert.Mlp.rawGate_errAll]
  exact (Cert.ReferenceIdeal.RefValue.ref_rawGate _ _ _ _ (ix2 h d)).symm

/-- The up-projection sum. -/
theorem raw_up (c : Dev nD) : W7 m ρ c (Proc.devRef .tc main_v28_2)
    = Cert.ReferenceIdeal.Read.val_main_v51 (F := Ideal) (a0 m c) (a1 m c) (a2 m c) (a3 m c) := by
  rw [show W7 m ρ c (Proc.devRef .tc main_v28_2) = _ from (W7_arr m ρ c 7).trans (Cert.KernelIdeal.BwdValue.final7 (V6 m ρ) c)]
  funext i
  obtain ⟨h, d, rfl⟩ : ∃ (h : Fin 8192) (d : Fin 2048), i = ix2 h d := ⟨i 0, i 1, eq_ix2 i⟩
  show Cert.Mlp.rawUp (Cert.Mlp.mat (n0 := 8192) (n1 := 2048) (W6 m ρ c (Proc.devRef .tc main_v27)))
      (Cert.Mlp.mat (n0 := 8192) (n1 := 2048) (W6 m ρ c (Proc.devRef .tc main_v1)))
      (Cert.Mlp.mat (n0 := 8192) (n1 := 8192) (W6 m ρ c (Proc.devRef .tc main_v5_1)))
      (Cert.Mlp.mat (n0 := 2048) (n1 := 8192) (W6 m ρ c (Proc.devRef .tc main_v4))) h d = _
  rw [e_in, xp_in, gp_in, wd2_in, Cert.Mlp.rawUp_errAll]
  exact (Cert.ReferenceIdeal.RefValue.ref_rawUp _ _ _ _ (ix2 h d)).symm

/-! ## The four results -/

/-- The gate is not touched by the second region. -/
theorem gate_after (c : Dev nD) : W7 m ρ c (Proc.devRef .tc main_v25)
    = Cert.ReferenceIdeal.Read.val_main_v16 (F := Ideal) (a0 m c) (a1 m c) (a2 m c) (a3 m c) :=
  (W7_of_ne m ρ c main_v25 (by decide)).trans (gate_eq m ρ c)

theorem kernel_out (c : Dev nD) : W14 m ρ c (Proc.devRef .tc main_v6)
    = Cert.ReferenceIdeal.Read.val_main_v4 (F := Ideal) (a0 m c) (a1 m c) (a2 m c) (a3 m c) := by
  rw [W14_v6, W7_of_ne m ρ c main_v6 (by decide), W6_v6, result0]

theorem kernel_up (c : Dev nD) : W14 m ρ c (Proc.devRef .tc main_v42)
    = Cert.ReferenceIdeal.Read.val_main_v61 (F := Ideal) (a0 m c) (a1 m c) (a2 m c) (a3 m c) := by
  rw [W14_v42, raw_up, gate_after, ref_v61]

theorem kernel_down (c : Dev nD) : W14 m ρ c (Proc.devRef .tc main_v50)
    = Cert.ReferenceIdeal.Read.val_main_v69 (F := Ideal) (a0 m c) (a1 m c) (a2 m c) (a3 m c) := by
  rw [W14_v50, raw_down, gate_after, ref_v69]

theorem kernel_gate (c : Dev nD) : W14 m ρ c (Proc.devRef .tc main_v58)
    = Cert.ReferenceIdeal.Read.val_main_v77 (F := Ideal) (a0 m c) (a1 m c) (a2 m c) (a3 m c) := by
  rw [W14_v58, raw_gate, gate_after, ref_v77]

end Cert.Bridge

end
-- ==== Proof.lean ====
/- A gated two-layer network — out = ((x·Wgᵀ)·σ(x·Wgᵀ)·(x·Wuᵀ))·Wdᵀ on 4 sequences of 2048 positions — together with
   three weight gradients of a next-position prediction error: e = 2·(out at a position − x at the next position), the
   gradients eᵀ·hidden, (∂gate)ᵀ·x and (∂up)ᵀ·x summed over the positions that have a successor, each divided by their
   number 8188, scaled by a gate computed from ‖e‖, and clipped to unit norm.
   The kernel program computes the output in a first region, tile by tile over the hidden axis, and the three sums in a
   second region, tile by tile over all 8192 rows with the error forced to zero on the four rows that have no successor;
   the reference computes one contraction each, over the 8188 rows that have one. At the exact values the two agree:
   a tiled sum is the sum, a narrowing of the float format is the identity, a product accumulated into zero is the plain
   sum, and a row whose error is zero contributes 0 · a = 0 to every sum. The kernel's idealization rewrote nothing, so
   it is the program's own text read at the exact values. -/
import proofs.«115693_j5566277616153_2_alg».proof.Defs
import proofs.«115693_j5566277616153_2_alg».proof.Proof.Gen.Kernel
import proofs.«115693_j5566277616153_2_alg».proof.Proof.Gen.Kernel.Skeleton
import proofs.«115693_j5566277616153_2_alg».proof.Proof.Gen.Kernel.Launch
import proofs.«115693_j5566277616153_2_alg».proof.Proof.Gen.Kernel.Points
import proofs.«115693_j5566277616153_2_alg».proof.Proof.Gen.Kernel.Frame
import proofs.«115693_j5566277616153_2_alg».proof.Proof.Gen.KernelIdeal
import proofs.«115693_j5566277616153_2_alg».proof.Proof.Gen.KernelIdeal.Skeleton
import proofs.«115693_j5566277616153_2_alg».proof.Proof.Gen.KernelIdeal.Launch
import proofs.«115693_j5566277616153_2_alg».proof.Proof.Gen.KernelIdeal.Points
import proofs.«115693_j5566277616153_2_alg».proof.Proof.Gen.KernelIdeal.Frame
import proofs.«115693_j5566277616153_2_alg».proof.Proof.Gen.ReferenceIdeal
import proofs.«115693_j5566277616153_2_alg».proof.Proof.Gen.ReferenceIdeal.Run
import proofs.«115693_j5566277616153_2_alg».proof.Proof.Gen.ReferenceIdeal.Read
import proofs.«115693_j5566277616153_2_alg».proof.Proof.Gen.Pre_finite_inputs
import Idealize.ShloMosaic.Adequacy
import Idealize.ShloMosaic.Init
import proofs.«115693_j5566277616153_2_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference runs, and its run leaves the arguments as launched
    exact fun m ρ _ => (θ_run Cert.ReferenceIdeal.defs _ _).mono (fun _ h c => (h c).2.2.2.2)
      (Cert.ReferenceIdeal.Value.run (F := Ideal) m ρ)
  · -- both programs end with the reference's four result terms of the kernel's argument arrays
    intro m ρ m' ρ' _ hagree
    refine ⟨fun c => Cert.ReferenceIdeal.Read.val_main_v4 (F := Ideal) (Cert.Bridge.a0 m c) (Cert.Bridge.a1 m c) (Cert.Bridge.a2 m c) (Cert.Bridge.a3 m c),
      fun c => Cert.ReferenceIdeal.Read.val_main_v61 (F := Ideal) (Cert.Bridge.a0 m c) (Cert.Bridge.a1 m c) (Cert.Bridge.a2 m c) (Cert.Bridge.a3 m c),
      fun c => Cert.ReferenceIdeal.Read.val_main_v69 (F := Ideal) (Cert.Bridge.a0 m c) (Cert.Bridge.a1 m c) (Cert.Bridge.a2 m c) (Cert.Bridge.a3 m c),
      fun c => Cert.ReferenceIdeal.Read.val_main_v77 (F := Ideal) (Cert.Bridge.a0 m c) (Cert.Bridge.a1 m c) (Cert.Bridge.a2 m c) (Cert.Bridge.a3 m c), ?_, ?_⟩
    · refine (θ_run Cert.KernelIdeal.defs _ _).mono (fun r h c => ?_) (Cert.KernelIdeal.RunValue.run_results (F := Ideal) m ρ)
      obtain ⟨h0, h1, h2, h3, hr⟩ := h c
      exact ⟨h0.trans (Cert.Bridge.kernel_out m ρ c), h1.trans (Cert.Bridge.kernel_up m ρ c),
        h2.trans (Cert.Bridge.kernel_down m ρ c), h3.trans (Cert.Bridge.kernel_gate m ρ c), hr⟩
    · refine (θ_run Cert.ReferenceIdeal.defs _ _).mono (fun r h c => ?_) (Cert.ReferenceIdeal.Value.run (F := Ideal) m' ρ')
      obtain ⟨h0, h1, h2, h3, hr⟩ := h c
      obtain ⟨e0, e1, e2, e3⟩ := hagree c
      refine ⟨?_, ?_, ?_, ?_, hr⟩
      · rw [h0, e0, e1, e2, e3]; rfl
      · rw [h1, Cert.ReferenceIdeal.Read.val_main_v61_eq, e0, e1, e2, e3]
      · rw [h2, Cert.ReferenceIdeal.Read.val_main_v69_eq, e0, e1, e2, e3]
      · rw [h3, Cert.ReferenceIdeal.Read.val_main_v77_eq, e0, e1, e2, e3]⟩

end Cert.Proof

end
